-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x64x64 : Shape := ⟨4, ![16384, 1, 64, 64]⟩
abbrev S256x4096 : Shape := ⟨2, ![256, 4096]⟩
abbrev S256 : Shape := ⟨1, ![256]⟩
abbrev S128x256 : Shape := ⟨2, ![128, 256]⟩
abbrev S128 : Shape := ⟨1, ![128]⟩
abbrev S12x128 : Shape := ⟨2, ![12, 128]⟩
abbrev S12 : Shape := ⟨1, ![12]⟩
abbrev S16384 : Shape := ⟨1, ![16384]⟩
abbrev S_ : Shape := ⟨0, ![]⟩

class Facts : Prop where
  bcast_S_S16384x1x64x64 : S_.BroadcastsInDim S16384x1x64x64 (![] : Fin 0 → Fin S16384x1x64x64.rank)
  reducesTo_S16384x1x64x64_S_d0_1_2_3 : S16384x1x64x64.ReducesTo [0, 1, 2, 3] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S12x128 : S_.BroadcastsInDim S12x128 (![] : Fin 0 → Fin S12x128.rank)
  reducesTo_S12x128_S_d0_1 : S12x128.ReducesTo [0, 1] S_
  bcast_S_S12 : S_.BroadcastsInDim S12 (![] : Fin 0 → Fin S12.rank)
  reducesTo_S12_S_d0 : S12.ReducesTo [0] S_

variable [Facts]

def fn_part3 {F : FTy → Type} [FloatOps F] (main_v48 : IVec S_ 1) (main_v49 : FVec F S12 .f32) (main_v50 : FVec F S12 .f32) : IVec S_ 1 :=
  let main_v51 : IVec S12 1 := cmpf .olt main_v49 main_v50
  let main_c_19 : IVec S_ 1 := constantI S_ 1 1#1
  let main_v52 : IVec S_ 1 := (fun x v => Host.reduce IntOp.andi x v reducesTo_S12_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S12x128 .f32) (main_arg10 : FVec F S12 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S12x128 .f32 := Host.absf main_arg9
  let main_cst_16 : FVec F S_ .f32 := constant S_ .f32 0x7F800000#32
  let main_v45 : FVec F S12x128 .f32 := broadcastInDim S12x128 ![] bcast_S_S12x128 main_cst_16
  let main_v46 : IVec S12x128 1 := cmpf .olt main_v44 main_v45
  let main_c_17 : IVec S_ 1 := constantI S_ 1 1#1
  let main_v47 : IVec S_ 1 := (fun x v => Host.reduce IntOp.andi x v reducesTo_S12x128_S_d0_1 h_S_) main_v46 main_c_17
  let main_v48 : IVec S_ 1 := andi main_v43 main_v47
  let main_v49 : FVec F S12 .f32 := Host.absf main_arg10
  let main_cst_18 : FVec F S_ .f32 := constant S_ .f32 0x7F800000#32
  let main_v50 : FVec F S12 .f32 := broadcastInDim S12 ![] bcast_S_S12 main_cst_18
  fn_part3 (F := F) main_v48 main_v49 main_v50

def fn_part1 {F : FTy → Type} [FloatOps F] (main_arg4 : FVec F S256 .f32) (main_arg5 : FVec F S128x256 .f32) (main_arg6 : FVec F S128 .f32) (main_arg7 : FVec F S128 .f32) (main_arg8 : FVec F S128 .f32) (main_arg9 : FVec F S12x128 .f32) (main_arg10 : FVec F S12 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1x64x64 .f32) (main_arg1 : FVec F S256x4096 .f32) (main_arg2 : FVec F S256 .f32) (main_arg3 : FVec F S256 .f32) (main_arg4 : FVec F S256 .f32) (main_arg5 : FVec F S128x256 .f32) (main_arg6 : FVec F S128 .f32) (main_arg7 : FVec F S128 .f32) (main_arg8 : FVec F S128 .f32) (main_arg9 : FVec F S12x128 .f32) (main_arg10 : FVec F S12 .f32) (main_arg11 : IVec S16384 32) : IVec S_ 1 :=
  let main_v0 : FVec F S16384x1x64x64 .f32 := Host.absf main_arg0
  let main_cst : FVec F S_ .f32 := constant S_ .f32 0x7F800000#32
  let main_v1 : FVec F S16384x1x64x64 .f32 := broadcastInDim S16384x1x64x64 ![] bcast_S_S16384x1x64x64 main_cst
  let main_v2 : IVec S16384x1x64x64 1 := cmpf .olt main_v0 main_v1
  let main_c : IVec S_ 1 := constantI S_ 1 1#1
  let main_v3 : IVec S_ 1 := (fun x v => Host.reduce IntOp.andi x v reducesTo_S16384x1x64x64_S_d0_1_2_3 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_v13 main_v16
-- ==== Kernel.lean ====
abbrev S16384x1x64x64 : Shape := ⟨4, ![16384, 1, 64, 64]⟩
abbrev S256x4096 : Shape := ⟨2, ![256, 4096]⟩
abbrev S256 : Shape := ⟨1, ![256]⟩
abbrev S128x256 : Shape := ⟨2, ![128, 256]⟩
abbrev S128 : Shape := ⟨1, ![128]⟩
abbrev S12x128 : Shape := ⟨2, ![12, 128]⟩
abbrev S12 : Shape := ⟨1, ![12]⟩
abbrev S16384 : Shape := ⟨1, ![16384]⟩
abbrev S16384x4096 : Shape := ⟨2, ![16384, 4096]⟩
abbrev S4096x256 : Shape := ⟨2, ![4096, 256]⟩
abbrev S1x256 : Shape := ⟨2, ![1, 256]⟩
abbrev S256x128 : Shape := ⟨2, ![256, 128]⟩
abbrev S1x128 : Shape := ⟨2, ![1, 128]⟩
abbrev S128x12 : Shape := ⟨2, ![128, 12]⟩
abbrev S1x12 : Shape := ⟨2, ![1, 12]⟩
abbrev S16384x256 : Shape := ⟨2, ![16384, 256]⟩
abbrev S512x4096 : Shape := ⟨2, ![512, 4096]⟩
abbrev S512x256 : Shape := ⟨2, ![512, 256]⟩
abbrev S_ : Shape := ⟨0, ![]⟩
abbrev S16384x128 : Shape := ⟨2, ![16384, 128]⟩
abbrev S2048x256 : Shape := ⟨2, ![2048, 256]⟩
abbrev S2048x128 : Shape := ⟨2, ![2048, 128]⟩
abbrev S16384x12 : Shape := ⟨2, ![16384, 12]⟩
abbrev S2048x12 : Shape := ⟨2, ![2048, 12]⟩

abbrev nBuf : Space → Nat
  | .hbm => 53
  | .vmem => 34
  | .smem => 0
  | _ => 0

abbrev bufTy : (tb : Table) → Fin (tcTables nBuf tb) → BufTy
  | .hbm, ⟨0, _⟩ => ⟨S16384x1x64x64, .f32⟩
  | .hbm, ⟨1, _⟩ => ⟨S256x4096, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S12x128, .f32⟩
  | .hbm, ⟨10, _⟩ => ⟨S12, .f32⟩
  | .hbm, ⟨11, _⟩ => ⟨S16384, .i32⟩
  | .hbm, ⟨12, _⟩ => ⟨S16384x4096, .f32⟩
  | .hbm, ⟨13, _⟩ => ⟨S256x4096, .f32⟩
  | .hbm, ⟨14, _⟩ => ⟨S4096x256, .f32⟩
  | .hbm, ⟨15, _⟩ => ⟨S4096x256, .bf16⟩
  | .hbm, ⟨16, _⟩ => ⟨S256, .f32⟩
  | .hbm, ⟨17, _⟩ => ⟨S1x256, .f32⟩
  | .hbm, ⟨18, _⟩ => ⟨S128x256, .f32⟩
  | .hbm, ⟨19, _⟩ => ⟨S256x128, .f32⟩
  | .hbm, ⟨20, _⟩ => ⟨S256x128, .bf16⟩
  | .hbm, ⟨21, _⟩ => ⟨S128, .f32⟩
  | .hbm, ⟨22, _⟩ => ⟨S1x128, .f32⟩
  | .hbm, ⟨23, _⟩ => ⟨S128x12, .f32⟩
  | .hbm, ⟨24, _⟩ => ⟨S128x12, .bf16⟩
  | .hbm, ⟨25, _⟩ => ⟨S1x12, .f32⟩
  | .hbm, ⟨26, _⟩ => ⟨S1x256, .f32⟩
  | .hbm, ⟨27, _⟩ => ⟨S1x256, .f32⟩
  | .hbm, ⟨28, _⟩ => ⟨S1x128, .f32⟩
  | .hbm, ⟨29, _⟩ => ⟨S1x128, .f32⟩
  | .hbm, ⟨30, _⟩ => ⟨S16384x256, .f32⟩
  | .hbm, ⟨31, _⟩ => ⟨S1x256, .f32⟩
  | .hbm, ⟨32, _⟩ => ⟨S1x256, .f32⟩
  | .hbm, ⟨33, _⟩ => ⟨S_, .f32⟩
  | .hbm, ⟨34, _⟩ => ⟨S1x256, .f32⟩
  | .hbm, ⟨35, _⟩ => ⟨S1x256, .f32⟩
  | .hbm, ⟨36, _⟩ => ⟨S_, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S16384x128, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S16384x12, .f32⟩
  | .local _ .vmem, ⟨0, _⟩ => ⟨S512x4096, .f32⟩
  | .local _ .vmem, ⟨1, _⟩ => ⟨S512x4096, .f32⟩
  | .local _ .vmem, ⟨2, _⟩ => ⟨S4096x256, .bf16⟩
  | .local _ .vmem, ⟨3, _⟩ => ⟨S1x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x128, .bf16⟩
  | .local _ .vmem, ⟨17, _⟩ => ⟨S1x128, .f32⟩
  | .local _ .vmem, ⟨18, _⟩ => ⟨S2048x128, .f32⟩
  | .local _ .vmem, ⟨19, _⟩ => ⟨S2048x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2048x128, .f32⟩
  | .local _ .vmem, ⟨25, _⟩ => ⟨S2048x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S128x12, .bf16⟩
  | .local _ .vmem, ⟨31, _⟩ => ⟨S1x12, .f32⟩
  | .local _ .vmem, ⟨32, _⟩ => ⟨S2048x12, .f32⟩
  | .local _ .vmem, ⟨33, _⟩ => ⟨S2048x12, .f32⟩
  | _, _ => ⟨S16384x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x12 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x12 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x12 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S16384x1x64x64_S16384x4096 : S16384x1x64x64.ShapeCasts S16384x4096
  transposes_S256x4096_S4096x256_1_0 : S256x4096.Transposes [1, 0] S4096x256
  bitsLt_bf16_f32 : FTy.bits .bf16 < FTy.bits .f32
  shapeCasts_S256_S1x256 : S256.ShapeCasts S1x256
  transposes_S128x256_S256x128_1_0 : S128x256.Transposes [1, 0] S256x128
  shapeCasts_S128_S1x128 : S128.ShapeCasts S1x128
  transposes_S12x128_S128x12_1_0 : S12x128.Transposes [1, 0] S128x12
  shapeCasts_S12_S1x12 : S12.ShapeCasts S1x12
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S1x256_S512x256 : S1x256.Broadcasts S512x256
  inb_S512x256_S512x256_0_0 : ∀ a, (![0, 0] : Fin 2 → Nat) a + S512x256.size a ≤ S512x256.size a
  h_S512x256 : 0 < S512x256.numel
  reduces_S512x256_S256 : S512x256.Reduces [0] S256
  bcast_S_S1x256 : S_.BroadcastsInDim S1x256 (![] : Fin 0 → Fin S1x256.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  reduces_S2048x128_S128 : S2048x128.Reduces [0] S128
  bcast_S_S1x128 : S_.BroadcastsInDim S1x128 (![] : Fin 0 → Fin S1x128.rank)
  shapeCasts_S2048x128_S2048x128 : S2048x128.ShapeCasts S2048x128
  inb_S128x12_S128x12_0_0 : ∀ a, (![0, 0] : Fin 2 → Nat) a + S128x12.size a ≤ S128x12.size a
  h_S128x12 : 0 < S128x12.numel
  shapeCasts_S128x12_S128x12 : S128x12.ShapeCasts S128x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S2048x12 : S1x12.Broadcasts S2048x12
  inb_S2048x12_S2048x12_0_0 : ∀ a, (![0, 0] : Fin 2 → Nat) a + S2048x12.size a ≤ S2048x12.size a
  h_S2048x12 : 0 < S2048x12.numel
  dot_S512x4096_S4096x256_S512x256_1_0_0_1_n_n_wf : DotDims.WF S512x4096 S4096x256 S512x256 [1] [0] [0] [1] [] []
  dot_S2048x256_S256x128_S2048x128_1_0_0_1_n_n_wf : DotDims.WF S2048x256 S256x128 S2048x128 [1] [0] [0] [1] [] []
  dot_S2048x128_S128x12_S2048x12_1_0_0_1_n_n_wf : DotDims.WF S2048x128 S128x12 S2048x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S16384x256.size a
  hwx0_3 : ∀ i : grid0.Coords, EltTy.bits .f32 = 32 ∨ (Rect.block (s := S16384x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x128.size a ≤ S16384x128.size a
  hwx1_7 : ∀ i : grid1.Coords, EltTy.bits .f32 = 32 ∨ (Rect.block (s := S16384x128) S2048x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x12.size a ≤ S128x12.size a
  hwx2_5 : ∀ i : grid2.Coords, EltTy.bits .bf16 = 32 ∨ (Rect.block (s := S128x12) S128x12.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x12.size a ≤ S1x12.size a
  hwx2_6 : ∀ i : grid2.Coords, EltTy.bits .f32 = 32 ∨ (Rect.block (s := S1x12) S1x12.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x12.size a ≤ S16384x12.size a
  hwx2_7 : ∀ i : grid2.Coords, EltTy.bits .f32 = 32 ∨ (Rect.block (s := S16384x12) S2048x12.size (cc2_transform_7 i) (hinb2_7 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x12_S2048x12_1_0_0_1_n_n : DotDims S2048x128 S128x12 S2048x12 where
  lhsContracting := [1]
  rhsContracting := [0]
  lhsNonContracting := [0]
  rhsNonContracting := [1]
  lhsBatch := []
  rhsBatch := []
  wf := dot_S2048x128_S128x12_S2048x12_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18_0) S512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_1) S1x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18_2) S1x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25_0) S2048x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v25_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v25_0) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S128x12.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S1x12.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v32) S2048x12.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S16384x1x64x64 : Shape := ⟨4, ![16384, 1, 64, 64]⟩
abbrev S256x4096 : Shape := ⟨2, ![256, 4096]⟩
abbrev S256 : Shape := ⟨1, ![256]⟩
abbrev S128x256 : Shape := ⟨2, ![128, 256]⟩
abbrev S128 : Shape := ⟨1, ![128]⟩
abbrev S12x128 : Shape := ⟨2, ![12, 128]⟩
abbrev S12 : Shape := ⟨1, ![12]⟩
abbrev S16384 : Shape := ⟨1, ![16384]⟩
abbrev S16384x4096 : Shape := ⟨2, ![16384, 4096]⟩
abbrev S4096x256 : Shape := ⟨2, ![4096, 256]⟩
abbrev S16384x256 : Shape := ⟨2, ![16384, 256]⟩
abbrev S1x256 : Shape := ⟨2, ![1, 256]⟩
abbrev S_ : Shape := ⟨0, ![]⟩
abbrev S256x128 : Shape := ⟨2, ![256, 128]⟩
abbrev S16384x128 : Shape := ⟨2, ![16384, 128]⟩
abbrev S1x128 : Shape := ⟨2, ![1, 128]⟩
abbrev S128x12 : Shape := ⟨2, ![128, 12]⟩
abbrev S16384x12 : Shape := ⟨2, ![16384, 12]⟩
abbrev S1x12 : Shape := ⟨2, ![1, 12]⟩

abbrev nBuf : Space → Nat
  | .hbm => 108
  | .vmem => 0
  | .smem => 0
  | _ => 0

abbrev bufTy : (tb : Table) → Fin (tcTables nBuf tb) → BufTy
  | .hbm, ⟨0, _⟩ => ⟨S16384x1x64x64, .f32⟩
  | .hbm, ⟨1, _⟩ => ⟨S256x4096, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S12x128, .f32⟩
  | .hbm, ⟨10, _⟩ => ⟨S12, .f32⟩
  | .hbm, ⟨11, _⟩ => ⟨S16384, .i32⟩
  | .hbm, ⟨12, _⟩ => ⟨S16384x4096, .f32⟩
  | .hbm, ⟨13, _⟩ => ⟨S256x4096, .f32⟩
  | .hbm, ⟨14, _⟩ => ⟨S4096x256, .f32⟩
  | .hbm, ⟨15, _⟩ => ⟨S16384x256, .f32⟩
  | .hbm, ⟨16, _⟩ => ⟨S256, .f32⟩
  | .hbm, ⟨17, _⟩ => ⟨S1x256, .f32⟩
  | .hbm, ⟨18, _⟩ => ⟨S16384x256, .f32⟩
  | .hbm, ⟨19, _⟩ => ⟨S16384x256, .f32⟩
  | .hbm, ⟨20, _⟩ => ⟨S_, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S1x256, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S1x256, .f32⟩
  | .hbm, ⟨35, _⟩ => ⟨S16384x256, .f32⟩
  | .hbm, ⟨36, _⟩ => ⟨S16384x256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S1x256, .f32⟩
  | .hbm, ⟨42, _⟩ => ⟨S16384x256, .f32⟩
  | .hbm, ⟨43, _⟩ => ⟨S16384x256, .f32⟩
  | .hbm, ⟨44, _⟩ => ⟨S1x256, .f32⟩
  | .hbm, ⟨45, _⟩ => ⟨S16384x256, .f32⟩
  | .hbm, ⟨46, _⟩ => ⟨S16384x256, .f32⟩
  | .hbm, ⟨47, _⟩ => ⟨S1x256, .f32⟩
  | .hbm, ⟨48, _⟩ => ⟨S16384x256, .f32⟩
  | .hbm, ⟨49, _⟩ => ⟨S16384x256, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16384x256, .f32⟩
  | .hbm, ⟨54, _⟩ => ⟨S16384x256, .f32⟩
  | .hbm, ⟨55, _⟩ => ⟨S_, .f32⟩
  | .hbm, ⟨56, _⟩ => ⟨S16384x256, .f32⟩
  | .hbm, ⟨57, _⟩ => ⟨S16384x256, .f32⟩
  | .hbm, ⟨58, _⟩ => ⟨S128x256, .f32⟩
  | .hbm, ⟨59, _⟩ => ⟨S256x128, .f32⟩
  | .hbm, ⟨60, _⟩ => ⟨S16384x128, .f32⟩
  | .hbm, ⟨61, _⟩ => ⟨S128, .f32⟩
  | .hbm, ⟨62, _⟩ => ⟨S1x128, .f32⟩
  | .hbm, ⟨63, _⟩ => ⟨S16384x128, .f32⟩
  | .hbm, ⟨64, _⟩ => ⟨S16384x128, .f32⟩
  | .hbm, ⟨65, _⟩ => ⟨S_, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S16384x128, .f32⟩
  | .hbm, ⟨72, _⟩ => ⟨S16384x128, .f32⟩
  | .hbm, ⟨73, _⟩ => ⟨S16384x128, .f32⟩
  | .hbm, ⟨74, _⟩ => ⟨S_, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S16384x128, .f32⟩
  | .hbm, ⟨81, _⟩ => ⟨S16384x128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S1x128, .f32⟩
  | .hbm, ⟨87, _⟩ => ⟨S16384x128, .f32⟩
  | .hbm, ⟨88, _⟩ => ⟨S16384x128, .f32⟩
  | .hbm, ⟨89, _⟩ => ⟨S1x128, .f32⟩
  | .hbm, ⟨90, _⟩ => ⟨S16384x128, .f32⟩
  | .hbm, ⟨91, _⟩ => ⟨S16384x128, .f32⟩
  | .hbm, ⟨92, _⟩ => ⟨S1x128, .f32⟩
  | .hbm, ⟨93, _⟩ => ⟨S16384x128, .f32⟩
  | .hbm, ⟨94, _⟩ => ⟨S16384x128, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S16384x128, .f32⟩
  | .hbm, ⟨99, _⟩ => ⟨S16384x128, .f32⟩
  | .hbm, ⟨100, _⟩ => ⟨S_, .f32⟩
  | .hbm, ⟨101, _⟩ => ⟨S16384x128, .f32⟩
  | .hbm, ⟨102, _⟩ => ⟨S16384x128, .f32⟩
  | .hbm, ⟨103, _⟩ => ⟨S128x12, .f32⟩
  | .hbm, ⟨104, _⟩ => ⟨S16384x12, .f32⟩
  | .hbm, ⟨105, _⟩ => ⟨S1x12, .f32⟩
  | .hbm, ⟨106, _⟩ => ⟨S16384x12, .f32⟩
  | .hbm, ⟨107, _⟩ => ⟨S16384x12, .f32⟩
  | _, _ => ⟨S16384x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_11 : Ref sig .tc := ⟨.hbm, 95, rfl⟩
abbrev main_cst_12 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩

abbrev nD : Nat := 1
abbrev τ : Topo := Topo.v7x

variable {F : FTy → Type} [FloatOps F]

class Facts₀ : Prop where
  shapeCasts_S16384x1x64x64_S16384x4096 : S16384x1x64x64.ShapeCasts S16384x4096
  transposes_S256x4096_S4096x256_1_0 : S256x4096.Transposes [1, 0] S4096x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S256_d0 : S16384x256.ReducesTo [0] S256
  h_S_ : 0 < S_.numel
  bcast_S_S256 : S_.BroadcastsInDim S256 (![] : Fin 0 → Fin S256.rank)
  bcast_S_S16384x256 : S_.BroadcastsInDim S16384x256 (![] : Fin 0 → Fin S16384x256.rank)
  transposes_S128x256_S256x128_1_0 : S128x256.Transposes [1, 0] S256x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S128_d0 : S16384x128.ReducesTo [0] S128
  bcast_S_S128 : S_.BroadcastsInDim S128 (![] : Fin 0 → Fin S128.rank)
  bcast_S_S16384x128 : S_.BroadcastsInDim S16384x128 (![] : Fin 0 → Fin S16384x128.rank)
  transposes_S12x128_S128x12_1_0 : S12x128.Transposes [1, 0] S128x12
  bcast_S12_S1x12_1 : S12.BroadcastsInDim S1x12 (![1] : Fin 1 → Fin S1x12.rank)
  bcast_S1x12_S16384x12_0_1 : S1x12.BroadcastsInDim S16384x12 (![0, 1] : Fin 2 → Fin S16384x12.rank)
  dot_S16384x4096_S4096x256_S16384x256_1_0_0_1_n_n_wf : DotDims.WF S16384x4096 S4096x256 S16384x256 [1] [0] [0] [1] [] []
  dot_S16384x256_S256x128_S16384x128_1_0_0_1_n_n_wf : DotDims.WF S16384x256 S256x128 S16384x128 [1] [0] [0] [1] [] []
  dot_S16384x128_S128x12_S16384x12_1_0_0_1_n_n_wf : DotDims.WF S16384x128 S128x12 S16384x12 [1] [0] [0] [1] [] []

variable [Facts₀]

def dot_S16384x4096_S4096x256_S16384x256_1_0_0_1_n_n : DotDims S16384x4096 S4096x256 S16384x256 where
  lhsContracting := [1]
  rhsContracting := [0]
  lhsNonContracting := [0]
  rhsNonContracting := [1]
  lhsBatch := []
  rhsBatch := []
  wf := dot_S16384x4096_S4096x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x12_S16384x12_1_0_0_1_n_n : DotDims S16384x128 S128x12 S16384x12 where
  lhsContracting := [1]
  rhsContracting := [0]
  lhsNonContracting := [0]
  rhsNonContracting := [1]
  lhsBatch := []
  rhsBatch := []
  wf := dot_S16384x128_S128x12_S16384x12_1_0_0_1_n_n_wf

class Facts : Prop extends Facts₀ where

variable [Facts]
-- ==== Proof.K.R0.lean ====
/-
  The first call (the first binarized linear layer and the batch statistics of its pre-activations) as one pipeline region
  entered from any contents `V` of the TensorCore's buffers. Its grid has 32 points; point `t` sees rows
  [512·t, 512·t + 512) of the flattened input through window 0, the sign matrix and the sign bias whole through windows
  1 and 2, writes the matching 512 rows of pre-activations through window 3, and keeps two running rows in scratch
  memory — the column sums of the pre-activations so far and the column sums of their squares — which it also copies
  to the result windows 4 and 5 at every point; those two are written back to their arrays only after the last point.
-/
import proofs.«145499_j5368709120128_1_alg».proof.Proof.Gen.Kernel.Launch
import proofs.«145499_j5368709120128_1_alg».proof.Proof.Gen.Kernel.Skeleton
import proofs.«145499_j5368709120128_1_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, as the region finds the array. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand window 0 is found holding its block at every point, whether that point fetched it or an earlier one did. -/
theorem found0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Operand window 1 is found holding its block at every point, whether that point fetched it or an earlier one did. -/
theorem found1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Operand window 2 is found holding its block at every point, whether that point fetched it or an earlier one did. -/
theorem found2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's one test: is this the first grid point? -/

/-- The body's condition "grid coordinate = 0", as the printed scalar chain. -/
abbrev atFirst (i : grid0.Coords) : Prop := (Scalar.cmpi .ne (Scalar.extui (Scalar.cmpi .eq (BitVec.ofNat 32 (i 0).val) 0#32)) 0#32) = 1#1
/-- It holds at point 0 and nowhere else on the grid. -/
theorem atFirst_iff : ∀ t : Fin cfg0.N, atFirst (grid0.coords t) ↔ t.val % 32 = 0 :=
  (by decide +kernel : ∀ t : Fin grid0.N, atFirst (grid0.coords t) ↔ t.val % 32 = 0)

/-! ## The memrefs the body is called with -/

abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
/-- The two accumulators the kernel keeps in scratch memory from one point to the next: the running column sums and the
    running column sums of squares. -/
abbrev sc0 : Memref sig .tc .vmem S1x256 .f32 := Memref.whole cc0_scratch0
abbrev sc1 : Memref sig .tc .vmem S1x256 .f32 := Memref.whole cc0_scratch1
abbrev VO0 : View sig .tc .vmem S512x256 .f32 := (Memref.whole cc0_stg3_0 : Memref sig .tc .vmem S512x256 .f32).view
abbrev VO1 : View sig .tc .vmem S1x256 .f32 := (Memref.whole cc0_stg4_0 : Memref sig .tc .vmem S1x256 .f32).view
abbrev VO2 : View sig .tc .vmem S1x256 .f32 := (Memref.whole cc0_stg5_0 : Memref sig .tc .vmem S1x256 .f32).view
abbrev VS0 : View sig .tc .vmem S1x256 .f32 := (sc0 : Memref sig .tc .vmem S1x256 .f32).view
abbrev VS1 : View sig .tc .vmem S1x256 .f32 := (sc1 : Memref sig .tc .vmem S1x256 .f32).view

/-! ## The body, run symbolically: at the first point, and at a later one -/

set_option maxHeartbeats 4000000 in
/-- AT THE FIRST POINT the body clears both accumulators before it uses them, so it needs nothing of what they held.
    The stores it makes into the three result buffers and the two accumulators, as lists of pieces (last first), WITH the
    fact that from the operand buffers held whole at `x·` and the other five held at anything, the body runs to its return
    leaving the operands as they were and those pieces written. -/
noncomputable def runFirst (c : Dev nD) (i : grid0.Coords) (a0 : Memref sig .tc .vmem S512x4096 .f32) (h0 : a0.IsWhole) (a1 : Memref sig .tc .vmem S4096x256 .bf16) (h1 : a1.IsWhole) (a2 : Memref sig .tc .vmem S1x256 .f32) (h2 : a2.IsWhole) (a3 : Memref sig .tc .vmem S512x256 .f32) (h3 : a3.IsWhole) (a4 : Memref sig .tc .vmem S1x256 .f32) (h4 : a4.IsWhole) (a5 : Memref sig .tc .vmem S1x256 .f32) (h5 : a5.IsWhole) (s0 : Memref sig .tc .vmem S1x256 .f32) (g0 : s0.IsWhole) (s1 : Memref sig .tc .vmem S1x256 .f32) (g1 : s1.IsWhole) (hc : atFirst i)
    (x0 : Vec F S512x4096 .f32) (x1 : Vec F S4096x256 .bf16) (x2 : Vec F S1x256 .f32) :
    Σ' (L0 : List (View.Piece (Elt F) S512x256 .f32)) (L1 : List (View.Piece (Elt F) S1x256 .f32)) (L2 : List (View.Piece (Elt F) S1x256 .f32)) (M0 : List (View.Piece (Elt F) S1x256 .f32)), { M1 : List (View.Piece (Elt F) S1x256 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d) ∗ (∃ d, owns (c : Thread nD τ) s0 fullShare d) ∗ (∃ d, owns (c : Thread nD τ) s1 fullShare d)
            ∗ (iprop(owns (c : Thread nD τ) a0 fullShare x0 ∗ owns (c : Thread nD τ) a1 fullShare x1 ∗ owns (c : Thread nD τ) a2 fullShare x2 ∗ (∃ f, a3.view.loc (c : Thread nD τ) ↦[a3.view.set]{fullShare} a3.view.writes (Elt F) f L0) ∗ (∃ f, a4.view.loc (c : Thread nD τ) ↦[a4.view.set]{fullShare} a4.view.writes (Elt F) f L1) ∗ (∃ f, a5.view.loc (c : Thread nD τ) ↦[a5.view.set]{fullShare} a5.view.writes (Elt F) f L2) ∗ (∃ f, s0.view.loc (c : Thread nD τ) ↦[s0.view.set]{fullShare} s0.view.writes (Elt F) f M0) ∗ (∃ f, s1.view.loc (c : Thread nD τ) ↦[s1.view.set]{fullShare} s1.view.writes (Elt F) f M1)) -∗ K ⟨⟩))
          ⊢ wp frame (wpE (defs₀ (F := F)) Variants.none c none) E (cc0__layer1_kernel i a0 h0 a1 h1 a2 h2 a3 h3 a4 h4 a5 h5 s0 g0 s1 g1) K } := by
  refine ⟨?_, ?_, ?_, ?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%e0, %q0, -, G0⟩, ⟨%e1, %q1, -, G1⟩, Hk⟩
    obtain rfl := h0.eq_unread hf0
    obtain rfl := h1.eq_unread hf1
    obtain rfl := h2.eq_unread hf2
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]; · iexists _; iexact H3
    isplitl [H4]; · iexists _; iexact H4
    isplitl [H5]; · iexists _; iexact H5
    isplitl [G0]; · iexists _; iexact G0
    iexists _; iexact G1

set_option maxHeartbeats 4000000 in
/-- AT A LATER POINT the accumulators hold what the point before left, `r0` and `r1`; the body adds this block's column
    sums to them. Otherwise as `runFirst`. -/
noncomputable def runNext (c : Dev nD) (i : grid0.Coords) (a0 : Memref sig .tc .vmem S512x4096 .f32) (h0 : a0.IsWhole) (a1 : Memref sig .tc .vmem S4096x256 .bf16) (h1 : a1.IsWhole) (a2 : Memref sig .tc .vmem S1x256 .f32) (h2 : a2.IsWhole) (a3 : Memref sig .tc .vmem S512x256 .f32) (h3 : a3.IsWhole) (a4 : Memref sig .tc .vmem S1x256 .f32) (h4 : a4.IsWhole) (a5 : Memref sig .tc .vmem S1x256 .f32) (h5 : a5.IsWhole) (s0 : Memref sig .tc .vmem S1x256 .f32) (g0 : s0.IsWhole) (s1 : Memref sig .tc .vmem S1x256 .f32) (g1 : s1.IsWhole) (hc : ¬atFirst i)
    (x0 : Vec F S512x4096 .f32) (x1 : Vec F S4096x256 .bf16) (x2 : Vec F S1x256 .f32) (r0 : Vec F S1x256 .f32) (r1 : Vec F S1x256 .f32) :
    Σ' (L0 : List (View.Piece (Elt F) S512x256 .f32)) (L1 : List (View.Piece (Elt F) S1x256 .f32)) (L2 : List (View.Piece (Elt F) S1x256 .f32)) (M0 : List (View.Piece (Elt F) S1x256 .f32)), { M1 : List (View.Piece (Elt F) S1x256 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d) ∗ owns (c : Thread nD τ) s0 fullShare r0 ∗ owns (c : Thread nD τ) s1 fullShare r1
            ∗ (iprop(owns (c : Thread nD τ) a0 fullShare x0 ∗ owns (c : Thread nD τ) a1 fullShare x1 ∗ owns (c : Thread nD τ) a2 fullShare x2 ∗ (∃ f, a3.view.loc (c : Thread nD τ) ↦[a3.view.set]{fullShare} a3.view.writes (Elt F) f L0) ∗ (∃ f, a4.view.loc (c : Thread nD τ) ↦[a4.view.set]{fullShare} a4.view.writes (Elt F) f L1) ∗ (∃ f, a5.view.loc (c : Thread nD τ) ↦[a5.view.set]{fullShare} a5.view.writes (Elt F) f L2) ∗ (∃ f, s0.view.loc (c : Thread nD τ) ↦[s0.view.set]{fullShare} s0.view.writes (Elt F) f M0) ∗ (∃ f, s1.view.loc (c : Thread nD τ) ↦[s1.view.set]{fullShare} s1.view.writes (Elt F) f M1)) -∗ K ⟨⟩))
          ⊢ wp frame (wpE (defs₀ (F := F)) Variants.none c none) E (cc0__layer1_kernel i a0 h0 a1 h1 a2 h2 a3 h3 a4 h4 a5 h5 s0 g0 s1 g1) K } := by
  refine ⟨?_, ?_, ?_, ?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%q0, %hq0, G0⟩, ⟨%q1, %hq1, G1⟩, Hk⟩
    obtain rfl := h0.eq_unread hf0
    obtain rfl := h1.eq_unread hf1
    obtain rfl := h2.eq_unread hf2
    obtain rfl := g0.eq_unread hq0
    obtain rfl := g1.eq_unread hq1
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]; · iexists _; iexact H3
    isplitl [H4]; · iexists _; iexact H4
    isplitl [H5]; · iexists _; iexact H5
    isplitl [G0]; · iexists _; iexact G0
    iexists _; iexact G1

/-! ## What the five buffers hold after each point -/

/-- After the first point: each buffer's pieces read back. In order: the block of pre-activations, the two result rows
    (sums, sums of squares), the two accumulators. -/
def stFirst (c : Dev nD) (t : Fin cfg0.N) (h : atFirst (grid0.coords t)) : Vec F S512x256 .f32 × Vec F S1x256 .f32 × Vec F S1x256 .f32 × Vec F S1x256 .f32 × Vec F S1x256 .f32 :=
  (VO0.read (Elt F) (VO0.writes (Elt F) VO0.junk (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).1),
      VO1.read (Elt F) (VO1.writes (Elt F) VO1.junk (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.1),
      VO2.read (Elt F) (VO2.writes (Elt F) VO2.junk (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.1),
      VS0.read (Elt F) (VS0.writes (Elt F) VS0.junk (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.2.1),
      VS1.read (Elt F) (VS1.writes (Elt F) VS1.junk (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.2.2.1))

/-- After a later point, the accumulators having been found at `r0`, `r1`. -/
def stNext (c : Dev nD) (t : Fin cfg0.N) (h : ¬atFirst (grid0.coords t)) (r0 r1 : Vec F S1x256 .f32) : Vec F S512x256 .f32 × Vec F S1x256 .f32 × Vec F S1x256 .f32 × Vec F S1x256 .f32 × Vec F S1x256 .f32 :=
  (VO0.read (Elt F) (VO0.writes (Elt F) VO0.junk (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).1),
      VO1.read (Elt F) (VO1.writes (Elt F) VO1.junk (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.1),
      VO2.read (Elt F) (VO2.writes (Elt F) VO2.junk (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.1),
      VS0.read (Elt F) (VS0.writes (Elt F) VS0.junk (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.2.1),
      VS1.read (Elt F) (VS1.writes (Elt F) VS1.junk (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.2.2.1))

/-- THE ACCUMULATION over the grid: point 0 starts the sums, every later point continues from the accumulators the
    point before left. -/
def stAt (c : Dev nD) : (n : ℕ) → n < cfg0.N → Vec F S512x256 .f32 × Vec F S1x256 .f32 × Vec F S1x256 .f32 × Vec F S1x256 .f32 × Vec F S1x256 .f32
  | 0, hn => stFirst V c ⟨0, hn⟩ ((atFirst_iff ⟨0, hn⟩).mpr (Nat.zero_mod _))
  | n + 1, hn =>
    if h0 : (n + 1) % 32 = 0 then stFirst V c ⟨n + 1, hn⟩ ((atFirst_iff ⟨n + 1, hn⟩).mpr h0)
    else stNext V c ⟨n + 1, hn⟩ (fun h => h0 ((atFirst_iff ⟨n + 1, hn⟩).mp h))
      (stAt c n (Nat.lt_of_succ_lt hn)).2.2.2.1 (stAt c n (Nat.lt_of_succ_lt hn)).2.2.2.2

theorem stAt_first (c : Dev nD) (t : Fin cfg0.N) (h0 : t.val % 32 = 0) :
    stAt V c t.val t.isLt = stFirst V c t ((atFirst_iff t).mpr h0) := by
  obtain ⟨n, hn⟩ := t
  cases n with
  | zero => exact rfl
  | succ n => exact (dif_pos h0).trans rfl

theorem stAt_next (c : Dev nD) (t : Fin cfg0.N) (h0 : ¬t.val % 32 = 0) :
    stAt V c t.val t.isLt = stNext V c t (fun h => h0 ((atFirst_iff t).mp h))
      (stAt V c (t.val - 1) (Nat.lt_of_le_of_lt (Nat.sub_le _ _) t.isLt)).2.2.2.1
      (stAt V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

/-! ## What is held between points -/

/-- Before point 0: every scoped buffer no window stages, at anything, and the generator register. Before a later point:
    the two accumulators at what the point before left, the other such buffers at anything, the register. -/
def Inv (c : Dev nD) : (n : ℕ) → n ≤ cfg0.N → sProp 𝕄
  | 0, _ => Pipeline.ΦA spec0 c
  | n + 1, hn => iprop(iprop(iprop(owns (c : Thread nD τ) sc0 fullShare (stAt V c n hn).2.2.2.1 ∗ owns (c : Thread nD τ) sc1 fullShare (stAt V c n hn).2.2.2.2)
      ∗ Pipeline.scopedRestBut (Ix := Unit) (Name := ℕ) (U := UR sig nD τ) (Lvl := ℕ) (Val := Elt F) spec0 c [cc0_scratch0, cc0_scratch1]) ∗ (∃ r, prngReg c r))

theorem Inv_zero (c : Dev nD) (n : ℕ) (h : n ≤ cfg0.N) (hz : n = 0) : Inv V c n h = Pipeline.ΦA spec0 c := by
  subst hz; rfl
theorem Inv_succ (c : Dev nD) (n : ℕ) (hn : n < cfg0.N) :
    Inv V c (n + 1) hn = iprop(iprop(iprop(owns (c : Thread nD τ) sc0 fullShare (stAt V c n hn).2.2.2.1 ∗ owns (c : Thread nD τ) sc1 fullShare (stAt V c n hn).2.2.2.2)
      ∗ Pipeline.scopedRestBut (Ix := Unit) (Name := ℕ) (U := UR sig nD τ) (Lvl := ℕ) (Val := Elt F) spec0 c [cc0_scratch0, cc0_scratch1]) ∗ (∃ r, prngReg c r)) := rfl
theorem Inv_pos (c : Dev nD) (n : ℕ) (h : n ≤ cfg0.N) (hz : n ≠ 0) :
    Inv V c n h = iprop(iprop(iprop(owns (c : Thread nD τ) sc0 fullShare (stAt V c (n - 1) (by omega)).2.2.2.1 ∗ owns (c : Thread nD τ) sc1 fullShare (stAt V c (n - 1) (by omega)).2.2.2.2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## Every store tiles its buffer -/

theorem tilesF0 (c : Dev nD) (t : Fin cfg0.N) (h : atFirst (grid0.coords t)) (y : S512x256.Idx) : ∃ pc ∈ (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).1, y ∈ pc.1.set :=
  View.cover_of_tiledL (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).1 S512x256.size (by sl_kernel_rfl) y
theorem tilesF1 (c : Dev nD) (t : Fin cfg0.N) (h : atFirst (grid0.coords t)) (y : S1x256.Idx) : ∃ pc ∈ (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.1, y ∈ pc.1.set :=
  View.cover_of_tiledL (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.1 S1x256.size (by sl_kernel_rfl) y
theorem tilesF2 (c : Dev nD) (t : Fin cfg0.N) (h : atFirst (grid0.coords t)) (y : S1x256.Idx) : ∃ pc ∈ (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.1, y ∈ pc.1.set :=
  View.cover_of_tiledL (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.1 S1x256.size (by sl_kernel_rfl) y
theorem tilesF3 (c : Dev nD) (t : Fin cfg0.N) (h : atFirst (grid0.coords t)) (y : S1x256.Idx) : ∃ pc ∈ (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.2.1, y ∈ pc.1.set :=
  View.cover_of_tiledL (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.2.1 S1x256.size (by sl_kernel_rfl) y
theorem tilesF4 (c : Dev nD) (t : Fin cfg0.N) (h : atFirst (grid0.coords t)) (y : S1x256.Idx) : ∃ pc ∈ (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.2.2.1, y ∈ pc.1.set :=
  View.cover_of_tiledL (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.2.2.1 S1x256.size (by sl_kernel_rfl) y
theorem tilesN0 (c : Dev nD) (t : Fin cfg0.N) (h : ¬atFirst (grid0.coords t)) (r0 r1 : Vec F S1x256 .f32) (y : S512x256.Idx) : ∃ pc ∈ (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).1, y ∈ pc.1.set :=
  View.cover_of_tiledL (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).1 S512x256.size (by sl_kernel_rfl) y
theorem tilesN1 (c : Dev nD) (t : Fin cfg0.N) (h : ¬atFirst (grid0.coords t)) (r0 r1 : Vec F S1x256 .f32) (y : S1x256.Idx) : ∃ pc ∈ (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.1, y ∈ pc.1.set :=
  View.cover_of_tiledL (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.1 S1x256.size (by sl_kernel_rfl) y
theorem tilesN2 (c : Dev nD) (t : Fin cfg0.N) (h : ¬atFirst (grid0.coords t)) (r0 r1 : Vec F S1x256 .f32) (y : S1x256.Idx) : ∃ pc ∈ (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.1, y ∈ pc.1.set :=
  View.cover_of_tiledL (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.1 S1x256.size (by sl_kernel_rfl) y
theorem tilesN3 (c : Dev nD) (t : Fin cfg0.N) (h : ¬atFirst (grid0.coords t)) (r0 r1 : Vec F S1x256 .f32) (y : S1x256.Idx) : ∃ pc ∈ (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.2.1, y ∈ pc.1.set :=
  View.cover_of_tiledL (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.2.1 S1x256.size (by sl_kernel_rfl) y
theorem tilesN4 (c : Dev nD) (t : Fin cfg0.N) (h : ¬atFirst (grid0.coords t)) (r0 r1 : Vec F S1x256 .f32) (y : S1x256.Idx) : ∃ pc ∈ (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.2.2.1, y ∈ pc.1.set :=
  View.cover_of_tiledL (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.2.2.1 S1x256.size (by sl_kernel_rfl) y

/-! ## The proof data -/

/-- On core `c`: the arrays as the region finds them; after the body at point `t` every operand's buffer still at its
    block, the three result buffers at the accumulation's first three components; between points `Inv`; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => (stAt V c t.val t.isLt).1
    | ⟨4, _⟩ => (stAt V c t.val t.isLt).2.1
    | ⟨5, _⟩ => (stAt V c t.val t.isLt).2.2.1
  Φ t := Inv V c t.val (Nat.le_of_lt_succ t.isLt)
  q _ := fullShare
  owed _ := 0

theorem A_eq (c : Dev nD) (w : Fin cfg0.W) : (dat V c).A w = V c (Pipeline.arrRef spec0 w) := by dsimp only [dat]
theorem Inv_castSucc (c : Dev nD) (t : Fin cfg0.N) : (dat V c).Φ t.castSucc = Inv V c t.val (Nat.le_of_lt t.isLt) := by
  dsimp only [dat]; simp only [Fin.coe_castSucc]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = (stAt V c t.val t.isLt).1 := by dsimp only [dat]
theorem after4 (c : Dev nD) (t : Fin cfg0.N) : (dat V c).after 4 t = (stAt V c t.val t.isLt).2.1 := by dsimp only [dat]
theorem after5 (c : Dev nD) (t : Fin cfg0.N) : (dat V c).after 5 t = (stAt V c t.val t.isLt).2.2.1 := by dsimp only [dat]
theorem before0 (c : Dev nD) (t : Fin cfg0.N) (d) : (dat V c).before 0 t d = blk V c 0 t :=
  found0 V (dat V c) (A_eq V c 0) (after0 V c) t d
theorem before1 (c : Dev nD) (t : Fin cfg0.N) (d) : (dat V c).before 1 t d = blk V c 1 t :=
  found1 V (dat V c) (A_eq V c 1) (after1 V c) t d
theorem before2 (c : Dev nD) (t : Fin cfg0.N) (d) : (dat V c).before 2 t d = blk V c 2 t :=
  found2 V (dat V c) (A_eq V c 2) (after2 V c) t d

/-- Before point 0 what is held is the two accumulators at anything, the other unstaged scoped buffers, the register. -/
theorem PhiA_eq (c : Dev nD) :
    (Pipeline.ΦA spec0 c : sProp 𝕄)
      = iprop(iprop(iprop((∃ d, owns (c : Thread nD τ) sc0 fullShare d) ∗ (∃ d, owns (c : Thread nD τ) sc1 fullShare d)) ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA
  rw [show (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ∗ Pipeline.scopedRestBut (Ix := Unit) (Name := ℕ) (U := UR sig nD τ) (Lvl := ℕ) (Val := Elt F) spec0 c [cc0_scratch0, cc0_scratch1])
      from Pipeline.scopedRest_split_of_list spec0 c [cc0_scratch0, cc0_scratch1] (by decide) (by decide)]
  simp only [sc0, sc1, owns_whole]; try rfl

/-! ## The body at a point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 6400000 in
/-- At any point the operands' buffers hold their blocks. At point 0 the accumulators are handed to the body at anything
    and come back at the first block's sums; at a later point they are handed over at what the point before left and come
    back with this block's sums added. Everything else that is held between points passes through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = Inv V c (t.val + 1) t.isLt from rfl, Inv_succ]
  rw [after0, after1, after2, after3, after4, after5]
  have hN : t.val < 32 := lt_of_lt_of_eq t.isLt (show cfg0.N = 32 from N_0)
  by_cases h0 : t.val % 32 = 0
  · have hz : t.val = 0 := by omega
    rw [stAt_first V c t h0]
    unfold stFirst; (try dsimp only)
    rw [Inv_castSucc V c t, Inv_zero V c _ _ hz, PhiA_eq]
    iintro ⟨⟨⟨⟨⟨%da, S0⟩, ⟨%db, S1⟩⟩, Hrest⟩, Hg⟩, Ho, ⟨%d0, H0⟩, ⟨%d1, H1⟩, ⟨%d2, H2⟩, ⟨%d3, H3⟩, ⟨%d4, H4⟩, ⟨%d5, H5⟩⟩
    iapply ((runFirst (F := F) c (grid0.coords t) _ _ _ _ _ _ _ _ _ _ _ _ _ _ _ _ ((atFirst_iff t).mpr h0) (blk V c 0 t) (blk V c 1 t) (blk V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [S0]; · iexists _; iexact S0
    isplitl [S1]; · iexists _; iexact S1
    iintro ⟨H0, H1, H2, ⟨%e3, H3⟩, ⟨%e4, H4⟩, ⟨%e5, H5⟩, ⟨%es0, S0⟩, ⟨%es1, S1⟩⟩
    isplitl [S0 S1 Hrest Hg]
    · isplitl [S0 S1 Hrest]
      · isplitl [S0 S1]
        · isplitl [S0]
          · unfold owns; iexists _; isplitr
            swap; · iexact S0
            ipureintro; exact View.read_writes_of_cover _ _ _ _ _ (tilesF3 V c t ((atFirst_iff t).mpr h0))
          · unfold owns; iexists _; isplitr
            swap; · iexact S1
            ipureintro; exact View.read_writes_of_cover _ _ _ _ _ (tilesF4 V c t ((atFirst_iff t).mpr h0))
        · iexact Hrest
      · iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (tilesF0 V c t ((atFirst_iff t).mpr h0))
    isplitl [H4]
    · unfold owns; iexists _; isplitr
      swap; · iexact H4
      ipureintro; exact View.read_writes_of_cover _ _ _ _ _ (tilesF1 V c t ((atFirst_iff t).mpr h0))
    · unfold owns; iexists _; isplitr
      swap; · iexact H5
      ipureintro; exact View.read_writes_of_cover _ _ _ _ _ (tilesF2 V c t ((atFirst_iff t).mpr h0))
  · have hz : t.val ≠ 0 := fun h => h0 (by rw [h])
    rw [stAt_next V c t h0]
    unfold stNext; (try dsimp only)
    rw [Inv_castSucc V c t, Inv_pos V c _ _ hz]
    iintro ⟨⟨⟨⟨S0, S1⟩, Hrest⟩, Hg⟩, Ho, ⟨%d0, H0⟩, ⟨%d1, H1⟩, ⟨%d2, H2⟩, ⟨%d3, H3⟩, ⟨%d4, H4⟩, ⟨%d5, H5⟩⟩
    iapply ((runNext (F := F) c (grid0.coords t) _ _ _ _ _ _ _ _ _ _ _ _ _ _ _ _ (fun h => h0 ((atFirst_iff t).mp h)) (blk V c 0 t) (blk V c 1 t) (blk V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [S0]; · iexact S0
    isplitl [S1]; · iexact S1
    iintro ⟨H0, H1, H2, ⟨%e3, H3⟩, ⟨%e4, H4⟩, ⟨%e5, H5⟩, ⟨%es0, S0⟩, ⟨%es1, S1⟩⟩
    isplitl [S0 S1 Hrest Hg]
    · isplitl [S0 S1 Hrest]
      · isplitl [S0 S1]
        · isplitl [S0]
          · unfold owns; iexists _; isplitr
            swap; · iexact S0
            ipureintro; exact View.read_writes_of_cover _ _ _ _ _ (tilesN3 V c t (fun h => h0 ((atFirst_iff t).mp h)) _ _)
          · unfold owns; iexists _; isplitr
            swap; · iexact S1
            ipureintro; exact View.read_writes_of_cover _ _ _ _ _ (tilesN4 V c t (fun h => h0 ((atFirst_iff t).mp h)) _ _)
        · iexact Hrest
      · iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (tilesN0 V c t (fun h => h0 ((atFirst_iff t).mp h)) _ _)
    isplitl [H4]
    · unfold owns; iexists _; isplitr
      swap; · iexact H4
      ipureintro; exact View.read_writes_of_cover _ _ _ _ _ (tilesN1 V c t (fun h => h0 ((atFirst_iff t).mp h)) _ _)
    · unfold owns; iexists _; isplitr
      swap; · iexact H5
      ipureintro; exact View.read_writes_of_cover _ _ _ _ _ (tilesN2 V c t (fun h => h0 ((atFirst_iff t).mp h)) _ _)

/-- The library's obligation for the body, at every point. -/
theorem body_obligation (c : Dev nD) : BodyObligation (dat (F := F) V c) (defs₀ (F := F)) Variants.none () Set.univ := fun t => by
  rw [bigSep_W0, bigSep_W0]
  exact sound_body V c t

/-- What the launch hands the region is what is held before point 0. -/
theorem inv_in (c : Dev nD) : Pipeline.ΦA spec0 c ⊢ (dat V c).Φ 0 := by
  rw [show (dat V c).Φ 0 = Inv V c 0 (Nat.zero_le _) from rfl, Inv_zero V c 0 _ rfl]
  try exact Idealize.SL.BI.Entails.refl _

/-- After the last point the accumulators' contents are forgotten again. -/
theorem inv_out (c : Dev nD) : (dat V c).Φ (Fin.last cfg0.N) ⊢ Pipeline.ΦA spec0 c := by
  rw [show (dat V c).Φ (Fin.last cfg0.N) = Inv V c (Fin.last cfg0.N).val (Nat.le_of_lt_succ (Fin.last cfg0.N).isLt) from rfl,
    Inv_pos V c _ _ (by rw [Fin.val_last]; have : cfg0.N = 32 := N_0; omega), PhiA_eq]
  iintro ⟨⟨⟨S0, S1⟩, Hrest⟩, Hg⟩
  isplitl [S0 S1 Hrest]
  · isplitl [S0 S1]
    · isplitl [S0]
      · iexists _; iexact S0
      · iexists _; iexact S1
    · iexact Hrest
  · iexact Hg

end Cert.Kernel.R0

end
-- ==== Proof.K.R1.lean ====
/-
  The second call (normalize and clip the first layer's pre-activations, the second binarized linear layer, and the batch
  statistics of its pre-activations) as one pipeline region entered from any contents `V` of the TensorCore's buffers.
  Its grid has 8 points; point `t` sees rows [2048·t, 2048·t + 2048) of the first layer's pre-activations through
  window 0, the six small operands (mean, variance, scale, shift, sign matrix, sign bias) whole through windows 1–6,
  writes the matching 2048 rows of second-layer pre-activations through window 7, and keeps two running rows in scratch
  memory — the column sums so far and the column sums of squares — copied to the result windows 8 and 9 at every point
  and written back to their arrays only after the last point.
-/
import proofs.«145499_j5368709120128_1_alg».proof.Proof.Gen.Kernel.Launch
import proofs.«145499_j5368709120128_1_alg».proof.Proof.Gen.Kernel.Skeleton
import proofs.«145499_j5368709120128_1_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, as the region finds the array. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand window 0 is found holding its block at every point, whether that point fetched it or an earlier one did. -/
theorem found0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Operand window 1 is found holding its block at every point, whether that point fetched it or an earlier one did. -/
theorem found1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Operand window 2 is found holding its block at every point, whether that point fetched it or an earlier one did. -/
theorem found2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Operand window 3 is found holding its block at every point, whether that point fetched it or an earlier one did. -/
theorem found3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Operand window 4 is found holding its block at every point, whether that point fetched it or an earlier one did. -/
theorem found4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Operand window 5 is found holding its block at every point, whether that point fetched it or an earlier one did. -/
theorem found5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
/-- Operand window 6 is found holding its block at every point, whether that point fetched it or an earlier one did. -/
theorem found6 {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The body's one test: is this the first grid point? -/

/-- The body's condition "grid coordinate = 0", as the printed scalar chain. -/
abbrev atFirst (i : grid1.Coords) : Prop := (Scalar.cmpi .ne (Scalar.extui (Scalar.cmpi .eq (BitVec.ofNat 32 (i 0).val) 0#32)) 0#32) = 1#1
/-- It holds at point 0 and nowhere else on the grid. -/
theorem atFirst_iff : ∀ t : Fin cfg1.N, atFirst (grid1.coords t) ↔ t.val % 8 = 0 :=
  (by decide +kernel : ∀ t : Fin grid1.N, atFirst (grid1.coords t) ↔ t.val % 8 = 0)

/-! ## The memrefs the body is called with -/

abbrev ms0 (t : Fin cfg1.N) : Memref sig .tc .vmem S2048x256 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x256 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x256 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S256x128 .bf16 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x128 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S2048x128 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1x128 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S1x128 .f32 := win1_9.stage (cfg1.slots t 9)
abbrev hs9 (t : Fin cfg1.N) : (ms9 t).IsWhole := hstage1_9 ((cfg1.slots t 9).cast nbuf1_9)
/-- The two accumulators the kernel keeps in scratch memory from one point to the next: the running column sums and the
    running column sums of squares. -/
abbrev sc0 : Memref sig .tc .vmem S1x128 .f32 := Memref.whole cc1_scratch0
abbrev sc1 : Memref sig .tc .vmem S1x128 .f32 := Memref.whole cc1_scratch1
abbrev VO0 : View sig .tc .vmem S2048x128 .f32 := (Memref.whole cc1_stg7_0 : Memref sig .tc .vmem S2048x128 .f32).view
abbrev VO1 : View sig .tc .vmem S1x128 .f32 := (Memref.whole cc1_stg8_0 : Memref sig .tc .vmem S1x128 .f32).view
abbrev VO2 : View sig .tc .vmem S1x128 .f32 := (Memref.whole cc1_stg9_0 : Memref sig .tc .vmem S1x128 .f32).view
abbrev VS0 : View sig .tc .vmem S1x128 .f32 := (sc0 : Memref sig .tc .vmem S1x128 .f32).view
abbrev VS1 : View sig .tc .vmem S1x128 .f32 := (sc1 : Memref sig .tc .vmem S1x128 .f32).view

/-! ## The body, run symbolically: at the first point, and at a later one -/

set_option maxHeartbeats 4000000 in
/-- AT THE FIRST POINT the body clears both accumulators before it uses them, so it needs nothing of what they held.
    The stores it makes into the three result buffers and the two accumulators, as lists of pieces (last first), WITH the
    fact that from the operand buffers held whole at `x·` and the other five held at anything, the body runs to its return
    leaving the operands as they were and those pieces written. -/
noncomputable def runFirst (c : Dev nD) (i : grid1.Coords) (a0 : Memref sig .tc .vmem S2048x256 .f32) (h0 : a0.IsWhole) (a1 : Memref sig .tc .vmem S1x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S256x128 .bf16) (h5 : a5.IsWhole) (a6 : Memref sig .tc .vmem S1x128 .f32) (h6 : a6.IsWhole) (a7 : Memref sig .tc .vmem S2048x128 .f32) (h7 : a7.IsWhole) (a8 : Memref sig .tc .vmem S1x128 .f32) (h8 : a8.IsWhole) (a9 : Memref sig .tc .vmem S1x128 .f32) (h9 : a9.IsWhole) (s0 : Memref sig .tc .vmem S1x128 .f32) (g0 : s0.IsWhole) (s1 : Memref sig .tc .vmem S1x128 .f32) (g1 : s1.IsWhole) (hc : atFirst i)
    (x0 : Vec F S2048x256 .f32) (x1 : Vec F S1x256 .f32) (x2 : Vec F S1x256 .f32) (x3 : Vec F S1x256 .f32) (x4 : Vec F S1x256 .f32) (x5 : Vec F S256x128 .bf16) (x6 : Vec F S1x128 .f32) :
    Σ' (L0 : List (View.Piece (Elt F) S2048x128 .f32)) (L1 : List (View.Piece (Elt F) S1x128 .f32)) (L2 : List (View.Piece (Elt F) S1x128 .f32)) (M0 : List (View.Piece (Elt F) S1x128 .f32)), { M1 : List (View.Piece (Elt F) S1x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) s0 fullShare d) ∗ (∃ d, owns (c : Thread nD τ) s1 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L0) ∗ (∃ f, a8.view.loc (c : Thread nD τ) ↦[a8.view.set]{fullShare} a8.view.writes (Elt F) f L1) ∗ (∃ f, a9.view.loc (c : Thread nD τ) ↦[a9.view.set]{fullShare} a9.view.writes (Elt F) f L2) ∗ (∃ f, s0.view.loc (c : Thread nD τ) ↦[s0.view.set]{fullShare} s0.view.writes (Elt F) f M0) ∗ (∃ f, s1.view.loc (c : Thread nD τ) ↦[s1.view.set]{fullShare} s1.view.writes (Elt F) f M1)) -∗ K ⟨⟩))
          ⊢ wp frame (wpE (defs₀ (F := F)) Variants.none c none) E (cc1__layer2_kernel i a0 h0 a1 h1 a2 h2 a3 h3 a4 h4 a5 h5 a6 h6 a7 h7 a8 h8 a9 h9 s0 g0 s1 g1) K } := by
  refine ⟨?_, ?_, ?_, ?_, ?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%e0, %q0, -, G0⟩, ⟨%e1, %q1, -, G1⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    isplitl [H9]; · iexists _; iexact H9
    isplitl [G0]; · iexists _; iexact G0
    iexists _; iexact G1

set_option maxHeartbeats 4000000 in
/-- AT A LATER POINT the accumulators hold what the point before left, `r0` and `r1`; the body adds this block's column
    sums to them. Otherwise as `runFirst`. -/
noncomputable def runNext (c : Dev nD) (i : grid1.Coords) (a0 : Memref sig .tc .vmem S2048x256 .f32) (h0 : a0.IsWhole) (a1 : Memref sig .tc .vmem S1x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S256x128 .bf16) (h5 : a5.IsWhole) (a6 : Memref sig .tc .vmem S1x128 .f32) (h6 : a6.IsWhole) (a7 : Memref sig .tc .vmem S2048x128 .f32) (h7 : a7.IsWhole) (a8 : Memref sig .tc .vmem S1x128 .f32) (h8 : a8.IsWhole) (a9 : Memref sig .tc .vmem S1x128 .f32) (h9 : a9.IsWhole) (s0 : Memref sig .tc .vmem S1x128 .f32) (g0 : s0.IsWhole) (s1 : Memref sig .tc .vmem S1x128 .f32) (g1 : s1.IsWhole) (hc : ¬atFirst i)
    (x0 : Vec F S2048x256 .f32) (x1 : Vec F S1x256 .f32) (x2 : Vec F S1x256 .f32) (x3 : Vec F S1x256 .f32) (x4 : Vec F S1x256 .f32) (x5 : Vec F S256x128 .bf16) (x6 : Vec F S1x128 .f32) (r0 : Vec F S1x128 .f32) (r1 : Vec F S1x128 .f32) :
    Σ' (L0 : List (View.Piece (Elt F) S2048x128 .f32)) (L1 : List (View.Piece (Elt F) S1x128 .f32)) (L2 : List (View.Piece (Elt F) S1x128 .f32)) (M0 : List (View.Piece (Elt F) S1x128 .f32)), { M1 : List (View.Piece (Elt F) S1x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ owns (c : Thread nD τ) s0 fullShare r0 ∗ owns (c : Thread nD τ) s1 fullShare r1
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L0) ∗ (∃ f, a8.view.loc (c : Thread nD τ) ↦[a8.view.set]{fullShare} a8.view.writes (Elt F) f L1) ∗ (∃ f, a9.view.loc (c : Thread nD τ) ↦[a9.view.set]{fullShare} a9.view.writes (Elt F) f L2) ∗ (∃ f, s0.view.loc (c : Thread nD τ) ↦[s0.view.set]{fullShare} s0.view.writes (Elt F) f M0) ∗ (∃ f, s1.view.loc (c : Thread nD τ) ↦[s1.view.set]{fullShare} s1.view.writes (Elt F) f M1)) -∗ K ⟨⟩))
          ⊢ wp frame (wpE (defs₀ (F := F)) Variants.none c none) E (cc1__layer2_kernel i a0 h0 a1 h1 a2 h2 a3 h3 a4 h4 a5 h5 a6 h6 a7 h7 a8 h8 a9 h9 s0 g0 s1 g1) K } := by
  refine ⟨?_, ?_, ?_, ?_, ?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%q0, %hq0, G0⟩, ⟨%q1, %hq1, G1⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := g0.eq_unread hq0
    obtain rfl := g1.eq_unread hq1
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    isplitl [H9]; · iexists _; iexact H9
    isplitl [G0]; · iexists _; iexact G0
    iexists _; iexact G1

/-! ## What the five buffers hold after each point -/

/-- After the first point: each buffer's pieces read back. In order: the block of pre-activations, the two result rows
    (sums, sums of squares), the two accumulators. -/
def stFirst (c : Dev nD) (t : Fin cfg1.N) (h : atFirst (grid1.coords t)) : Vec F S2048x128 .f32 × Vec F S1x128 .f32 × Vec F S1x128 .f32 × Vec F S1x128 .f32 × Vec F S1x128 .f32 :=
  (VO0.read (Elt F) (VO0.writes (Elt F) VO0.junk (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).1),
      VO1.read (Elt F) (VO1.writes (Elt F) VO1.junk (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.1),
      VO2.read (Elt F) (VO2.writes (Elt F) VO2.junk (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.1),
      VS0.read (Elt F) (VS0.writes (Elt F) VS0.junk (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.2.1),
      VS1.read (Elt F) (VS1.writes (Elt F) VS1.junk (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.2.2.1))

/-- After a later point, the accumulators having been found at `r0`, `r1`. -/
def stNext (c : Dev nD) (t : Fin cfg1.N) (h : ¬atFirst (grid1.coords t)) (r0 r1 : Vec F S1x128 .f32) : Vec F S2048x128 .f32 × Vec F S1x128 .f32 × Vec F S1x128 .f32 × Vec F S1x128 .f32 × Vec F S1x128 .f32 :=
  (VO0.read (Elt F) (VO0.writes (Elt F) VO0.junk (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).1),
      VO1.read (Elt F) (VO1.writes (Elt F) VO1.junk (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.1),
      VO2.read (Elt F) (VO2.writes (Elt F) VO2.junk (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.1),
      VS0.read (Elt F) (VS0.writes (Elt F) VS0.junk (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.2.1),
      VS1.read (Elt F) (VS1.writes (Elt F) VS1.junk (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.2.2.1))

/-- THE ACCUMULATION over the grid: point 0 starts the sums, every later point continues from the accumulators the
    point before left. -/
def stAt (c : Dev nD) : (n : ℕ) → n < cfg1.N → Vec F S2048x128 .f32 × Vec F S1x128 .f32 × Vec F S1x128 .f32 × Vec F S1x128 .f32 × Vec F S1x128 .f32
  | 0, hn => stFirst V c ⟨0, hn⟩ ((atFirst_iff ⟨0, hn⟩).mpr (Nat.zero_mod _))
  | n + 1, hn =>
    if h0 : (n + 1) % 8 = 0 then stFirst V c ⟨n + 1, hn⟩ ((atFirst_iff ⟨n + 1, hn⟩).mpr h0)
    else stNext V c ⟨n + 1, hn⟩ (fun h => h0 ((atFirst_iff ⟨n + 1, hn⟩).mp h))
      (stAt c n (Nat.lt_of_succ_lt hn)).2.2.2.1 (stAt c n (Nat.lt_of_succ_lt hn)).2.2.2.2

theorem stAt_first (c : Dev nD) (t : Fin cfg1.N) (h0 : t.val % 8 = 0) :
    stAt V c t.val t.isLt = stFirst V c t ((atFirst_iff t).mpr h0) := by
  obtain ⟨n, hn⟩ := t
  cases n with
  | zero => exact rfl
  | succ n => exact (dif_pos h0).trans rfl

theorem stAt_next (c : Dev nD) (t : Fin cfg1.N) (h0 : ¬t.val % 8 = 0) :
    stAt V c t.val t.isLt = stNext V c t (fun h => h0 ((atFirst_iff t).mp h))
      (stAt V c (t.val - 1) (Nat.lt_of_le_of_lt (Nat.sub_le _ _) t.isLt)).2.2.2.1
      (stAt V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

/-! ## What is held between points -/

/-- Before point 0: every scoped buffer no window stages, at anything, and the generator register. Before a later point:
    the two accumulators at what the point before left, the other such buffers at anything, the register. -/
def Inv (c : Dev nD) : (n : ℕ) → n ≤ cfg1.N → sProp 𝕄
  | 0, _ => Pipeline.ΦA spec1 c
  | n + 1, hn => iprop(iprop(iprop(owns (c : Thread nD τ) sc0 fullShare (stAt V c n hn).2.2.2.1 ∗ owns (c : Thread nD τ) sc1 fullShare (stAt V c n hn).2.2.2.2)
      ∗ Pipeline.scopedRestBut (Ix := Unit) (Name := ℕ) (U := UR sig nD τ) (Lvl := ℕ) (Val := Elt F) spec1 c [cc1_scratch0, cc1_scratch1]) ∗ (∃ r, prngReg c r))

theorem Inv_zero (c : Dev nD) (n : ℕ) (h : n ≤ cfg1.N) (hz : n = 0) : Inv V c n h = Pipeline.ΦA spec1 c := by
  subst hz; rfl
theorem Inv_succ (c : Dev nD) (n : ℕ) (hn : n < cfg1.N) :
    Inv V c (n + 1) hn = iprop(iprop(iprop(owns (c : Thread nD τ) sc0 fullShare (stAt V c n hn).2.2.2.1 ∗ owns (c : Thread nD τ) sc1 fullShare (stAt V c n hn).2.2.2.2)
      ∗ Pipeline.scopedRestBut (Ix := Unit) (Name := ℕ) (U := UR sig nD τ) (Lvl := ℕ) (Val := Elt F) spec1 c [cc1_scratch0, cc1_scratch1]) ∗ (∃ r, prngReg c r)) := rfl
theorem Inv_pos (c : Dev nD) (n : ℕ) (h : n ≤ cfg1.N) (hz : n ≠ 0) :
    Inv V c n h = iprop(iprop(iprop(owns (c : Thread nD τ) sc0 fullShare (stAt V c (n - 1) (by omega)).2.2.2.1 ∗ owns (c : Thread nD τ) sc1 fullShare (stAt V c (n - 1) (by omega)).2.2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## Every store tiles its buffer -/

theorem tilesF0 (c : Dev nD) (t : Fin cfg1.N) (h : atFirst (grid1.coords t)) (y : S2048x128.Idx) : ∃ pc ∈ (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).1, y ∈ pc.1.set :=
  View.cover_of_tiledL (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).1 S2048x128.size (by sl_kernel_rfl) y
theorem tilesF1 (c : Dev nD) (t : Fin cfg1.N) (h : atFirst (grid1.coords t)) (y : S1x128.Idx) : ∃ pc ∈ (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.1, y ∈ pc.1.set :=
  View.cover_of_tiledL (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.1 S1x128.size (by sl_kernel_rfl) y
theorem tilesF2 (c : Dev nD) (t : Fin cfg1.N) (h : atFirst (grid1.coords t)) (y : S1x128.Idx) : ∃ pc ∈ (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.1, y ∈ pc.1.set :=
  View.cover_of_tiledL (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.1 S1x128.size (by sl_kernel_rfl) y
theorem tilesF3 (c : Dev nD) (t : Fin cfg1.N) (h : atFirst (grid1.coords t)) (y : S1x128.Idx) : ∃ pc ∈ (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.2.1, y ∈ pc.1.set :=
  View.cover_of_tiledL (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.2.1 S1x128.size (by sl_kernel_rfl) y
theorem tilesF4 (c : Dev nD) (t : Fin cfg1.N) (h : atFirst (grid1.coords t)) (y : S1x128.Idx) : ∃ pc ∈ (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.2.2.1, y ∈ pc.1.set :=
  View.cover_of_tiledL (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.2.2.1 S1x128.size (by sl_kernel_rfl) y
theorem tilesN0 (c : Dev nD) (t : Fin cfg1.N) (h : ¬atFirst (grid1.coords t)) (r0 r1 : Vec F S1x128 .f32) (y : S2048x128.Idx) : ∃ pc ∈ (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).1, y ∈ pc.1.set :=
  View.cover_of_tiledL (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).1 S2048x128.size (by sl_kernel_rfl) y
theorem tilesN1 (c : Dev nD) (t : Fin cfg1.N) (h : ¬atFirst (grid1.coords t)) (r0 r1 : Vec F S1x128 .f32) (y : S1x128.Idx) : ∃ pc ∈ (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.1, y ∈ pc.1.set :=
  View.cover_of_tiledL (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.1 S1x128.size (by sl_kernel_rfl) y
theorem tilesN2 (c : Dev nD) (t : Fin cfg1.N) (h : ¬atFirst (grid1.coords t)) (r0 r1 : Vec F S1x128 .f32) (y : S1x128.Idx) : ∃ pc ∈ (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.1, y ∈ pc.1.set :=
  View.cover_of_tiledL (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.1 S1x128.size (by sl_kernel_rfl) y
theorem tilesN3 (c : Dev nD) (t : Fin cfg1.N) (h : ¬atFirst (grid1.coords t)) (r0 r1 : Vec F S1x128 .f32) (y : S1x128.Idx) : ∃ pc ∈ (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.2.1, y ∈ pc.1.set :=
  View.cover_of_tiledL (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.2.1 S1x128.size (by sl_kernel_rfl) y
theorem tilesN4 (c : Dev nD) (t : Fin cfg1.N) (h : ¬atFirst (grid1.coords t)) (r0 r1 : Vec F S1x128 .f32) (y : S1x128.Idx) : ∃ pc ∈ (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.2.2.1, y ∈ pc.1.set :=
  View.cover_of_tiledL (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.2.2.1 S1x128.size (by sl_kernel_rfl) y

/-! ## The proof data -/

/-- On core `c`: the arrays as the region finds them; after the body at point `t` every operand's buffer still at its
    block, the three result buffers at the accumulation's first three components; between points `Inv`; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => (stAt V c t.val t.isLt).1
    | ⟨8, _⟩ => (stAt V c t.val t.isLt).2.1
    | ⟨9, _⟩ => (stAt V c t.val t.isLt).2.2.1
  Φ t := Inv V c t.val (Nat.le_of_lt_succ t.isLt)
  q _ := fullShare
  owed _ := 0

theorem A_eq (c : Dev nD) (w : Fin cfg1.W) : (dat V c).A w = V c (Pipeline.arrRef spec1 w) := by dsimp only [dat]
theorem Inv_castSucc (c : Dev nD) (t : Fin cfg1.N) : (dat V c).Φ t.castSucc = Inv V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = blk V c 6 t := by dsimp only [dat]
theorem after7 (c : Dev nD) (t : Fin cfg1.N) : (dat V c).after 7 t = (stAt V c t.val t.isLt).1 := by dsimp only [dat]
theorem after8 (c : Dev nD) (t : Fin cfg1.N) : (dat V c).after 8 t = (stAt V c t.val t.isLt).2.1 := by dsimp only [dat]
theorem after9 (c : Dev nD) (t : Fin cfg1.N) : (dat V c).after 9 t = (stAt V c t.val t.isLt).2.2.1 := by dsimp only [dat]
theorem before0 (c : Dev nD) (t : Fin cfg1.N) (d) : (dat V c).before 0 t d = blk V c 0 t :=
  found0 V (dat V c) (A_eq V c 0) (after0 V c) t d
theorem before1 (c : Dev nD) (t : Fin cfg1.N) (d) : (dat V c).before 1 t d = blk V c 1 t :=
  found1 V (dat V c) (A_eq V c 1) (after1 V c) t d
theorem before2 (c : Dev nD) (t : Fin cfg1.N) (d) : (dat V c).before 2 t d = blk V c 2 t :=
  found2 V (dat V c) (A_eq V c 2) (after2 V c) t d
theorem before3 (c : Dev nD) (t : Fin cfg1.N) (d) : (dat V c).before 3 t d = blk V c 3 t :=
  found3 V (dat V c) (A_eq V c 3) (after3 V c) t d
theorem before4 (c : Dev nD) (t : Fin cfg1.N) (d) : (dat V c).before 4 t d = blk V c 4 t :=
  found4 V (dat V c) (A_eq V c 4) (after4 V c) t d
theorem before5 (c : Dev nD) (t : Fin cfg1.N) (d) : (dat V c).before 5 t d = blk V c 5 t :=
  found5 V (dat V c) (A_eq V c 5) (after5 V c) t d
theorem before6 (c : Dev nD) (t : Fin cfg1.N) (d) : (dat V c).before 6 t d = blk V c 6 t :=
  found6 V (dat V c) (A_eq V c 6) (after6 V c) t d

/-- Before point 0 what is held is the two accumulators at anything, the other unstaged scoped buffers, the register. -/
theorem PhiA_eq (c : Dev nD) :
    (Pipeline.ΦA spec1 c : sProp 𝕄)
      = iprop(iprop(iprop((∃ d, owns (c : Thread nD τ) sc0 fullShare d) ∗ (∃ d, owns (c : Thread nD τ) sc1 fullShare d)) ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA
  rw [show (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ Pipeline.scopedRestBut (Ix := Unit) (Name := ℕ) (U := UR sig nD τ) (Lvl := ℕ) (Val := Elt F) spec1 c [cc1_scratch0, cc1_scratch1])
      from Pipeline.scopedRest_split_of_list spec1 c [cc1_scratch0, cc1_scratch1] (by decide) (by decide)]
  simp only [sc0, sc1, owns_whole]; try rfl

/-! ## The body at a point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t))

set_option maxHeartbeats 6400000 in
/-- At any point the operands' buffers hold their blocks. At point 0 the accumulators are handed to the body at anything
    and come back at the first block's sums; at a later point they are handed over at what the point before left and come
    back with this block's sums added. Everything else that is held between points passes through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).owesAt () t.succ = (dat V c).owesAt () t.castSucc from rfl]
  rw [show (dat V c).Φ t.succ = Inv V c (t.val + 1) t.isLt from rfl, Inv_succ]
  rw [after0, after1, after2, after3, after4, after5, after6, after7, after8, after9]
  have hN : t.val < 8 := lt_of_lt_of_eq t.isLt (show cfg1.N = 8 from N_1)
  by_cases h0 : t.val % 8 = 0
  · have hz : t.val = 0 := by omega
    rw [stAt_first V c t h0]
    unfold stFirst; (try dsimp only)
    rw [Inv_castSucc V c t, Inv_zero V c _ _ hz, PhiA_eq]
    iintro ⟨⟨⟨⟨⟨%da, S0⟩, ⟨%db, S1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst (F := F) c (grid1.coords t) _ _ _ _ _ _ _ _ _ _ _ _ _ _ _ _ _ _ _ _ _ _ _ _ ((atFirst_iff t).mpr h0) (blk V c 0 t) (blk V c 1 t) (blk V c 2 t) (blk V c 3 t) (blk V c 4 t) (blk V c 5 t) (blk V c 6 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [S0]; · iexists _; iexact S0
    isplitl [S1]; · iexists _; iexact S1
    iintro ⟨H0, H1, H2, H3, H4, H5, H6, ⟨%e7, H7⟩, ⟨%e8, H8⟩, ⟨%e9, H9⟩, ⟨%es0, S0⟩, ⟨%es1, S1⟩⟩
    isplitl [S0 S1 Hrest Hg]
    · isplitl [S0 S1 Hrest]
      · isplitl [S0 S1]
        · isplitl [S0]
          · unfold owns; iexists _; isplitr
            swap; · iexact S0
            ipureintro; exact View.read_writes_of_cover _ _ _ _ _ (tilesF3 V c t ((atFirst_iff t).mpr h0))
          · unfold owns; iexists _; isplitr
            swap; · iexact S1
            ipureintro; exact View.read_writes_of_cover _ _ _ _ _ (tilesF4 V c t ((atFirst_iff t).mpr h0))
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (tilesF0 V c t ((atFirst_iff t).mpr h0))
    isplitl [H8]
    · unfold owns; iexists _; isplitr
      swap; · iexact H8
      ipureintro; exact View.read_writes_of_cover _ _ _ _ _ (tilesF1 V c t ((atFirst_iff t).mpr h0))
    · unfold owns; iexists _; isplitr
      swap; · iexact H9
      ipureintro; exact View.read_writes_of_cover _ _ _ _ _ (tilesF2 V c t ((atFirst_iff t).mpr h0))
  · have hz : t.val ≠ 0 := fun h => h0 (by rw [h])
    rw [stAt_next V c t h0]
    unfold stNext; (try dsimp only)
    rw [Inv_castSucc V c t, Inv_pos V c _ _ hz]
    iintro ⟨⟨⟨⟨S0, S1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runNext (F := F) c (grid1.coords t) _ _ _ _ _ _ _ _ _ _ _ _ _ _ _ _ _ _ _ _ _ _ _ _ (fun h => h0 ((atFirst_iff t).mp h)) (blk V c 0 t) (blk V c 1 t) (blk V c 2 t) (blk V c 3 t) (blk V c 4 t) (blk V c 5 t) (blk V c 6 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [S0]; · iexact S0
    isplitl [S1]; · iexact S1
    iintro ⟨H0, H1, H2, H3, H4, H5, H6, ⟨%e7, H7⟩, ⟨%e8, H8⟩, ⟨%e9, H9⟩, ⟨%es0, S0⟩, ⟨%es1, S1⟩⟩
    isplitl [S0 S1 Hrest Hg]
    · isplitl [S0 S1 Hrest]
      · isplitl [S0 S1]
        · isplitl [S0]
          · unfold owns; iexists _; isplitr
            swap; · iexact S0
            ipureintro; exact View.read_writes_of_cover _ _ _ _ _ (tilesN3 V c t (fun h => h0 ((atFirst_iff t).mp h)) _ _)
          · unfold owns; iexists _; isplitr
            swap; · iexact S1
            ipureintro; exact View.read_writes_of_cover _ _ _ _ _ (tilesN4 V c t (fun h => h0 ((atFirst_iff t).mp h)) _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (tilesN0 V c t (fun h => h0 ((atFirst_iff t).mp h)) _ _)
    isplitl [H8]
    · unfold owns; iexists _; isplitr
      swap; · iexact H8
      ipureintro; exact View.read_writes_of_cover _ _ _ _ _ (tilesN1 V c t (fun h => h0 ((atFirst_iff t).mp h)) _ _)
    · unfold owns; iexists _; isplitr
      swap; · iexact H9
      ipureintro; exact View.read_writes_of_cover _ _ _ _ _ (tilesN2 V c t (fun h => h0 ((atFirst_iff t).mp h)) _ _)

/-- The library's obligation for the body, at every point. -/
theorem body_obligation (c : Dev nD) : BodyObligation (dat (F := F) V c) (defs₀ (F := F)) Variants.none () Set.univ := fun t => by
  rw [bigSep_W1, bigSep_W1]
  exact sound_body V c t

/-- What the launch hands the region is what is held before point 0. -/
theorem inv_in (c : Dev nD) : Pipeline.ΦA spec1 c ⊢ (dat V c).Φ 0 := by
  rw [show (dat V c).Φ 0 = Inv V c 0 (Nat.zero_le _) from rfl, Inv_zero V c 0 _ rfl]
  try exact Idealize.SL.BI.Entails.refl _

/-- After the last point the accumulators' contents are forgotten again. -/
theorem inv_out (c : Dev nD) : (dat V c).Φ (Fin.last cfg1.N) ⊢ Pipeline.ΦA spec1 c := by
  rw [show (dat V c).Φ (Fin.last cfg1.N) = Inv V c (Fin.last cfg1.N).val (Nat.le_of_lt_succ (Fin.last cfg1.N).isLt) from rfl,
    Inv_pos V c _ _ (by rw [Fin.val_last]; have : cfg1.N = 8 := N_1; omega), PhiA_eq]
  iintro ⟨⟨⟨S0, S1⟩, Hrest⟩, Hg⟩
  isplitl [S0 S1 Hrest]
  · isplitl [S0 S1]
    · isplitl [S0]
      · iexists _; iexact S0
      · iexists _; iexact S1
    · iexact Hrest
  · iexact Hg

end Cert.Kernel.R1

end
-- ==== Proof.K.R2.lean ====
/-
  The third call (the final linear layer) of the program, as one pipeline region entered from any contents `V` of the
  TensorCore's buffers. Its grid has 8 points; point `t` sees rows [2048·t, 2048·t + 2048) of the normalized
  second-layer activations through window 0, the six small operands (mean, variance, scale, shift, weights, bias)
  whole through windows 1–6, and writes the matching 2048 rows of the result through window 7. The body keeps
  nothing between points, so what a point leaves in the result's staging buffer is a function of that point's blocks
  alone; that function is found by running the body symbolically and is used here only through its name.
-/
import proofs.«145499_j5368709120128_1_alg».proof.Proof.Gen.Kernel.Launch
import proofs.«145499_j5368709120128_1_alg».proof.Proof.Gen.Kernel.Skeleton
import proofs.«145499_j5368709120128_1_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, as the region finds the array. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 is found holding its block at every point, whether that point fetched it or an earlier one did:
    a window that is not fetched at a point has not moved since it last was. -/
theorem found0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1 is found holding its block at every point, whether that point fetched it or an earlier one did:
    a window that is not fetched at a point has not moved since it last was. -/
theorem found1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2 is found holding its block at every point, whether that point fetched it or an earlier one did:
    a window that is not fetched at a point has not moved since it last was. -/
theorem found2 {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3 is found holding its block at every point, whether that point fetched it or an earlier one did:
    a window that is not fetched at a point has not moved since it last was. -/
theorem found3 {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4 is found holding its block at every point, whether that point fetched it or an earlier one did:
    a window that is not fetched at a point has not moved since it last was. -/
theorem found4 {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Input window 5 is found holding its block at every point, whether that point fetched it or an earlier one did:
    a window that is not fetched at a point has not moved since it last was. -/
theorem found5 {c : Dev nD} (dat : Dat τ (Elt F) Unit ℕ (UR sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
/-- Input window 6 is found holding its block at every point, whether that point fetched it or an earlier one did:
    a window that is not fetched at a point has not moved since it last was. -/
theorem found6 {c : Dev nD} (dat : Dat τ (Elt F) Unit ℕ (UR sig nD τ) ℕ cfg2 c) (hA : dat.A 6 = V c (Pipeline.arrRef spec2 6))
    (hafter : ∀ t, dat.after 6 t = blk V c 6 t) (t : Fin cfg2.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The staging memrefs the pipeline hands the body at a point -/

abbrev ms0 (t : Fin cfg2.N) : Memref sig .tc .vmem S2048x128 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x128 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x128 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x128 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x128 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S128x12 .bf16 := win2_5.stage (cfg2.slots t 5)
abbrev hs5 (t : Fin cfg2.N) : (ms5 t).IsWhole := hstage2_5 ((cfg2.slots t 5).cast nbuf2_5)
abbrev ms6 (t : Fin cfg2.N) : Memref sig .tc .vmem S1x12 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S2048x12 .f32 := win2_7.stage (cfg2.slots t 7)
abbrev hs7 (t : Fin cfg2.N) : (ms7 t).IsWhole := hstage2_7 ((cfg2.slots t 7).cast nbuf2_7)

/-! ## The body, run symbolically on any staging memrefs -/

set_option maxHeartbeats 2000000 in
/-- The stores the body makes into the result's staging buffer, as a list of pieces (last first), TOGETHER WITH the fact
    that from the seven operand buffers held whole at `x0 … x6` and the result's held at anything, the body runs to its
    return, leaves the operands as they were and the result's buffer with those pieces written. -/
noncomputable def layer3Run (c : Dev nD) (i : grid2.Coords) (a1 : Memref sig .tc .vmem S2048x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x12 .bf16) (h6 : a6.IsWhole) (a7 : Memref sig .tc .vmem S1x12 .f32) (h7 : a7.IsWhole) (a8 : Memref sig .tc .vmem S2048x12 .f32) (h8 : a8.IsWhole)
    (x0 : Vec F S2048x128 .f32) (x1 : Vec F S1x128 .f32) (x2 : Vec F S1x128 .f32) (x3 : Vec F S1x128 .f32) (x4 : Vec F S1x128 .f32) (x5 : Vec F S128x12 .bf16) (x6 : Vec F S1x12 .f32) :
    { L : List (View.Piece (Elt F) S2048x12 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ f, a8.view.loc (c : Thread nD τ) ↦[a8.view.set]{fullShare} a8.view.writes (Elt F) f L)) -∗ K ⟨⟩))
          ⊢ wp frame (wpE (defs₀ (F := F)) Variants.none c none) E (cc2__layer3_kernel i a1 h1 a2 h2 a3 h3 a4 h4 a5 h5 a6 h6 a7 h7 a8 h8) K } := by
  refine ⟨?_, fun E K => ?run⟩
  case run =>
    simp only [cc2__layer3_kernel_eq_skeleton]; unfold cc2__layer3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := h1.eq_unread hf0
    obtain rfl := h2.eq_unread hf1
    obtain rfl := h3.eq_unread hf2
    obtain rfl := h4.eq_unread hf3
    obtain rfl := h5.eq_unread hf4
    obtain rfl := h6.eq_unread hf5
    obtain rfl := h7.eq_unread hf6
    sl_exec
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    iexists _; iexact H7

/-! ## What a point leaves in the result's staging buffer -/

/-- One staging buffer of the result window, through which contents are read back (either buffer would do). -/
abbrev VRes : View sig .tc .vmem S2048x12 .f32 := (Memref.whole cc2_stg7_0 : Memref sig .tc .vmem S2048x12 .f32).view

/-- The run at point `t`: on that point's staging memrefs, the operands at that point's blocks. -/
abbrev runAt (c : Dev nD) (t : Fin cfg2.N) :=
  layer3Run (F := F) c (grid2.coords t) (ms0 t) (hs0 t) (ms1 t) (hs1 t) (ms2 t) (hs2 t) (ms3 t) (hs3 t) (ms4 t) (hs4 t) (ms5 t) (hs5 t) (ms6 t) (hs6 t) (ms7 t) (hs7 t) (blk V c 0 t) (blk V c 1 t) (blk V c 2 t) (blk V c 3 t) (blk V c 4 t) (blk V c 5 t) (blk V c 6 t)

/-- The body's stores tile the result's block, so every index of the block is written. -/
theorem tiles (c : Dev nD) (t : Fin cfg2.N) (y : S2048x12.Idx) : ∃ pc ∈ (runAt V c t).1, y ∈ pc.1.set :=
  View.cover_of_tiledL (runAt V c t).1 S2048x12.size (by sl_kernel_rfl) y

/-- The 2048 result rows of point `t`: the body's stores read back. -/
def rows (c : Dev nD) (t : Fin cfg2.N) : Vec F S2048x12 .f32 :=
  VRes.read (Elt F) (VRes.writes (Elt F) VRes.junk (runAt V c t).1)

/-! ## The proof data -/

/-- On core `c`: the arrays as the region finds them; after the body at point `t` every operand's buffer still at its
    block and the result's at `rows`; between points only what no window stages (held at anything) and the generator
    register; nothing owed to another core. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => rows V c t
  Φ _ := Pipeline.ΦA spec2 c
  q _ := fullShare
  owed _ := 0

theorem A_eq (c : Dev nD) (w : Fin cfg2.W) : (dat V c).A w = V c (Pipeline.arrRef spec2 w) := by dsimp only [dat]
theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = blk V c 3 t := by dsimp only [dat]
theorem after4 (c : Dev nD) (t : Fin cfg2.N) : (dat V c).after 4 t = blk V c 4 t := by dsimp only [dat]
theorem after5 (c : Dev nD) (t : Fin cfg2.N) : (dat V c).after 5 t = blk V c 5 t := by dsimp only [dat]
theorem after6 (c : Dev nD) (t : Fin cfg2.N) : (dat V c).after 6 t = blk V c 6 t := by dsimp only [dat]
theorem after7 (c : Dev nD) (t : Fin cfg2.N) : (dat V c).after 7 t = rows V c t := by dsimp only [dat]
theorem before0 (c : Dev nD) (t : Fin cfg2.N) (d) : (dat V c).before 0 t d = blk V c 0 t :=
  found0 V (dat V c) (A_eq V c 0) (after0 V c) t d
theorem before1 (c : Dev nD) (t : Fin cfg2.N) (d) : (dat V c).before 1 t d = blk V c 1 t :=
  found1 V (dat V c) (A_eq V c 1) (after1 V c) t d
theorem before2 (c : Dev nD) (t : Fin cfg2.N) (d) : (dat V c).before 2 t d = blk V c 2 t :=
  found2 V (dat V c) (A_eq V c 2) (after2 V c) t d
theorem before3 (c : Dev nD) (t : Fin cfg2.N) (d) : (dat V c).before 3 t d = blk V c 3 t :=
  found3 V (dat V c) (A_eq V c 3) (after3 V c) t d
theorem before4 (c : Dev nD) (t : Fin cfg2.N) (d) : (dat V c).before 4 t d = blk V c 4 t :=
  found4 V (dat V c) (A_eq V c 4) (after4 V c) t d
theorem before5 (c : Dev nD) (t : Fin cfg2.N) (d) : (dat V c).before 5 t d = blk V c 5 t :=
  found5 V (dat V c) (A_eq V c 5) (after5 V c) t d
theorem before6 (c : Dev nD) (t : Fin cfg2.N) (d) : (dat V c).before 6 t d = blk V c 6 t :=
  found6 V (dat V c) (A_eq V c 6) (after6 V c) t d

/-! ## The body at a point -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t))

set_option maxHeartbeats 1600000 in
/-- At any point the operands' buffers hold their blocks, so the symbolic run applies; what is held between points
    passes through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  unfold rows
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runAt V c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (tiles V c t)

/-- The library's obligation for the body, at every point. -/
theorem body_obligation (c : Dev nD) : BodyObligation (dat (F := F) V c) (defs₀ (F := F)) Variants.none () Set.univ := fun t => by
  rw [bigSep_W2, bigSep_W2]
  exact sound_body V c t

end Cert.Kernel.R2

end
-- ==== Proof.K.Run.lean ====
/-
  The whole program as six segments in @main's order — host operations, the first call, host operations, the second call,
  host operations, the third call — each taking the TensorCore's unscoped buffers from one boundary's contents to the
  next. The contents at the seven boundaries are a fold through @main: a host stretch applies its operations; a call
  replaces its windows' arrays by what its points' write-backs made of them and leaves every other buffer alone. One run
  theorem says that every execution ends with every unscoped buffer at the last boundary's contents; the frame claim (no
  argument array is ever written) and the result buffer's final contents are both read off it.
-/
import proofs.«145499_j5368709120128_1_alg».proof.Proof.K.R0
import proofs.«145499_j5368709120128_1_alg».proof.Proof.K.R1
import proofs.«145499_j5368709120128_1_alg».proof.Proof.K.R2
import proofs.«145499_j5368709120128_1_alg».proof.Proof.Gen.Kernel.Regions
import Idealize.ShloMosaic.Lib.Pipeline.Regions
import Idealize.ShloMosaic.Lib.Pipeline.RegionsLoop
import Idealize.ShloMosaic.Lib.Pipeline.Kit

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- Boundary 0: core `c`'s buffers at launch. -/
abbrev B0 : Dev nD → Valuation τ sig (Elt F) := fun c b => m (c, b)

/-- Boundary 1: after the host operations before call 0. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- Boundary 2: after call 0 — its windows' arrays at what the write-backs of all its points made of them, every
    other buffer as before. -/
def B2 (c : Dev nD) : Valuation τ sig (Elt F) :=
  Pipeline.withArrays spec0 c (B1 m c) fun w => (R0.dat (E1 m) c).arrAt w cfg0.N
theorem B2_arr (c : Dev nD) (w : Fin cfg0.W) :
    B2 m c (Proc.devRef .tc (Pipeline.arrRef spec0 w)) = (R0.dat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem left0 (c : Dev nD) (w : Fin cfg0.W) : (R0.dat (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- Boundary 3: after the host operations before call 1. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- Boundary 4: after call 1 — its windows' arrays at what the write-backs of all its points made of them, every
    other buffer as before. -/
def B4 (c : Dev nD) : Valuation τ sig (Elt F) :=
  Pipeline.withArrays spec1 c (B3 m c) fun w => (R1.dat (E3 m) c).arrAt w cfg1.N
theorem B4_arr (c : Dev nD) (w : Fin cfg1.W) :
    B4 m c (Proc.devRef .tc (Pipeline.arrRef spec1 w)) = (R1.dat (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem left1 (c : Dev nD) (w : Fin cfg1.W) : (R1.dat (E3 m) c).arrAt w cfg1.N = E4 m c (Pipeline.arrRef spec1 w) :=
  (B4_arr m c w).symm
theorem kept1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- Boundary 5: after the host operations before call 2. -/
abbrev B5 : Dev nD → Valuation τ sig (Elt F) := fun c => StableHlo.after hostOps2 (B4 m c)
abbrev E5 : (c : Dev nD) → (b : Ref sig .tc) → Buf (Elt F) ((c : Thread nD τ).loc b) := fun c b => B5 m c b
/-- Boundary 6: after call 2 — its windows' arrays at what the write-backs of all its points made of them, every
    other buffer as before. -/
def B6 (c : Dev nD) : Valuation τ sig (Elt F) :=
  Pipeline.withArrays spec2 c (B5 m c) fun w => (R2.dat (E5 m) c).arrAt w cfg2.N
theorem B6_arr (c : Dev nD) (w : Fin cfg2.W) :
    B6 m c (Proc.devRef .tc (Pipeline.arrRef spec2 w)) = (R2.dat (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev E6 : (c : Dev nD) → (b : Ref sig .tc) → Buf (Elt F) ((c : Thread nD τ).loc b) := fun c b => B6 m c b
theorem left2 (c : Dev nD) (w : Fin cfg2.W) : (R2.dat (E5 m) c).arrAt w cfg2.N = E6 m c (Pipeline.arrRef spec2 w) :=
  (B6_arr m c w).symm
theorem kept2 (c : Dev nD) : ∀ b, b ∉ Finset.univ.image (Pipeline.arrRef spec2) → E6 m c b = E5 m c b :=
  fun b hb => B6_of_ne m c b fun w e => hb (Finset.mem_image.mpr ⟨w, Finset.mem_univ _, e⟩)

/-- A buffer that no host operation writes and no call has among its windows' arrays ends as launched. -/
theorem B6_untouched (c : Dev nD) (r : Ref sig .tc) (h0 : r ∉ hostOps0_W) (h1 : r ∉ hostOps1_W) (h2 : r ∉ hostOps2_W)
    (a0 : ∀ w, Pipeline.arrRef spec0 w ≠ r) (a1 : ∀ w, Pipeline.arrRef spec1 w ≠ r) (a2 : ∀ w, Pipeline.arrRef spec2 w ≠ r) :
    B6 m c (Proc.devRef .tc r) = m ((c : Thread nD τ).loc r) :=
  calc B6 m c (Proc.devRef .tc r)
    _ = B5 m c (Proc.devRef .tc r) := B6_of_ne m c r a2
    _ = B4 m c (Proc.devRef .tc r) := StableHlo.after_of_writes_sub hostOps2 _ hostOps2_writes h2
    _ = B3 m c (Proc.devRef .tc r) := B4_of_ne m c r a1
    _ = B2 m c (Proc.devRef .tc r) := StableHlo.after_of_writes_sub hostOps1 _ hostOps1_writes h1
    _ = B1 m c (Proc.devRef .tc r) := B2_of_ne m c r a0
    _ = B0 m c (Proc.devRef .tc r) := StableHlo.after_of_writes_sub hostOps0 _ hostOps0_writes h0
    _ = m ((c : Thread nD τ).loc r) := rfl

/-! ## The proof data of the three calls, and what rides along -/

/-- Each call's proof data at the contents its region is entered with. -/
def pdats : (p : Fin 3) → (c : Dev nD) → Dat τ (Elt F) Unit ℕ (UR sig nD τ) ℕ (Pipeline.pin (pcfgs (F := F)) adm p) c
  | ⟨0, _⟩ => fun c => R0.dat (E1 m) c
  | ⟨1, _⟩ => fun c => R1.dat (E3 m) c
  | ⟨2, _⟩ => fun c => R2.dat (E5 m) c
abbrev 𝒱₀ : Variants := Variants.none
abbrev L : GSem nD τ sig → Finset Unit := fun _ => ∅
abbrev lv : GSem nD τ sig → Unit → ℕ := fun _ _ => 0
/-- Beside the buffers, through every segment: the core's generator register at some state, and the core owing nothing. -/
abbrev Ride (c : Dev nD) : sProp 𝕄 := iprop((∃ r, prngReg c r) ∗ ∃ W, owes (c : Thread nD τ) (0 : CellTallies nD τ sig Unit) W)
/-- A host stretch as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Last (c : Dev nD) : sProp 𝕄 := iprop(StableHlo.held (c : Thread nD τ) (Pipeline.ucRefs τ sig) (B6 m c) ∗ ∃ r, prngReg c r)

/-! ## The three calls as segments -/

set_option backward.isDefEq.respectTransparency.types false in
/-- Call 0 as a segment: entered with every unscoped buffer at boundary 1's contents, left with them at boundary
    2's. Its windows' arrays are split out of the unscoped buffers on the way in and put back, at what the write-backs
    made of them, on the way out; the generator register goes into the region and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E1 m) c).loose
  hwaits := Pipeline.hwaits_of_owed_zero _ _ _ _ L lv 0 fun _ _ => rfl
  pre c := iprop(StableHlo.held (c : Thread nD τ) (Pipeline.ucRefs τ sig) (B1 m c) ∗ Ride c)
  post c := iprop(StableHlo.held (c : Thread nD τ) (Pipeline.ucRefs τ sig) (B2 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from R0.inv_out (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at boundary 3's contents, left with them at boundary
    4's. Its windows' arrays are split out of the unscoped buffers on the way in and put back, at what the write-backs
    made of them, on the way out; the generator register goes into the region and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E3 m) c).loose
  hwaits := Pipeline.hwaits_of_owed_zero _ _ _ _ L lv 1 fun _ _ => rfl
  pre c := iprop(StableHlo.held (c : Thread nD τ) (Pipeline.ucRefs τ sig) (B3 m c) ∗ Ride c)
  post c := iprop(StableHlo.held (c : Thread nD τ) (Pipeline.ucRefs τ sig) (B4 m c) ∗ Ride c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from R1.inv_out (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at boundary 5's contents, left with them at boundary
    6's. Its windows' arrays are split out of the unscoped buffers on the way in and put back, at what the write-backs
    made of them, on the way out; the generator register goes into the region and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (E5 m) c).loose
  hwaits := Pipeline.hwaits_of_owed_zero _ _ _ _ L lv 2 fun _ _ => rfl
  pre c := iprop(StableHlo.held (c : Thread nD τ) (Pipeline.ucRefs τ sig) (B5 m c) ∗ Ride c)
  post c := iprop(StableHlo.held (c : Thread nD τ) (Pipeline.ucRefs τ sig) (B6 m c) ∗ Ride c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the segments' run, and the launch -/

abbrev segs : List (Pipeline.Seg (pcfgs (F := F)) adm (pdats m) () defs₀ 𝒱₀ L lv) :=
  [ .host (hostSeg hostOps0 hostOps0_sub hostOps0_fresh (B0 m)),
    .region (reg0 m),
    .host (hostSeg hostOps1 hostOps1_sub hostOps1_fresh (B2 m)),
    .region (reg1 m),
    .host (hostSeg hostOps2 hostOps2_sub hostOps2_fresh (B4 m)),
    .region (reg2 m) ]
theorem main_is_segs (c : Dev nD) : main (F := F) c = Pipeline.Seg.run (segs m) := (main_chain c).trans (by chain_rfl)

set_option backward.isDefEq.respectTransparency.types false in
/-- THE RUN. From any memory with zero semaphore counters, every weakly fair execution of @main terminates without a
    fault, and in every final memory every unscoped TensorCore buffer holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Ride c)) (Tₙ := Last m)
    (hch := ⟨fun _ => .rfl, fun _ => .rfl, fun _ => .rfl, fun _ => .rfl, fun _ => .rfl, fun _ => .rfl, fun c => by
      show iprop(StableHlo.held (c : Thread nD τ) (Pipeline.ucRefs τ sig) (B6 m c) ∗ Ride c) ⊢ iprop(Last m c ∗ ∃ W, owes (c : Thread nD τ) (0 : CellTallies nD τ sig Unit) W)
      iintro ⟨Hh, Hp, HO⟩
      isplitl [Hh Hp]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-! ## The frame, and the result buffer -/

/-- No argument array is written: each ends holding what it was launched with. And the result buffer ends at the
    third call's write-backs folded over its array. -/
theorem run_result : θ_run defs (onTc (τ := τ) (main (F := F))) ⟨m, fun _ => 0, ρ⟩ (fun r => ∀ c : Dev nD,
      r.2.mem ((c.tc : Thread nD τ).loc main_v32) = (R2.dat (E5 m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v32 (by decide))).trans (B6_arr m c 7),
     (h c _ (mem_uc main_arg0 (by decide))).trans (B6_untouched m c main_arg0 (by decide) (by decide) (by decide) (by decide) (by decide) (by decide)),
     (h c _ (mem_uc main_arg1 (by decide))).trans (B6_untouched m c main_arg1 (by decide) (by decide) (by decide) (by decide) (by decide) (by decide)),
     (h c _ (mem_uc main_arg2 (by decide))).trans (B6_untouched m c main_arg2 (by decide) (by decide) (by decide) (by decide) (by decide) (by decide)),
     (h c _ (mem_uc main_arg3 (by decide))).trans (B6_untouched m c main_arg3 (by decide) (by decide) (by decide) (by decide) (by decide) (by decide)),
     (h c _ (mem_uc main_arg4 (by decide))).trans (B6_untouched m c main_arg4 (by decide) (by decide) (by decide) (by decide) (by decide) (by decide)),
     (h c _ (mem_uc main_arg5 (by decide))).trans (B6_untouched m c main_arg5 (by decide) (by decide) (by decide) (by decide) (by decide) (by decide)),
     (h c _ (mem_uc main_arg6 (by decide))).trans (B6_untouched m c main_arg6 (by decide) (by decide) (by decide) (by decide) (by decide) (by decide)),
     (h c _ (mem_uc main_arg7 (by decide))).trans (B6_untouched m c main_arg7 (by decide) (by decide) (by decide) (by decide) (by decide) (by decide)),
     (h c _ (mem_uc main_arg8 (by decide))).trans (B6_untouched m c main_arg8 (by decide) (by decide) (by decide) (by decide) (by decide) (by decide)),
     (h c _ (mem_uc main_arg9 (by decide))).trans (B6_untouched m c main_arg9 (by decide) (by decide) (by decide) (by decide) (by decide) (by decide)),
     (h c _ (mem_uc main_arg10 (by decide))).trans (B6_untouched m c main_arg10 (by decide) (by decide) (by decide) (by decide) (by decide) (by decide)),
     (h c _ (mem_uc main_arg11 (by decide))).trans (B6_untouched m c main_arg11 (by decide) (by decide) (by decide) (by decide) (by decide) (by decide))⟩)
    (run m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.Kernel.Whole

end
-- ==== Proof.KI.R0.lean ====
/-
  The first call (the first binarized linear layer and the batch statistics of its pre-activations) as one pipeline region
  entered from any contents `V` of the TensorCore's buffers. Its grid has 32 points; point `t` sees rows
  [512·t, 512·t + 512) of the flattened input through window 0, the sign matrix and the sign bias whole through windows
  1 and 2, writes the matching 512 rows of pre-activations through window 3, and keeps two running rows in scratch
  memory — the column sums of the pre-activations so far and the column sums of their squares — which it also copies
  to the result windows 4 and 5 at every point; those two are written back to their arrays only after the last point.
-/
import proofs.«145499_j5368709120128_1_alg».proof.Proof.Gen.KernelIdeal.Launch
import proofs.«145499_j5368709120128_1_alg».proof.Proof.Gen.KernelIdeal.Skeleton
import proofs.«145499_j5368709120128_1_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, as the region finds the array. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand window 0 is found holding its block at every point, whether that point fetched it or an earlier one did. -/
theorem found0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Operand window 1 is found holding its block at every point, whether that point fetched it or an earlier one did. -/
theorem found1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Operand window 2 is found holding its block at every point, whether that point fetched it or an earlier one did. -/
theorem found2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's one test: is this the first grid point? -/

/-- The body's condition "grid coordinate = 0", as the printed scalar chain. -/
abbrev atFirst (i : grid0.Coords) : Prop := (Scalar.cmpi .ne (Scalar.extui (Scalar.cmpi .eq (BitVec.ofNat 32 (i 0).val) 0#32)) 0#32) = 1#1
/-- It holds at point 0 and nowhere else on the grid. -/
theorem atFirst_iff : ∀ t : Fin cfg0.N, atFirst (grid0.coords t) ↔ t.val % 32 = 0 :=
  (by decide +kernel : ∀ t : Fin grid0.N, atFirst (grid0.coords t) ↔ t.val % 32 = 0)

/-! ## The memrefs the body is called with -/

abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
/-- The two accumulators the kernel keeps in scratch memory from one point to the next: the running column sums and the
    running column sums of squares. -/
abbrev sc0 : Memref sig .tc .vmem S1x256 .f32 := Memref.whole cc0_scratch0
abbrev sc1 : Memref sig .tc .vmem S1x256 .f32 := Memref.whole cc0_scratch1
abbrev VO0 : View sig .tc .vmem S512x256 .f32 := (Memref.whole cc0_stg3_0 : Memref sig .tc .vmem S512x256 .f32).view
abbrev VO1 : View sig .tc .vmem S1x256 .f32 := (Memref.whole cc0_stg4_0 : Memref sig .tc .vmem S1x256 .f32).view
abbrev VO2 : View sig .tc .vmem S1x256 .f32 := (Memref.whole cc0_stg5_0 : Memref sig .tc .vmem S1x256 .f32).view
abbrev VS0 : View sig .tc .vmem S1x256 .f32 := (sc0 : Memref sig .tc .vmem S1x256 .f32).view
abbrev VS1 : View sig .tc .vmem S1x256 .f32 := (sc1 : Memref sig .tc .vmem S1x256 .f32).view

/-! ## The body, run symbolically: at the first point, and at a later one -/

set_option maxHeartbeats 4000000 in
/-- AT THE FIRST POINT the body clears both accumulators before it uses them, so it needs nothing of what they held.
    The stores it makes into the three result buffers and the two accumulators, as lists of pieces (last first), WITH the
    fact that from the operand buffers held whole at `x·` and the other five held at anything, the body runs to its return
    leaving the operands as they were and those pieces written. -/
noncomputable def runFirst (c : Dev nD) (i : grid0.Coords) (a0 : Memref sig .tc .vmem S512x4096 .f32) (h0 : a0.IsWhole) (a1 : Memref sig .tc .vmem S4096x256 .bf16) (h1 : a1.IsWhole) (a2 : Memref sig .tc .vmem S1x256 .f32) (h2 : a2.IsWhole) (a3 : Memref sig .tc .vmem S512x256 .f32) (h3 : a3.IsWhole) (a4 : Memref sig .tc .vmem S1x256 .f32) (h4 : a4.IsWhole) (a5 : Memref sig .tc .vmem S1x256 .f32) (h5 : a5.IsWhole) (s0 : Memref sig .tc .vmem S1x256 .f32) (g0 : s0.IsWhole) (s1 : Memref sig .tc .vmem S1x256 .f32) (g1 : s1.IsWhole) (hc : atFirst i)
    (x0 : Vec F S512x4096 .f32) (x1 : Vec F S4096x256 .bf16) (x2 : Vec F S1x256 .f32) :
    Σ' (L0 : List (View.Piece (Elt F) S512x256 .f32)) (L1 : List (View.Piece (Elt F) S1x256 .f32)) (L2 : List (View.Piece (Elt F) S1x256 .f32)) (M0 : List (View.Piece (Elt F) S1x256 .f32)), { M1 : List (View.Piece (Elt F) S1x256 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d) ∗ (∃ d, owns (c : Thread nD τ) s0 fullShare d) ∗ (∃ d, owns (c : Thread nD τ) s1 fullShare d)
            ∗ (iprop(owns (c : Thread nD τ) a0 fullShare x0 ∗ owns (c : Thread nD τ) a1 fullShare x1 ∗ owns (c : Thread nD τ) a2 fullShare x2 ∗ (∃ f, a3.view.loc (c : Thread nD τ) ↦[a3.view.set]{fullShare} a3.view.writes (Elt F) f L0) ∗ (∃ f, a4.view.loc (c : Thread nD τ) ↦[a4.view.set]{fullShare} a4.view.writes (Elt F) f L1) ∗ (∃ f, a5.view.loc (c : Thread nD τ) ↦[a5.view.set]{fullShare} a5.view.writes (Elt F) f L2) ∗ (∃ f, s0.view.loc (c : Thread nD τ) ↦[s0.view.set]{fullShare} s0.view.writes (Elt F) f M0) ∗ (∃ f, s1.view.loc (c : Thread nD τ) ↦[s1.view.set]{fullShare} s1.view.writes (Elt F) f M1)) -∗ K ⟨⟩))
          ⊢ wp frame (wpE (defs₀ (F := F)) Variants.none c none) E (cc0__layer1_kernel i a0 h0 a1 h1 a2 h2 a3 h3 a4 h4 a5 h5 s0 g0 s1 g1) K } := by
  refine ⟨?_, ?_, ?_, ?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%e0, %q0, -, G0⟩, ⟨%e1, %q1, -, G1⟩, Hk⟩
    obtain rfl := h0.eq_unread hf0
    obtain rfl := h1.eq_unread hf1
    obtain rfl := h2.eq_unread hf2
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]; · iexists _; iexact H3
    isplitl [H4]; · iexists _; iexact H4
    isplitl [H5]; · iexists _; iexact H5
    isplitl [G0]; · iexists _; iexact G0
    iexists _; iexact G1

set_option maxHeartbeats 4000000 in
/-- AT A LATER POINT the accumulators hold what the point before left, `r0` and `r1`; the body adds this block's column
    sums to them. Otherwise as `runFirst`. -/
noncomputable def runNext (c : Dev nD) (i : grid0.Coords) (a0 : Memref sig .tc .vmem S512x4096 .f32) (h0 : a0.IsWhole) (a1 : Memref sig .tc .vmem S4096x256 .bf16) (h1 : a1.IsWhole) (a2 : Memref sig .tc .vmem S1x256 .f32) (h2 : a2.IsWhole) (a3 : Memref sig .tc .vmem S512x256 .f32) (h3 : a3.IsWhole) (a4 : Memref sig .tc .vmem S1x256 .f32) (h4 : a4.IsWhole) (a5 : Memref sig .tc .vmem S1x256 .f32) (h5 : a5.IsWhole) (s0 : Memref sig .tc .vmem S1x256 .f32) (g0 : s0.IsWhole) (s1 : Memref sig .tc .vmem S1x256 .f32) (g1 : s1.IsWhole) (hc : ¬atFirst i)
    (x0 : Vec F S512x4096 .f32) (x1 : Vec F S4096x256 .bf16) (x2 : Vec F S1x256 .f32) (r0 : Vec F S1x256 .f32) (r1 : Vec F S1x256 .f32) :
    Σ' (L0 : List (View.Piece (Elt F) S512x256 .f32)) (L1 : List (View.Piece (Elt F) S1x256 .f32)) (L2 : List (View.Piece (Elt F) S1x256 .f32)) (M0 : List (View.Piece (Elt F) S1x256 .f32)), { M1 : List (View.Piece (Elt F) S1x256 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d) ∗ owns (c : Thread nD τ) s0 fullShare r0 ∗ owns (c : Thread nD τ) s1 fullShare r1
            ∗ (iprop(owns (c : Thread nD τ) a0 fullShare x0 ∗ owns (c : Thread nD τ) a1 fullShare x1 ∗ owns (c : Thread nD τ) a2 fullShare x2 ∗ (∃ f, a3.view.loc (c : Thread nD τ) ↦[a3.view.set]{fullShare} a3.view.writes (Elt F) f L0) ∗ (∃ f, a4.view.loc (c : Thread nD τ) ↦[a4.view.set]{fullShare} a4.view.writes (Elt F) f L1) ∗ (∃ f, a5.view.loc (c : Thread nD τ) ↦[a5.view.set]{fullShare} a5.view.writes (Elt F) f L2) ∗ (∃ f, s0.view.loc (c : Thread nD τ) ↦[s0.view.set]{fullShare} s0.view.writes (Elt F) f M0) ∗ (∃ f, s1.view.loc (c : Thread nD τ) ↦[s1.view.set]{fullShare} s1.view.writes (Elt F) f M1)) -∗ K ⟨⟩))
          ⊢ wp frame (wpE (defs₀ (F := F)) Variants.none c none) E (cc0__layer1_kernel i a0 h0 a1 h1 a2 h2 a3 h3 a4 h4 a5 h5 s0 g0 s1 g1) K } := by
  refine ⟨?_, ?_, ?_, ?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%q0, %hq0, G0⟩, ⟨%q1, %hq1, G1⟩, Hk⟩
    obtain rfl := h0.eq_unread hf0
    obtain rfl := h1.eq_unread hf1
    obtain rfl := h2.eq_unread hf2
    obtain rfl := g0.eq_unread hq0
    obtain rfl := g1.eq_unread hq1
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]; · iexists _; iexact H3
    isplitl [H4]; · iexists _; iexact H4
    isplitl [H5]; · iexists _; iexact H5
    isplitl [G0]; · iexists _; iexact G0
    iexists _; iexact G1

/-! ## What the five buffers hold after each point -/

/-- After the first point: each buffer's pieces read back. In order: the block of pre-activations, the two result rows
    (sums, sums of squares), the two accumulators. -/
def stFirst (c : Dev nD) (t : Fin cfg0.N) (h : atFirst (grid0.coords t)) : Vec F S512x256 .f32 × Vec F S1x256 .f32 × Vec F S1x256 .f32 × Vec F S1x256 .f32 × Vec F S1x256 .f32 :=
  (VO0.read (Elt F) (VO0.writes (Elt F) VO0.junk (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).1),
      VO1.read (Elt F) (VO1.writes (Elt F) VO1.junk (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.1),
      VO2.read (Elt F) (VO2.writes (Elt F) VO2.junk (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.1),
      VS0.read (Elt F) (VS0.writes (Elt F) VS0.junk (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.2.1),
      VS1.read (Elt F) (VS1.writes (Elt F) VS1.junk (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.2.2.1))

/-- After a later point, the accumulators having been found at `r0`, `r1`. -/
def stNext (c : Dev nD) (t : Fin cfg0.N) (h : ¬atFirst (grid0.coords t)) (r0 r1 : Vec F S1x256 .f32) : Vec F S512x256 .f32 × Vec F S1x256 .f32 × Vec F S1x256 .f32 × Vec F S1x256 .f32 × Vec F S1x256 .f32 :=
  (VO0.read (Elt F) (VO0.writes (Elt F) VO0.junk (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).1),
      VO1.read (Elt F) (VO1.writes (Elt F) VO1.junk (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.1),
      VO2.read (Elt F) (VO2.writes (Elt F) VO2.junk (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.1),
      VS0.read (Elt F) (VS0.writes (Elt F) VS0.junk (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.2.1),
      VS1.read (Elt F) (VS1.writes (Elt F) VS1.junk (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.2.2.1))

/-- THE ACCUMULATION over the grid: point 0 starts the sums, every later point continues from the accumulators the
    point before left. -/
def stAt (c : Dev nD) : (n : ℕ) → n < cfg0.N → Vec F S512x256 .f32 × Vec F S1x256 .f32 × Vec F S1x256 .f32 × Vec F S1x256 .f32 × Vec F S1x256 .f32
  | 0, hn => stFirst V c ⟨0, hn⟩ ((atFirst_iff ⟨0, hn⟩).mpr (Nat.zero_mod _))
  | n + 1, hn =>
    if h0 : (n + 1) % 32 = 0 then stFirst V c ⟨n + 1, hn⟩ ((atFirst_iff ⟨n + 1, hn⟩).mpr h0)
    else stNext V c ⟨n + 1, hn⟩ (fun h => h0 ((atFirst_iff ⟨n + 1, hn⟩).mp h))
      (stAt c n (Nat.lt_of_succ_lt hn)).2.2.2.1 (stAt c n (Nat.lt_of_succ_lt hn)).2.2.2.2

theorem stAt_first (c : Dev nD) (t : Fin cfg0.N) (h0 : t.val % 32 = 0) :
    stAt V c t.val t.isLt = stFirst V c t ((atFirst_iff t).mpr h0) := by
  obtain ⟨n, hn⟩ := t
  cases n with
  | zero => exact rfl
  | succ n => exact (dif_pos h0).trans rfl

theorem stAt_next (c : Dev nD) (t : Fin cfg0.N) (h0 : ¬t.val % 32 = 0) :
    stAt V c t.val t.isLt = stNext V c t (fun h => h0 ((atFirst_iff t).mp h))
      (stAt V c (t.val - 1) (Nat.lt_of_le_of_lt (Nat.sub_le _ _) t.isLt)).2.2.2.1
      (stAt V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

/-! ## What is held between points -/

/-- Before point 0: every scoped buffer no window stages, at anything, and the generator register. Before a later point:
    the two accumulators at what the point before left, the other such buffers at anything, the register. -/
def Inv (c : Dev nD) : (n : ℕ) → n ≤ cfg0.N → sProp 𝕄
  | 0, _ => Pipeline.ΦA spec0 c
  | n + 1, hn => iprop(iprop(iprop(owns (c : Thread nD τ) sc0 fullShare (stAt V c n hn).2.2.2.1 ∗ owns (c : Thread nD τ) sc1 fullShare (stAt V c n hn).2.2.2.2)
      ∗ Pipeline.scopedRestBut (Ix := Unit) (Name := ℕ) (U := UR sig nD τ) (Lvl := ℕ) (Val := Elt F) spec0 c [cc0_scratch0, cc0_scratch1]) ∗ (∃ r, prngReg c r))

theorem Inv_zero (c : Dev nD) (n : ℕ) (h : n ≤ cfg0.N) (hz : n = 0) : Inv V c n h = Pipeline.ΦA spec0 c := by
  subst hz; rfl
theorem Inv_succ (c : Dev nD) (n : ℕ) (hn : n < cfg0.N) :
    Inv V c (n + 1) hn = iprop(iprop(iprop(owns (c : Thread nD τ) sc0 fullShare (stAt V c n hn).2.2.2.1 ∗ owns (c : Thread nD τ) sc1 fullShare (stAt V c n hn).2.2.2.2)
      ∗ Pipeline.scopedRestBut (Ix := Unit) (Name := ℕ) (U := UR sig nD τ) (Lvl := ℕ) (Val := Elt F) spec0 c [cc0_scratch0, cc0_scratch1]) ∗ (∃ r, prngReg c r)) := rfl
theorem Inv_pos (c : Dev nD) (n : ℕ) (h : n ≤ cfg0.N) (hz : n ≠ 0) :
    Inv V c n h = iprop(iprop(iprop(owns (c : Thread nD τ) sc0 fullShare (stAt V c (n - 1) (by omega)).2.2.2.1 ∗ owns (c : Thread nD τ) sc1 fullShare (stAt V c (n - 1) (by omega)).2.2.2.2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## Every store tiles its buffer -/

theorem tilesF0 (c : Dev nD) (t : Fin cfg0.N) (h : atFirst (grid0.coords t)) (y : S512x256.Idx) : ∃ pc ∈ (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).1, y ∈ pc.1.set :=
  View.cover_of_tiledL (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).1 S512x256.size (by sl_kernel_rfl) y
theorem tilesF1 (c : Dev nD) (t : Fin cfg0.N) (h : atFirst (grid0.coords t)) (y : S1x256.Idx) : ∃ pc ∈ (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.1, y ∈ pc.1.set :=
  View.cover_of_tiledL (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.1 S1x256.size (by sl_kernel_rfl) y
theorem tilesF2 (c : Dev nD) (t : Fin cfg0.N) (h : atFirst (grid0.coords t)) (y : S1x256.Idx) : ∃ pc ∈ (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.1, y ∈ pc.1.set :=
  View.cover_of_tiledL (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.1 S1x256.size (by sl_kernel_rfl) y
theorem tilesF3 (c : Dev nD) (t : Fin cfg0.N) (h : atFirst (grid0.coords t)) (y : S1x256.Idx) : ∃ pc ∈ (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.2.1, y ∈ pc.1.set :=
  View.cover_of_tiledL (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.2.1 S1x256.size (by sl_kernel_rfl) y
theorem tilesF4 (c : Dev nD) (t : Fin cfg0.N) (h : atFirst (grid0.coords t)) (y : S1x256.Idx) : ∃ pc ∈ (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.2.2.1, y ∈ pc.1.set :=
  View.cover_of_tiledL (runFirst (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t)).2.2.2.2.1 S1x256.size (by sl_kernel_rfl) y
theorem tilesN0 (c : Dev nD) (t : Fin cfg0.N) (h : ¬atFirst (grid0.coords t)) (r0 r1 : Vec F S1x256 .f32) (y : S512x256.Idx) : ∃ pc ∈ (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).1, y ∈ pc.1.set :=
  View.cover_of_tiledL (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).1 S512x256.size (by sl_kernel_rfl) y
theorem tilesN1 (c : Dev nD) (t : Fin cfg0.N) (h : ¬atFirst (grid0.coords t)) (r0 r1 : Vec F S1x256 .f32) (y : S1x256.Idx) : ∃ pc ∈ (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.1, y ∈ pc.1.set :=
  View.cover_of_tiledL (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.1 S1x256.size (by sl_kernel_rfl) y
theorem tilesN2 (c : Dev nD) (t : Fin cfg0.N) (h : ¬atFirst (grid0.coords t)) (r0 r1 : Vec F S1x256 .f32) (y : S1x256.Idx) : ∃ pc ∈ (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.1, y ∈ pc.1.set :=
  View.cover_of_tiledL (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.1 S1x256.size (by sl_kernel_rfl) y
theorem tilesN3 (c : Dev nD) (t : Fin cfg0.N) (h : ¬atFirst (grid0.coords t)) (r0 r1 : Vec F S1x256 .f32) (y : S1x256.Idx) : ∃ pc ∈ (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.2.1, y ∈ pc.1.set :=
  View.cover_of_tiledL (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.2.1 S1x256.size (by sl_kernel_rfl) y
theorem tilesN4 (c : Dev nD) (t : Fin cfg0.N) (h : ¬atFirst (grid0.coords t)) (r0 r1 : Vec F S1x256 .f32) (y : S1x256.Idx) : ∃ pc ∈ (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.2.2.1, y ∈ pc.1.set :=
  View.cover_of_tiledL (runNext (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) h (blk V c 0 t) (blk V c 1 t) (blk V c 2 t) r0 r1).2.2.2.2.1 S1x256.size (by sl_kernel_rfl) y

/-! ## The proof data -/

/-- On core `c`: the arrays as the region finds them; after the body at point `t` every operand's buffer still at its
    block, the three result buffers at the accumulation's first three components; between points `Inv`; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => (stAt V c t.val t.isLt).1
    | ⟨4, _⟩ => (stAt V c t.val t.isLt).2.1
    | ⟨5, _⟩ => (stAt V c t.val t.isLt).2.2.1
  Φ t := Inv V c t.val (Nat.le_of_lt_succ t.isLt)
  q _ := fullShare
  owed _ := 0

theorem A_eq (c : Dev nD) (w : Fin cfg0.W) : (dat V c).A w = V c (Pipeline.arrRef spec0 w) := by dsimp only [dat]
theorem Inv_castSucc (c : Dev nD) (t : Fin cfg0.N) : (dat V c).Φ t.castSucc = Inv V c t.val (Nat.le_of_lt t.isLt) := by
  dsimp only [dat]; simp only [Fin.coe_castSucc]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = (stAt V c t.val t.isLt).1 := by dsimp only [dat]
theorem after4 (c : Dev nD) (t : Fin cfg0.N) : (dat V c).after 4 t = (stAt V c t.val t.isLt).2.1 := by dsimp only [dat]
theorem after5 (c : Dev nD) (t : Fin cfg0.N) : (dat V c).after 5 t = (stAt V c t.val t.isLt).2.2.1 := by dsimp only [dat]
theorem before0 (c : Dev nD) (t : Fin cfg0.N) (d) : (dat V c).before 0 t d = blk V c 0 t :=
  found0 V (dat V c) (A_eq V c 0) (after0 V c) t d
theorem before1 (c : Dev nD) (t : Fin cfg0.N) (d) : (dat V c).before 1 t d = blk V c 1 t :=
  found1 V (dat V c) (A_eq V c 1) (after1 V c) t d
theorem before2 (c : Dev nD) (t : Fin cfg0.N) (d) : (dat V c).before 2 t d = blk V c 2 t :=
  found2 V (dat V c) (A_eq V c 2) (after2 V c) t d

/-- Before point 0 what is held is the two accumulators at anything, the other unstaged scoped buffers, the register. -/
theorem PhiA_eq (c : Dev nD) :
    (Pipeline.ΦA spec0 c : sProp 𝕄)
      = iprop(iprop(iprop((∃ d, owns (c : Thread nD τ) sc0 fullShare d) ∗ (∃ d, owns (c : Thread nD τ) sc1 fullShare d)) ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA
  rw [show (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ∗ Pipeline.scopedRestBut (Ix := Unit) (Name := ℕ) (U := UR sig nD τ) (Lvl := ℕ) (Val := Elt F) spec0 c [cc0_scratch0, cc0_scratch1])
      from Pipeline.scopedRest_split_of_list spec0 c [cc0_scratch0, cc0_scratch1] (by decide) (by decide)]
  simp only [sc0, sc1, owns_whole]; try rfl

/-! ## The body at a point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 6400000 in
/-- At any point the operands' buffers hold their blocks. At point 0 the accumulators are handed to the body at anything
    and come back at the first block's sums; at a later point they are handed over at what the point before left and come
    back with this block's sums added. Everything else that is held between points passes through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = Inv V c (t.val + 1) t.isLt from rfl, Inv_succ]
  rw [after0, after1, after2, after3, after4, after5]
  have hN : t.val < 32 := lt_of_lt_of_eq t.isLt (show cfg0.N = 32 from N_0)
  by_cases h0 : t.val % 32 = 0
  · have hz : t.val = 0 := by omega
    rw [stAt_first V c t h0]
    unfold stFirst; (try dsimp only)
    rw [Inv_castSucc V c t, Inv_zero V c _ _ hz, PhiA_eq]
    iintro ⟨⟨⟨⟨⟨%da, S0⟩, ⟨%db, S1⟩⟩, Hrest⟩, Hg⟩, Ho, ⟨%d0, H0⟩, ⟨%d1, H1⟩, ⟨%d2, H2⟩, ⟨%d3, H3⟩, ⟨%d4, H4⟩, ⟨%d5, H5⟩⟩
    iapply ((runFirst (F := F) c (grid0.coords t) _ _ _ _ _ _ _ _ _ _ _ _ _ _ _ _ ((atFirst_iff t).mpr h0) (blk V c 0 t) (blk V c 1 t) (blk V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [S0]; · iexists _; iexact S0
    isplitl [S1]; · iexists _; iexact S1
    iintro ⟨H0, H1, H2, ⟨%e3, H3⟩, ⟨%e4, H4⟩, ⟨%e5, H5⟩, ⟨%es0, S0⟩, ⟨%es1, S1⟩⟩
    isplitl [S0 S1 Hrest Hg]
    · isplitl [S0 S1 Hrest]
      · isplitl [S0 S1]
        · isplitl [S0]
          · unfold owns; iexists _; isplitr
            swap; · iexact S0
            ipureintro; exact View.read_writes_of_cover _ _ _ _ _ (tilesF3 V c t ((atFirst_iff t).mpr h0))
          · unfold owns; iexists _; isplitr
            swap; · iexact S1
            ipureintro; exact View.read_writes_of_cover _ _ _ _ _ (tilesF4 V c t ((atFirst_iff t).mpr h0))
        · iexact Hrest
      · iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (tilesF0 V c t ((atFirst_iff t).mpr h0))
    isplitl [H4]
    · unfold owns; iexists _; isplitr
      swap; · iexact H4
      ipureintro; exact View.read_writes_of_cover _ _ _ _ _ (tilesF1 V c t ((atFirst_iff t).mpr h0))
    · unfold owns; iexists _; isplitr
      swap; · iexact H5
      ipureintro; exact View.read_writes_of_cover _ _ _ _ _ (tilesF2 V c t ((atFirst_iff t).mpr h0))
  · have hz : t.val ≠ 0 := fun h => h0 (by rw [h])
    rw [stAt_next V c t h0]
    unfold stNext; (try dsimp only)
    rw [Inv_castSucc V c t, Inv_pos V c _ _ hz]
    iintro ⟨⟨⟨⟨S0, S1⟩, Hrest⟩, Hg⟩, Ho, ⟨%d0, H0⟩, ⟨%d1, H1⟩, ⟨%d2, H2⟩, ⟨%d3, H3⟩, ⟨%d4, H4⟩, ⟨%d5, H5⟩⟩
    iapply ((runNext (F := F) c (grid0.coords t) _ _ _ _ _ _ _ _ _ _ _ _ _ _ _ _ (fun h => h0 ((atFirst_iff t).mp h)) (blk V c 0 t) (blk V c 1 t) (blk V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [S0]; · iexact S0
    isplitl [S1]; · iexact S1
    iintro ⟨H0, H1, H2, ⟨%e3, H3⟩, ⟨%e4, H4⟩, ⟨%e5, H5⟩, ⟨%es0, S0⟩, ⟨%es1, S1⟩⟩
    isplitl [S0 S1 Hrest Hg]
    · isplitl [S0 S1 Hrest]
      · isplitl [S0 S1]
        · isplitl [S0]
          · unfold owns; iexists _; isplitr
            swap; · iexact S0
            ipureintro; exact View.read_writes_of_cover _ _ _ _ _ (tilesN3 V c t (fun h => h0 ((atFirst_iff t).mp h)) _ _)
          · unfold owns; iexists _; isplitr
            swap; · iexact S1
            ipureintro; exact View.read_writes_of_cover _ _ _ _ _ (tilesN4 V c t (fun h => h0 ((atFirst_iff t).mp h)) _ _)
        · iexact Hrest
      · iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (tilesN0 V c t (fun h => h0 ((atFirst_iff t).mp h)) _ _)
    isplitl [H4]
    · unfold owns; iexists _; isplitr
      swap; · iexact H4
      ipureintro; exact View.read_writes_of_cover _ _ _ _ _ (tilesN1 V c t (fun h => h0 ((atFirst_iff t).mp h)) _ _)
    · unfold owns; iexists _; isplitr
      swap; · iexact H5
      ipureintro; exact View.read_writes_of_cover _ _ _ _ _ (tilesN2 V c t (fun h => h0 ((atFirst_iff t).mp h)) _ _)

/-- The library's obligation for the body, at every point. -/
theorem body_obligation (c : Dev nD) : BodyObligation (dat (F := F) V c) (defs₀ (F := F)) Variants.none () Set.univ := fun t => by
  rw [bigSep_W0, bigSep_W0]
  exact sound_body V c t

/-- What the launch hands the region is what is held before point 0. -/
theorem inv_in (c : Dev nD) : Pipeline.ΦA spec0 c ⊢ (dat V c).Φ 0 := by
  rw [show (dat V c).Φ 0 = Inv V c 0 (Nat.zero_le _) from rfl, Inv_zero V c 0 _ rfl]
  try exact Idealize.SL.BI.Entails.refl _

/-- After the last point the accumulators' contents are forgotten again. -/
theorem inv_out (c : Dev nD) : (dat V c).Φ (Fin.last cfg0.N) ⊢ Pipeline.ΦA spec0 c := by
  rw [show (dat V c).Φ (Fin.last cfg0.N) = Inv V c (Fin.last cfg0.N).val (Nat.le_of_lt_succ (Fin.last cfg0.N).isLt) from rfl,
    Inv_pos V c _ _ (by rw [Fin.val_last]; have : cfg0.N = 32 := N_0; omega), PhiA_eq]
  iintro ⟨⟨⟨S0, S1⟩, Hrest⟩, Hg⟩
  isplitl [S0 S1 Hrest]
  · isplitl [S0 S1]
    · isplitl [S0]
      · iexists _; iexact S0
      · iexists _; iexact S1
    · iexact Hrest
  · iexact Hg

end Cert.KernelIdeal.R0

end
-- ==== Proof.KI.R1.lean ====
/-
  The second call (normalize and clip the first layer's pre-activations, the second binarized linear layer, and the batch
  statistics of its pre-activations) as one pipeline region entered from any contents `V` of the TensorCore's buffers.
  Its grid has 8 points; point `t` sees rows [2048·t, 2048·t + 2048) of the first layer's pre-activations through
  window 0, the six small operands (mean, variance, scale, shift, sign matrix, sign bias) whole through windows 1–6,
  writes the matching 2048 rows of second-layer pre-activations through window 7, and keeps two running rows in scratch
  memory — the column sums so far and the column sums of squares — copied to the result windows 8 and 9 at every point
  and written back to their arrays only after the last point.
-/
import proofs.«145499_j5368709120128_1_alg».proof.Proof.Gen.KernelIdeal.Launch
import proofs.«145499_j5368709120128_1_alg».proof.Proof.Gen.KernelIdeal.Skeleton
import proofs.«145499_j5368709120128_1_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, as the region finds the array. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand window 0 is found holding its block at every point, whether that point fetched it or an earlier one did. -/
theorem found0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Operand window 1 is found holding its block at every point, whether that point fetched it or an earlier one did. -/
theorem found1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Operand window 2 is found holding its block at every point, whether that point fetched it or an earlier one did. -/
theorem found2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Operand window 3 is found holding its block at every point, whether that point fetched it or an earlier one did. -/
theorem found3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Operand window 4 is found holding its block at every point, whether that point fetched it or an earlier one did. -/
theorem found4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Operand window 5 is found holding its block at every point, whether that point fetched it or an earlier one did. -/
theorem found5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
/-- Operand window 6 is found holding its block at every point, whether that point fetched it or an earlier one did. -/
theorem found6 {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The body's one test: is this the first grid point? -/

/-- The body's condition "grid coordinate = 0", as the printed scalar chain. -/
abbrev atFirst (i : grid1.Coords) : Prop := (Scalar.cmpi .ne (Scalar.extui (Scalar.cmpi .eq (BitVec.ofNat 32 (i 0).val) 0#32)) 0#32) = 1#1
/-- It holds at point 0 and nowhere else on the grid. -/
theorem atFirst_iff : ∀ t : Fin cfg1.N, atFirst (grid1.coords t) ↔ t.val % 8 = 0 :=
  (by decide +kernel : ∀ t : Fin grid1.N, atFirst (grid1.coords t) ↔ t.val % 8 = 0)

/-! ## The memrefs the body is called with -/

abbrev ms0 (t : Fin cfg1.N) : Memref sig .tc .vmem S2048x256 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x256 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x256 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S256x128 .bf16 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x128 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S2048x128 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1x128 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S1x128 .f32 := win1_9.stage (cfg1.slots t 9)
abbrev hs9 (t : Fin cfg1.N) : (ms9 t).IsWhole := hstage1_9 ((cfg1.slots t 9).cast nbuf1_9)
/-- The two accumulators the kernel keeps in scratch memory from one point to the next: the running column sums and the
    running column sums of squares. -/
abbrev sc0 : Memref sig .tc .vmem S1x128 .f32 := Memref.whole cc1_scratch0
abbrev sc1 : Memref sig .tc .vmem S1x128 .f32 := Memref.whole cc1_scratch1
abbrev VO0 : View sig .tc .vmem S2048x128 .f32 := (Memref.whole cc1_stg7_0 : Memref sig .tc .vmem S2048x128 .f32).view
abbrev VO1 : View sig .tc .vmem S1x128 .f32 := (Memref.whole cc1_stg8_0 : Memref sig .tc .vmem S1x128 .f32).view
abbrev VO2 : View sig .tc .vmem S1x128 .f32 := (Memref.whole cc1_stg9_0 : Memref sig .tc .vmem S1x128 .f32).view
abbrev VS0 : View sig .tc .vmem S1x128 .f32 := (sc0 : Memref sig .tc .vmem S1x128 .f32).view
abbrev VS1 : View sig .tc .vmem S1x128 .f32 := (sc1 : Memref sig .tc .vmem S1x128 .f32).view

/-! ## The body, run symbolically: at the first point, and at a later one -/

set_option maxHeartbeats 4000000 in
/-- AT THE FIRST POINT the body clears both accumulators before it uses them, so it needs nothing of what they held.
    The stores it makes into the three result buffers and the two accumulators, as lists of pieces (last first), WITH the
    fact that from the operand buffers held whole at `x·` and the other five held at anything, the body runs to its return
    leaving the operands as they were and those pieces written. -/
noncomputable def runFirst (c : Dev nD) (i : grid1.Coords) (a0 : Memref sig .tc .vmem S2048x256 .f32) (h0 : a0.IsWhole) (a1 : Memref sig .tc .vmem S1x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S256x128 .bf16) (h5 : a5.IsWhole) (a6 : Memref sig .tc .vmem S1x128 .f32) (h6 : a6.IsWhole) (a7 : Memref sig .tc .vmem S2048x128 .f32) (h7 : a7.IsWhole) (a8 : Memref sig .tc .vmem S1x128 .f32) (h8 : a8.IsWhole) (a9 : Memref sig .tc .vmem S1x128 .f32) (h9 : a9.IsWhole) (s0 : Memref sig .tc .vmem S1x128 .f32) (g0 : s0.IsWhole) (s1 : Memref sig .tc .vmem S1x128 .f32) (g1 : s1.IsWhole) (hc : atFirst i)
    (x0 : Vec F S2048x256 .f32) (x1 : Vec F S1x256 .f32) (x2 : Vec F S1x256 .f32) (x3 : Vec F S1x256 .f32) (x4 : Vec F S1x256 .f32) (x5 : Vec F S256x128 .bf16) (x6 : Vec F S1x128 .f32) :
    Σ' (L0 : List (View.Piece (Elt F) S2048x128 .f32)) (L1 : List (View.Piece (Elt F) S1x128 .f32)) (L2 : List (View.Piece (Elt F) S1x128 .f32)) (M0 : List (View.Piece (Elt F) S1x128 .f32)), { M1 : List (View.Piece (Elt F) S1x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) s0 fullShare d) ∗ (∃ d, owns (c : Thread nD τ) s1 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L0) ∗ (∃ f, a8.view.loc (c : Thread nD τ) ↦[a8.view.set]{fullShare} a8.view.writes (Elt F) f L1) ∗ (∃ f, a9.view.loc (c : Thread nD τ) ↦[a9.view.set]{fullShare} a9.view.writes (Elt F) f L2) ∗ (∃ f, s0.view.loc (c : Thread nD τ) ↦[s0.view.set]{fullShare} s0.view.writes (Elt F) f M0) ∗ (∃ f, s1.view.loc (c : Thread nD τ) ↦[s1.view.set]{fullShare} s1.view.writes (Elt F) f M1)) -∗ K ⟨⟩))
          ⊢ wp frame (wpE (defs₀ (F := F)) Variants.none c none) E (cc1__layer2_kernel i a0 h0 a1 h1 a2 h2 a3 h3 a4 h4 a5 h5 a6 h6 a7 h7 a8 h8 a9 h9 s0 g0 s1 g1) K } := by
  refine ⟨?_, ?_, ?_, ?_, ?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%e0, %q0, -, G0⟩, ⟨%e1, %q1, -, G1⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    isplitl [H9]; · iexists _; iexact H9
    isplitl [G0]; · iexists _; iexact G0
    iexists _; iexact G1

set_option maxHeartbeats 4000000 in
/-- AT A LATER POINT the accumulators hold what the point before left, `r0` and `r1`; the body adds this block's column
    sums to them. Otherwise as `runFirst`. -/
noncomputable def runNext (c : Dev nD) (i : grid1.Coords) (a0 : Memref sig .tc .vmem S2048x256 .f32) (h0 : a0.IsWhole) (a1 : Memref sig .tc .vmem S1x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S256x128 .bf16) (h5 : a5.IsWhole) (a6 : Memref sig .tc .vmem S1x128 .f32) (h6 : a6.IsWhole) (a7 : Memref sig .tc .vmem S2048x128 .f32) (h7 : a7.IsWhole) (a8 : Memref sig .tc .vmem S1x128 .f32) (h8 : a8.IsWhole) (a9 : Memref sig .tc .vmem S1x128 .f32) (h9 : a9.IsWhole) (s0 : Memref sig .tc .vmem S1x128 .f32) (g0 : s0.IsWhole) (s1 : Memref sig .tc .vmem S1x128 .f32) (g1 : s1.IsWhole) (hc : ¬atFirst i)
    (x0 : Vec F S2048x256 .f32) (x1 : Vec F S1x256 .f32) (x2 : Vec F S1x256 .f32) (x3 : Vec F S1x256 .f32) (x4 : Vec F S1x256 .f32) (x5 : Vec F S256x128 .bf16) (x6 : Vec F S1x128 .f32) (r0 : Vec F S1x128 .f32) (r1 : Vec F S1x128 .f32) :
    Σ' (L0 : List (View.Piece (Elt F) S2048x128 .f32)) (L1 : List (View.Piece (Elt F) S1x128 .f32)) (L2 : List (View.Piece (Elt F) S1x128 .f32)) (M0 : List (View.Piece (Elt F) S1x128 .f32)), { M1 : List (View.Piece (Elt F) S1x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ owns (c : Thread nD τ) s0 fullShare r0 ∗ owns (c : Thread nD τ) s1 fullShare r1
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L0) ∗ (∃ f, a8.view.loc (c : Thread nD τ) ↦[a8.view.set]{fullShare} a8.view.writes (Elt F) f L1) ∗ (∃ f, a9.view.loc (c : Thread nD τ) ↦[a9.view.set]{fullShare} a9.view.writes (Elt F) f L2) ∗ (∃ f, s0.view.loc (c : Thread nD τ) ↦[s0.view.set]{fullShare} s0.view.writes (Elt F) f M0) ∗ (∃ f, s1.view.loc (c : Thread nD τ) ↦[s1.view.set]{fullShare} s1.view.writes (Elt F) f M1)) -∗ K ⟨⟩))
          ⊢ wp frame (wpE (defs₀ (F := F)) Variants.none c none) E (cc1__layer2_kernel i a0 h0 a1 h1 a2 h2 a3 h3 a4 h4 a5 h5 a6 h6 a7 h7 a8 h8 a9 h9 s0 g0 s1 g1) K } := by
  refine ⟨?_, ?_, ?_, ?_, ?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%q0, %hq0, G0⟩, ⟨%q1, %hq1, G1⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := g0.eq_unread hq0
    obtain rfl := g1.eq_unread hq1
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    isplitl [H9]; · iexists _; iexact H9
    isplitl [G0]; · iexists _; iexact G0
    iexists _; iexact G1

/-! ## What the five buffers hold after each point -/

/-- After the first point: each buffer's pieces read back. In order: the block of pre-activations, the two result rows
    (sums, sums of squares), the two accumulators. -/
def stFirst (c : Dev nD) (t : Fin cfg1.N) (h : atFirst (grid1.coords t)) : Vec F S2048x128 .f32 × Vec F S1x128 .f32 × Vec F S1x128 .f32 × Vec F S1x128 .f32 × Vec F S1x128 .f32 :=
  (VO0.read (Elt F) (VO0.writes (Elt F) VO0.junk (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).1),
      VO1.read (Elt F) (VO1.writes (Elt F) VO1.junk (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.1),
      VO2.read (Elt F) (VO2.writes (Elt F) VO2.junk (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.1),
      VS0.read (Elt F) (VS0.writes (Elt F) VS0.junk (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.2.1),
      VS1.read (Elt F) (VS1.writes (Elt F) VS1.junk (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.2.2.1))

/-- After a later point, the accumulators having been found at `r0`, `r1`. -/
def stNext (c : Dev nD) (t : Fin cfg1.N) (h : ¬atFirst (grid1.coords t)) (r0 r1 : Vec F S1x128 .f32) : Vec F S2048x128 .f32 × Vec F S1x128 .f32 × Vec F S1x128 .f32 × Vec F S1x128 .f32 × Vec F S1x128 .f32 :=
  (VO0.read (Elt F) (VO0.writes (Elt F) VO0.junk (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).1),
      VO1.read (Elt F) (VO1.writes (Elt F) VO1.junk (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.1),
      VO2.read (Elt F) (VO2.writes (Elt F) VO2.junk (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.1),
      VS0.read (Elt F) (VS0.writes (Elt F) VS0.junk (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.2.1),
      VS1.read (Elt F) (VS1.writes (Elt F) VS1.junk (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.2.2.1))

/-- THE ACCUMULATION over the grid: point 0 starts the sums, every later point continues from the accumulators the
    point before left. -/
def stAt (c : Dev nD) : (n : ℕ) → n < cfg1.N → Vec F S2048x128 .f32 × Vec F S1x128 .f32 × Vec F S1x128 .f32 × Vec F S1x128 .f32 × Vec F S1x128 .f32
  | 0, hn => stFirst V c ⟨0, hn⟩ ((atFirst_iff ⟨0, hn⟩).mpr (Nat.zero_mod _))
  | n + 1, hn =>
    if h0 : (n + 1) % 8 = 0 then stFirst V c ⟨n + 1, hn⟩ ((atFirst_iff ⟨n + 1, hn⟩).mpr h0)
    else stNext V c ⟨n + 1, hn⟩ (fun h => h0 ((atFirst_iff ⟨n + 1, hn⟩).mp h))
      (stAt c n (Nat.lt_of_succ_lt hn)).2.2.2.1 (stAt c n (Nat.lt_of_succ_lt hn)).2.2.2.2

theorem stAt_first (c : Dev nD) (t : Fin cfg1.N) (h0 : t.val % 8 = 0) :
    stAt V c t.val t.isLt = stFirst V c t ((atFirst_iff t).mpr h0) := by
  obtain ⟨n, hn⟩ := t
  cases n with
  | zero => exact rfl
  | succ n => exact (dif_pos h0).trans rfl

theorem stAt_next (c : Dev nD) (t : Fin cfg1.N) (h0 : ¬t.val % 8 = 0) :
    stAt V c t.val t.isLt = stNext V c t (fun h => h0 ((atFirst_iff t).mp h))
      (stAt V c (t.val - 1) (Nat.lt_of_le_of_lt (Nat.sub_le _ _) t.isLt)).2.2.2.1
      (stAt V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

/-! ## What is held between points -/

/-- Before point 0: every scoped buffer no window stages, at anything, and the generator register. Before a later point:
    the two accumulators at what the point before left, the other such buffers at anything, the register. -/
def Inv (c : Dev nD) : (n : ℕ) → n ≤ cfg1.N → sProp 𝕄
  | 0, _ => Pipeline.ΦA spec1 c
  | n + 1, hn => iprop(iprop(iprop(owns (c : Thread nD τ) sc0 fullShare (stAt V c n hn).2.2.2.1 ∗ owns (c : Thread nD τ) sc1 fullShare (stAt V c n hn).2.2.2.2)
      ∗ Pipeline.scopedRestBut (Ix := Unit) (Name := ℕ) (U := UR sig nD τ) (Lvl := ℕ) (Val := Elt F) spec1 c [cc1_scratch0, cc1_scratch1]) ∗ (∃ r, prngReg c r))

theorem Inv_zero (c : Dev nD) (n : ℕ) (h : n ≤ cfg1.N) (hz : n = 0) : Inv V c n h = Pipeline.ΦA spec1 c := by
  subst hz; rfl
theorem Inv_succ (c : Dev nD) (n : ℕ) (hn : n < cfg1.N) :
    Inv V c (n + 1) hn = iprop(iprop(iprop(owns (c : Thread nD τ) sc0 fullShare (stAt V c n hn).2.2.2.1 ∗ owns (c : Thread nD τ) sc1 fullShare (stAt V c n hn).2.2.2.2)
      ∗ Pipeline.scopedRestBut (Ix := Unit) (Name := ℕ) (U := UR sig nD τ) (Lvl := ℕ) (Val := Elt F) spec1 c [cc1_scratch0, cc1_scratch1]) ∗ (∃ r, prngReg c r)) := rfl
theorem Inv_pos (c : Dev nD) (n : ℕ) (h : n ≤ cfg1.N) (hz : n ≠ 0) :
    Inv V c n h = iprop(iprop(iprop(owns (c : Thread nD τ) sc0 fullShare (stAt V c (n - 1) (by omega)).2.2.2.1 ∗ owns (c : Thread nD τ) sc1 fullShare (stAt V c (n - 1) (by omega)).2.2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## Every store tiles its buffer -/

theorem tilesF0 (c : Dev nD) (t : Fin cfg1.N) (h : atFirst (grid1.coords t)) (y : S2048x128.Idx) : ∃ pc ∈ (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).1, y ∈ pc.1.set :=
  View.cover_of_tiledL (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).1 S2048x128.size (by sl_kernel_rfl) y
theorem tilesF1 (c : Dev nD) (t : Fin cfg1.N) (h : atFirst (grid1.coords t)) (y : S1x128.Idx) : ∃ pc ∈ (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.1, y ∈ pc.1.set :=
  View.cover_of_tiledL (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.1 S1x128.size (by sl_kernel_rfl) y
theorem tilesF2 (c : Dev nD) (t : Fin cfg1.N) (h : atFirst (grid1.coords t)) (y : S1x128.Idx) : ∃ pc ∈ (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.1, y ∈ pc.1.set :=
  View.cover_of_tiledL (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.1 S1x128.size (by sl_kernel_rfl) y
theorem tilesF3 (c : Dev nD) (t : Fin cfg1.N) (h : atFirst (grid1.coords t)) (y : S1x128.Idx) : ∃ pc ∈ (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.2.1, y ∈ pc.1.set :=
  View.cover_of_tiledL (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.2.1 S1x128.size (by sl_kernel_rfl) y
theorem tilesF4 (c : Dev nD) (t : Fin cfg1.N) (h : atFirst (grid1.coords t)) (y : S1x128.Idx) : ∃ pc ∈ (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.2.2.1, y ∈ pc.1.set :=
  View.cover_of_tiledL (runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t)).2.2.2.2.1 S1x128.size (by sl_kernel_rfl) y
theorem tilesN0 (c : Dev nD) (t : Fin cfg1.N) (h : ¬atFirst (grid1.coords t)) (r0 r1 : Vec F S1x128 .f32) (y : S2048x128.Idx) : ∃ pc ∈ (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).1, y ∈ pc.1.set :=
  View.cover_of_tiledL (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).1 S2048x128.size (by sl_kernel_rfl) y
theorem tilesN1 (c : Dev nD) (t : Fin cfg1.N) (h : ¬atFirst (grid1.coords t)) (r0 r1 : Vec F S1x128 .f32) (y : S1x128.Idx) : ∃ pc ∈ (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.1, y ∈ pc.1.set :=
  View.cover_of_tiledL (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.1 S1x128.size (by sl_kernel_rfl) y
theorem tilesN2 (c : Dev nD) (t : Fin cfg1.N) (h : ¬atFirst (grid1.coords t)) (r0 r1 : Vec F S1x128 .f32) (y : S1x128.Idx) : ∃ pc ∈ (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.1, y ∈ pc.1.set :=
  View.cover_of_tiledL (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.1 S1x128.size (by sl_kernel_rfl) y
theorem tilesN3 (c : Dev nD) (t : Fin cfg1.N) (h : ¬atFirst (grid1.coords t)) (r0 r1 : Vec F S1x128 .f32) (y : S1x128.Idx) : ∃ pc ∈ (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.2.1, y ∈ pc.1.set :=
  View.cover_of_tiledL (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.2.1 S1x128.size (by sl_kernel_rfl) y
theorem tilesN4 (c : Dev nD) (t : Fin cfg1.N) (h : ¬atFirst (grid1.coords t)) (r0 r1 : Vec F S1x128 .f32) (y : S1x128.Idx) : ∃ pc ∈ (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.2.2.1, y ∈ pc.1.set :=
  View.cover_of_tiledL (runNext (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) h (blk V c 0 t) (blk V c 1 t) (blk V c 2 t) (blk V c 3 t) (blk V c 4 t) (blk V c 5 t) (blk V c 6 t) r0 r1).2.2.2.2.1 S1x128.size (by sl_kernel_rfl) y

/-! ## The proof data -/

/-- On core `c`: the arrays as the region finds them; after the body at point `t` every operand's buffer still at its
    block, the three result buffers at the accumulation's first three components; between points `Inv`; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => (stAt V c t.val t.isLt).1
    | ⟨8, _⟩ => (stAt V c t.val t.isLt).2.1
    | ⟨9, _⟩ => (stAt V c t.val t.isLt).2.2.1
  Φ t := Inv V c t.val (Nat.le_of_lt_succ t.isLt)
  q _ := fullShare
  owed _ := 0

theorem A_eq (c : Dev nD) (w : Fin cfg1.W) : (dat V c).A w = V c (Pipeline.arrRef spec1 w) := by dsimp only [dat]
theorem Inv_castSucc (c : Dev nD) (t : Fin cfg1.N) : (dat V c).Φ t.castSucc = Inv V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = blk V c 6 t := by dsimp only [dat]
theorem after7 (c : Dev nD) (t : Fin cfg1.N) : (dat V c).after 7 t = (stAt V c t.val t.isLt).1 := by dsimp only [dat]
theorem after8 (c : Dev nD) (t : Fin cfg1.N) : (dat V c).after 8 t = (stAt V c t.val t.isLt).2.1 := by dsimp only [dat]
theorem after9 (c : Dev nD) (t : Fin cfg1.N) : (dat V c).after 9 t = (stAt V c t.val t.isLt).2.2.1 := by dsimp only [dat]
theorem before0 (c : Dev nD) (t : Fin cfg1.N) (d) : (dat V c).before 0 t d = blk V c 0 t :=
  found0 V (dat V c) (A_eq V c 0) (after0 V c) t d
theorem before1 (c : Dev nD) (t : Fin cfg1.N) (d) : (dat V c).before 1 t d = blk V c 1 t :=
  found1 V (dat V c) (A_eq V c 1) (after1 V c) t d
theorem before2 (c : Dev nD) (t : Fin cfg1.N) (d) : (dat V c).before 2 t d = blk V c 2 t :=
  found2 V (dat V c) (A_eq V c 2) (after2 V c) t d
theorem before3 (c : Dev nD) (t : Fin cfg1.N) (d) : (dat V c).before 3 t d = blk V c 3 t :=
  found3 V (dat V c) (A_eq V c 3) (after3 V c) t d
theorem before4 (c : Dev nD) (t : Fin cfg1.N) (d) : (dat V c).before 4 t d = blk V c 4 t :=
  found4 V (dat V c) (A_eq V c 4) (after4 V c) t d
theorem before5 (c : Dev nD) (t : Fin cfg1.N) (d) : (dat V c).before 5 t d = blk V c 5 t :=
  found5 V (dat V c) (A_eq V c 5) (after5 V c) t d
theorem before6 (c : Dev nD) (t : Fin cfg1.N) (d) : (dat V c).before 6 t d = blk V c 6 t :=
  found6 V (dat V c) (A_eq V c 6) (after6 V c) t d

/-- Before point 0 what is held is the two accumulators at anything, the other unstaged scoped buffers, the register. -/
theorem PhiA_eq (c : Dev nD) :
    (Pipeline.ΦA spec1 c : sProp 𝕄)
      = iprop(iprop(iprop((∃ d, owns (c : Thread nD τ) sc0 fullShare d) ∗ (∃ d, owns (c : Thread nD τ) sc1 fullShare d)) ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA
  rw [show (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ Pipeline.scopedRestBut (Ix := Unit) (Name := ℕ) (U := UR sig nD τ) (Lvl := ℕ) (Val := Elt F) spec1 c [cc1_scratch0, cc1_scratch1])
      from Pipeline.scopedRest_split_of_list spec1 c [cc1_scratch0, cc1_scratch1] (by decide) (by decide)]
  simp only [sc0, sc1, owns_whole]; try rfl

/-! ## The body at a point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t))

set_option maxHeartbeats 6400000 in
/-- At any point the operands' buffers hold their blocks. At point 0 the accumulators are handed to the body at anything
    and come back at the first block's sums; at a later point they are handed over at what the point before left and come
    back with this block's sums added. Everything else that is held between points passes through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).owesAt () t.succ = (dat V c).owesAt () t.castSucc from rfl]
  rw [show (dat V c).Φ t.succ = Inv V c (t.val + 1) t.isLt from rfl, Inv_succ]
  rw [after0, after1, after2, after3, after4, after5, after6, after7, after8, after9]
  have hN : t.val < 8 := lt_of_lt_of_eq t.isLt (show cfg1.N = 8 from N_1)
  by_cases h0 : t.val % 8 = 0
  · have hz : t.val = 0 := by omega
    rw [stAt_first V c t h0]
    unfold stFirst; (try dsimp only)
    rw [Inv_castSucc V c t, Inv_zero V c _ _ hz, PhiA_eq]
    iintro ⟨⟨⟨⟨⟨%da, S0⟩, ⟨%db, S1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst (F := F) c (grid1.coords t) _ _ _ _ _ _ _ _ _ _ _ _ _ _ _ _ _ _ _ _ _ _ _ _ ((atFirst_iff t).mpr h0) (blk V c 0 t) (blk V c 1 t) (blk V c 2 t) (blk V c 3 t) (blk V c 4 t) (blk V c 5 t) (blk V c 6 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [S0]; · iexists _; iexact S0
    isplitl [S1]; · iexists _; iexact S1
    iintro ⟨H0, H1, H2, H3, H4, H5, H6, ⟨%e7, H7⟩, ⟨%e8, H8⟩, ⟨%e9, H9⟩, ⟨%es0, S0⟩, ⟨%es1, S1⟩⟩
    isplitl [S0 S1 Hrest Hg]
    · isplitl [S0 S1 Hrest]
      · isplitl [S0 S1]
        · isplitl [S0]
          · unfold owns; iexists _; isplitr
            swap; · iexact S0
            ipureintro; exact View.read_writes_of_cover _ _ _ _ _ (tilesF3 V c t ((atFirst_iff t).mpr h0))
          · unfold owns; iexists _; isplitr
            swap; · iexact S1
            ipureintro; exact View.read_writes_of_cover _ _ _ _ _ (tilesF4 V c t ((atFirst_iff t).mpr h0))
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (tilesF0 V c t ((atFirst_iff t).mpr h0))
    isplitl [H8]
    · unfold owns; iexists _; isplitr
      swap; · iexact H8
      ipureintro; exact View.read_writes_of_cover _ _ _ _ _ (tilesF1 V c t ((atFirst_iff t).mpr h0))
    · unfold owns; iexists _; isplitr
      swap; · iexact H9
      ipureintro; exact View.read_writes_of_cover _ _ _ _ _ (tilesF2 V c t ((atFirst_iff t).mpr h0))
  · have hz : t.val ≠ 0 := fun h => h0 (by rw [h])
    rw [stAt_next V c t h0]
    unfold stNext; (try dsimp only)
    rw [Inv_castSucc V c t, Inv_pos V c _ _ hz]
    iintro ⟨⟨⟨⟨S0, S1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runNext (F := F) c (grid1.coords t) _ _ _ _ _ _ _ _ _ _ _ _ _ _ _ _ _ _ _ _ _ _ _ _ (fun h => h0 ((atFirst_iff t).mp h)) (blk V c 0 t) (blk V c 1 t) (blk V c 2 t) (blk V c 3 t) (blk V c 4 t) (blk V c 5 t) (blk V c 6 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [S0]; · iexact S0
    isplitl [S1]; · iexact S1
    iintro ⟨H0, H1, H2, H3, H4, H5, H6, ⟨%e7, H7⟩, ⟨%e8, H8⟩, ⟨%e9, H9⟩, ⟨%es0, S0⟩, ⟨%es1, S1⟩⟩
    isplitl [S0 S1 Hrest Hg]
    · isplitl [S0 S1 Hrest]
      · isplitl [S0 S1]
        · isplitl [S0]
          · unfold owns; iexists _; isplitr
            swap; · iexact S0
            ipureintro; exact View.read_writes_of_cover _ _ _ _ _ (tilesN3 V c t (fun h => h0 ((atFirst_iff t).mp h)) _ _)
          · unfold owns; iexists _; isplitr
            swap; · iexact S1
            ipureintro; exact View.read_writes_of_cover _ _ _ _ _ (tilesN4 V c t (fun h => h0 ((atFirst_iff t).mp h)) _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (tilesN0 V c t (fun h => h0 ((atFirst_iff t).mp h)) _ _)
    isplitl [H8]
    · unfold owns; iexists _; isplitr
      swap; · iexact H8
      ipureintro; exact View.read_writes_of_cover _ _ _ _ _ (tilesN1 V c t (fun h => h0 ((atFirst_iff t).mp h)) _ _)
    · unfold owns; iexists _; isplitr
      swap; · iexact H9
      ipureintro; exact View.read_writes_of_cover _ _ _ _ _ (tilesN2 V c t (fun h => h0 ((atFirst_iff t).mp h)) _ _)

/-- The library's obligation for the body, at every point. -/
theorem body_obligation (c : Dev nD) : BodyObligation (dat (F := F) V c) (defs₀ (F := F)) Variants.none () Set.univ := fun t => by
  rw [bigSep_W1, bigSep_W1]
  exact sound_body V c t

/-- What the launch hands the region is what is held before point 0. -/
theorem inv_in (c : Dev nD) : Pipeline.ΦA spec1 c ⊢ (dat V c).Φ 0 := by
  rw [show (dat V c).Φ 0 = Inv V c 0 (Nat.zero_le _) from rfl, Inv_zero V c 0 _ rfl]
  try exact Idealize.SL.BI.Entails.refl _

/-- After the last point the accumulators' contents are forgotten again. -/
theorem inv_out (c : Dev nD) : (dat V c).Φ (Fin.last cfg1.N) ⊢ Pipeline.ΦA spec1 c := by
  rw [show (dat V c).Φ (Fin.last cfg1.N) = Inv V c (Fin.last cfg1.N).val (Nat.le_of_lt_succ (Fin.last cfg1.N).isLt) from rfl,
    Inv_pos V c _ _ (by rw [Fin.val_last]; have : cfg1.N = 8 := N_1; omega), PhiA_eq]
  iintro ⟨⟨⟨S0, S1⟩, Hrest⟩, Hg⟩
  isplitl [S0 S1 Hrest]
  · isplitl [S0 S1]
    · isplitl [S0]
      · iexists _; iexact S0
      · iexists _; iexact S1
    · iexact Hrest
  · iexact Hg

end Cert.KernelIdeal.R1

end
-- ==== Proof.KI.R2.lean ====
/-
  The third call (the final linear layer) of the program, as one pipeline region entered from any contents `V` of the
  TensorCore's buffers. Its grid has 8 points; point `t` sees rows [2048·t, 2048·t + 2048) of the normalized
  second-layer activations through window 0, the six small operands (mean, variance, scale, shift, weights, bias)
  whole through windows 1–6, and writes the matching 2048 rows of the result through window 7. The body keeps
  nothing between points, so what a point leaves in the result's staging buffer is a function of that point's blocks
  alone; that function is found by running the body symbolically and is used here only through its name.
-/
import proofs.«145499_j5368709120128_1_alg».proof.Proof.Gen.KernelIdeal.Launch
import proofs.«145499_j5368709120128_1_alg».proof.Proof.Gen.KernelIdeal.Skeleton
import proofs.«145499_j5368709120128_1_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, as the region finds the array. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 is found holding its block at every point, whether that point fetched it or an earlier one did:
    a window that is not fetched at a point has not moved since it last was. -/
theorem found0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1 is found holding its block at every point, whether that point fetched it or an earlier one did:
    a window that is not fetched at a point has not moved since it last was. -/
theorem found1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2 is found holding its block at every point, whether that point fetched it or an earlier one did:
    a window that is not fetched at a point has not moved since it last was. -/
theorem found2 {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3 is found holding its block at every point, whether that point fetched it or an earlier one did:
    a window that is not fetched at a point has not moved since it last was. -/
theorem found3 {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4 is found holding its block at every point, whether that point fetched it or an earlier one did:
    a window that is not fetched at a point has not moved since it last was. -/
theorem found4 {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Input window 5 is found holding its block at every point, whether that point fetched it or an earlier one did:
    a window that is not fetched at a point has not moved since it last was. -/
theorem found5 {c : Dev nD} (dat : Dat τ (Elt F) Unit ℕ (UR sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
/-- Input window 6 is found holding its block at every point, whether that point fetched it or an earlier one did:
    a window that is not fetched at a point has not moved since it last was. -/
theorem found6 {c : Dev nD} (dat : Dat τ (Elt F) Unit ℕ (UR sig nD τ) ℕ cfg2 c) (hA : dat.A 6 = V c (Pipeline.arrRef spec2 6))
    (hafter : ∀ t, dat.after 6 t = blk V c 6 t) (t : Fin cfg2.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The staging memrefs the pipeline hands the body at a point -/

abbrev ms0 (t : Fin cfg2.N) : Memref sig .tc .vmem S2048x128 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x128 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x128 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x128 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x128 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S128x12 .bf16 := win2_5.stage (cfg2.slots t 5)
abbrev hs5 (t : Fin cfg2.N) : (ms5 t).IsWhole := hstage2_5 ((cfg2.slots t 5).cast nbuf2_5)
abbrev ms6 (t : Fin cfg2.N) : Memref sig .tc .vmem S1x12 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S2048x12 .f32 := win2_7.stage (cfg2.slots t 7)
abbrev hs7 (t : Fin cfg2.N) : (ms7 t).IsWhole := hstage2_7 ((cfg2.slots t 7).cast nbuf2_7)

/-! ## The body, run symbolically on any staging memrefs -/

set_option maxHeartbeats 2000000 in
/-- The stores the body makes into the result's staging buffer, as a list of pieces (last first), TOGETHER WITH the fact
    that from the seven operand buffers held whole at `x0 … x6` and the result's held at anything, the body runs to its
    return, leaves the operands as they were and the result's buffer with those pieces written. -/
noncomputable def layer3Run (c : Dev nD) (i : grid2.Coords) (a1 : Memref sig .tc .vmem S2048x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x12 .bf16) (h6 : a6.IsWhole) (a7 : Memref sig .tc .vmem S1x12 .f32) (h7 : a7.IsWhole) (a8 : Memref sig .tc .vmem S2048x12 .f32) (h8 : a8.IsWhole)
    (x0 : Vec F S2048x128 .f32) (x1 : Vec F S1x128 .f32) (x2 : Vec F S1x128 .f32) (x3 : Vec F S1x128 .f32) (x4 : Vec F S1x128 .f32) (x5 : Vec F S128x12 .bf16) (x6 : Vec F S1x12 .f32) :
    { L : List (View.Piece (Elt F) S2048x12 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ f, a8.view.loc (c : Thread nD τ) ↦[a8.view.set]{fullShare} a8.view.writes (Elt F) f L)) -∗ K ⟨⟩))
          ⊢ wp frame (wpE (defs₀ (F := F)) Variants.none c none) E (cc2__layer3_kernel i a1 h1 a2 h2 a3 h3 a4 h4 a5 h5 a6 h6 a7 h7 a8 h8) K } := by
  refine ⟨?_, fun E K => ?run⟩
  case run =>
    simp only [cc2__layer3_kernel_eq_skeleton]; unfold cc2__layer3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := h1.eq_unread hf0
    obtain rfl := h2.eq_unread hf1
    obtain rfl := h3.eq_unread hf2
    obtain rfl := h4.eq_unread hf3
    obtain rfl := h5.eq_unread hf4
    obtain rfl := h6.eq_unread hf5
    obtain rfl := h7.eq_unread hf6
    sl_exec
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    iexists _; iexact H7

/-! ## What a point leaves in the result's staging buffer -/

/-- One staging buffer of the result window, through which contents are read back (either buffer would do). -/
abbrev VRes : View sig .tc .vmem S2048x12 .f32 := (Memref.whole cc2_stg7_0 : Memref sig .tc .vmem S2048x12 .f32).view

/-- The run at point `t`: on that point's staging memrefs, the operands at that point's blocks. -/
abbrev runAt (c : Dev nD) (t : Fin cfg2.N) :=
  layer3Run (F := F) c (grid2.coords t) (ms0 t) (hs0 t) (ms1 t) (hs1 t) (ms2 t) (hs2 t) (ms3 t) (hs3 t) (ms4 t) (hs4 t) (ms5 t) (hs5 t) (ms6 t) (hs6 t) (ms7 t) (hs7 t) (blk V c 0 t) (blk V c 1 t) (blk V c 2 t) (blk V c 3 t) (blk V c 4 t) (blk V c 5 t) (blk V c 6 t)

/-- The body's stores tile the result's block, so every index of the block is written. -/
theorem tiles (c : Dev nD) (t : Fin cfg2.N) (y : S2048x12.Idx) : ∃ pc ∈ (runAt V c t).1, y ∈ pc.1.set :=
  View.cover_of_tiledL (runAt V c t).1 S2048x12.size (by sl_kernel_rfl) y

/-- The 2048 result rows of point `t`: the body's stores read back. -/
def rows (c : Dev nD) (t : Fin cfg2.N) : Vec F S2048x12 .f32 :=
  VRes.read (Elt F) (VRes.writes (Elt F) VRes.junk (runAt V c t).1)

/-! ## The proof data -/

/-- On core `c`: the arrays as the region finds them; after the body at point `t` every operand's buffer still at its
    block and the result's at `rows`; between points only what no window stages (held at anything) and the generator
    register; nothing owed to another core. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => rows V c t
  Φ _ := Pipeline.ΦA spec2 c
  q _ := fullShare
  owed _ := 0

theorem A_eq (c : Dev nD) (w : Fin cfg2.W) : (dat V c).A w = V c (Pipeline.arrRef spec2 w) := by dsimp only [dat]
theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = blk V c 3 t := by dsimp only [dat]
theorem after4 (c : Dev nD) (t : Fin cfg2.N) : (dat V c).after 4 t = blk V c 4 t := by dsimp only [dat]
theorem after5 (c : Dev nD) (t : Fin cfg2.N) : (dat V c).after 5 t = blk V c 5 t := by dsimp only [dat]
theorem after6 (c : Dev nD) (t : Fin cfg2.N) : (dat V c).after 6 t = blk V c 6 t := by dsimp only [dat]
theorem after7 (c : Dev nD) (t : Fin cfg2.N) : (dat V c).after 7 t = rows V c t := by dsimp only [dat]
theorem before0 (c : Dev nD) (t : Fin cfg2.N) (d) : (dat V c).before 0 t d = blk V c 0 t :=
  found0 V (dat V c) (A_eq V c 0) (after0 V c) t d
theorem before1 (c : Dev nD) (t : Fin cfg2.N) (d) : (dat V c).before 1 t d = blk V c 1 t :=
  found1 V (dat V c) (A_eq V c 1) (after1 V c) t d
theorem before2 (c : Dev nD) (t : Fin cfg2.N) (d) : (dat V c).before 2 t d = blk V c 2 t :=
  found2 V (dat V c) (A_eq V c 2) (after2 V c) t d
theorem before3 (c : Dev nD) (t : Fin cfg2.N) (d) : (dat V c).before 3 t d = blk V c 3 t :=
  found3 V (dat V c) (A_eq V c 3) (after3 V c) t d
theorem before4 (c : Dev nD) (t : Fin cfg2.N) (d) : (dat V c).before 4 t d = blk V c 4 t :=
  found4 V (dat V c) (A_eq V c 4) (after4 V c) t d
theorem before5 (c : Dev nD) (t : Fin cfg2.N) (d) : (dat V c).before 5 t d = blk V c 5 t :=
  found5 V (dat V c) (A_eq V c 5) (after5 V c) t d
theorem before6 (c : Dev nD) (t : Fin cfg2.N) (d) : (dat V c).before 6 t d = blk V c 6 t :=
  found6 V (dat V c) (A_eq V c 6) (after6 V c) t d

/-! ## The body at a point -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t))

set_option maxHeartbeats 1600000 in
/-- At any point the operands' buffers hold their blocks, so the symbolic run applies; what is held between points
    passes through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  unfold rows
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runAt V c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (tiles V c t)

/-- The library's obligation for the body, at every point. -/
theorem body_obligation (c : Dev nD) : BodyObligation (dat (F := F) V c) (defs₀ (F := F)) Variants.none () Set.univ := fun t => by
  rw [bigSep_W2, bigSep_W2]
  exact sound_body V c t

end Cert.KernelIdeal.R2

end
-- ==== Proof.KI.Run.lean ====
/-
  The whole program as six segments in @main's order — host operations, the first call, host operations, the second call,
  host operations, the third call — each taking the TensorCore's unscoped buffers from one boundary's contents to the
  next. The contents at the seven boundaries are a fold through @main: a host stretch applies its operations; a call
  replaces its windows' arrays by what its points' write-backs made of them and leaves every other buffer alone. One run
  theorem says that every execution ends with every unscoped buffer at the last boundary's contents; the frame claim (no
  argument array is ever written) and the result buffer's final contents are both read off it.
-/
import proofs.«145499_j5368709120128_1_alg».proof.Proof.KI.R0
import proofs.«145499_j5368709120128_1_alg».proof.Proof.KI.R1
import proofs.«145499_j5368709120128_1_alg».proof.Proof.KI.R2
import proofs.«145499_j5368709120128_1_alg».proof.Proof.Gen.KernelIdeal.Regions
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- Boundary 0: core `c`'s buffers at launch. -/
abbrev B0 : Dev nD → Valuation τ sig (Elt F) := fun c b => m (c, b)

/-- Boundary 1: after the host operations before call 0. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- Boundary 2: after call 0 — its windows' arrays at what the write-backs of all its points made of them, every
    other buffer as before. -/
def B2 (c : Dev nD) : Valuation τ sig (Elt F) :=
  Pipeline.withArrays spec0 c (B1 m c) fun w => (R0.dat (E1 m) c).arrAt w cfg0.N
theorem B2_arr (c : Dev nD) (w : Fin cfg0.W) :
    B2 m c (Proc.devRef .tc (Pipeline.arrRef spec0 w)) = (R0.dat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem left0 (c : Dev nD) (w : Fin cfg0.W) : (R0.dat (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- Boundary 3: after the host operations before call 1. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- Boundary 4: after call 1 — its windows' arrays at what the write-backs of all its points made of them, every
    other buffer as before. -/
def B4 (c : Dev nD) : Valuation τ sig (Elt F) :=
  Pipeline.withArrays spec1 c (B3 m c) fun w => (R1.dat (E3 m) c).arrAt w cfg1.N
theorem B4_arr (c : Dev nD) (w : Fin cfg1.W) :
    B4 m c (Proc.devRef .tc (Pipeline.arrRef spec1 w)) = (R1.dat (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem left1 (c : Dev nD) (w : Fin cfg1.W) : (R1.dat (E3 m) c).arrAt w cfg1.N = E4 m c (Pipeline.arrRef spec1 w) :=
  (B4_arr m c w).symm
theorem kept1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- Boundary 5: after the host operations before call 2. -/
abbrev B5 : Dev nD → Valuation τ sig (Elt F) := fun c => StableHlo.after hostOps2 (B4 m c)
abbrev E5 : (c : Dev nD) → (b : Ref sig .tc) → Buf (Elt F) ((c : Thread nD τ).loc b) := fun c b => B5 m c b
/-- Boundary 6: after call 2 — its windows' arrays at what the write-backs of all its points made of them, every
    other buffer as before. -/
def B6 (c : Dev nD) : Valuation τ sig (Elt F) :=
  Pipeline.withArrays spec2 c (B5 m c) fun w => (R2.dat (E5 m) c).arrAt w cfg2.N
theorem B6_arr (c : Dev nD) (w : Fin cfg2.W) :
    B6 m c (Proc.devRef .tc (Pipeline.arrRef spec2 w)) = (R2.dat (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev E6 : (c : Dev nD) → (b : Ref sig .tc) → Buf (Elt F) ((c : Thread nD τ).loc b) := fun c b => B6 m c b
theorem left2 (c : Dev nD) (w : Fin cfg2.W) : (R2.dat (E5 m) c).arrAt w cfg2.N = E6 m c (Pipeline.arrRef spec2 w) :=
  (B6_arr m c w).symm
theorem kept2 (c : Dev nD) : ∀ b, b ∉ Finset.univ.image (Pipeline.arrRef spec2) → E6 m c b = E5 m c b :=
  fun b hb => B6_of_ne m c b fun w e => hb (Finset.mem_image.mpr ⟨w, Finset.mem_univ _, e⟩)

/-- A buffer that no host operation writes and no call has among its windows' arrays ends as launched. -/
theorem B6_untouched (c : Dev nD) (r : Ref sig .tc) (h0 : r ∉ hostOps0_W) (h1 : r ∉ hostOps1_W) (h2 : r ∉ hostOps2_W)
    (a0 : ∀ w, Pipeline.arrRef spec0 w ≠ r) (a1 : ∀ w, Pipeline.arrRef spec1 w ≠ r) (a2 : ∀ w, Pipeline.arrRef spec2 w ≠ r) :
    B6 m c (Proc.devRef .tc r) = m ((c : Thread nD τ).loc r) :=
  calc B6 m c (Proc.devRef .tc r)
    _ = B5 m c (Proc.devRef .tc r) := B6_of_ne m c r a2
    _ = B4 m c (Proc.devRef .tc r) := StableHlo.after_of_writes_sub hostOps2 _ hostOps2_writes h2
    _ = B3 m c (Proc.devRef .tc r) := B4_of_ne m c r a1
    _ = B2 m c (Proc.devRef .tc r) := StableHlo.after_of_writes_sub hostOps1 _ hostOps1_writes h1
    _ = B1 m c (Proc.devRef .tc r) := B2_of_ne m c r a0
    _ = B0 m c (Proc.devRef .tc r) := StableHlo.after_of_writes_sub hostOps0 _ hostOps0_writes h0
    _ = m ((c : Thread nD τ).loc r) := rfl

/-! ## The proof data of the three calls, and what rides along -/

/-- Each call's proof data at the contents its region is entered with. -/
def pdats : (p : Fin 3) → (c : Dev nD) → Dat τ (Elt F) Unit ℕ (UR sig nD τ) ℕ (Pipeline.pin (pcfgs (F := F)) adm p) c
  | ⟨0, _⟩ => fun c => R0.dat (E1 m) c
  | ⟨1, _⟩ => fun c => R1.dat (E3 m) c
  | ⟨2, _⟩ => fun c => R2.dat (E5 m) c
abbrev 𝒱₀ : Variants := Variants.none
abbrev L : GSem nD τ sig → Finset Unit := fun _ => ∅
abbrev lv : GSem nD τ sig → Unit → ℕ := fun _ _ => 0
/-- Beside the buffers, through every segment: the core's generator register at some state, and the core owing nothing. -/
abbrev Ride (c : Dev nD) : sProp 𝕄 := iprop((∃ r, prngReg c r) ∗ ∃ W, owes (c : Thread nD τ) (0 : CellTallies nD τ sig Unit) W)
/-- A host stretch as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Last (c : Dev nD) : sProp 𝕄 := iprop(StableHlo.held (c : Thread nD τ) (Pipeline.ucRefs τ sig) (B6 m c) ∗ ∃ r, prngReg c r)

/-! ## The three calls as segments -/

set_option backward.isDefEq.respectTransparency.types false in
/-- Call 0 as a segment: entered with every unscoped buffer at boundary 1's contents, left with them at boundary
    2's. Its windows' arrays are split out of the unscoped buffers on the way in and put back, at what the write-backs
    made of them, on the way out; the generator register goes into the region and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E1 m) c).loose
  hwaits := Pipeline.hwaits_of_owed_zero _ _ _ _ L lv 0 fun _ _ => rfl
  pre c := iprop(StableHlo.held (c : Thread nD τ) (Pipeline.ucRefs τ sig) (B1 m c) ∗ Ride c)
  post c := iprop(StableHlo.held (c : Thread nD τ) (Pipeline.ucRefs τ sig) (B2 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from R0.inv_out (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at boundary 3's contents, left with them at boundary
    4's. Its windows' arrays are split out of the unscoped buffers on the way in and put back, at what the write-backs
    made of them, on the way out; the generator register goes into the region and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E3 m) c).loose
  hwaits := Pipeline.hwaits_of_owed_zero _ _ _ _ L lv 1 fun _ _ => rfl
  pre c := iprop(StableHlo.held (c : Thread nD τ) (Pipeline.ucRefs τ sig) (B3 m c) ∗ Ride c)
  post c := iprop(StableHlo.held (c : Thread nD τ) (Pipeline.ucRefs τ sig) (B4 m c) ∗ Ride c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from R1.inv_out (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at boundary 5's contents, left with them at boundary
    6's. Its windows' arrays are split out of the unscoped buffers on the way in and put back, at what the write-backs
    made of them, on the way out; the generator register goes into the region and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (E5 m) c).loose
  hwaits := Pipeline.hwaits_of_owed_zero _ _ _ _ L lv 2 fun _ _ => rfl
  pre c := iprop(StableHlo.held (c : Thread nD τ) (Pipeline.ucRefs τ sig) (B5 m c) ∗ Ride c)
  post c := iprop(StableHlo.held (c : Thread nD τ) (Pipeline.ucRefs τ sig) (B6 m c) ∗ Ride c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the segments' run, and the launch -/

abbrev segs : List (Pipeline.Seg (pcfgs (F := F)) adm (pdats m) () defs₀ 𝒱₀ L lv) :=
  [ .host (hostSeg hostOps0 hostOps0_sub hostOps0_fresh (B0 m)),
    .region (reg0 m),
    .host (hostSeg hostOps1 hostOps1_sub hostOps1_fresh (B2 m)),
    .region (reg1 m),
    .host (hostSeg hostOps2 hostOps2_sub hostOps2_fresh (B4 m)),
    .region (reg2 m) ]
theorem main_is_segs (c : Dev nD) : main (F := F) c = Pipeline.Seg.run (segs m) := (main_chain c).trans (by chain_rfl)

set_option backward.isDefEq.respectTransparency.types false in
/-- THE RUN. From any memory with zero semaphore counters, every weakly fair execution of @main terminates without a
    fault, and in every final memory every unscoped TensorCore buffer holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Ride c)) (Tₙ := Last m)
    (hch := ⟨fun _ => .rfl, fun _ => .rfl, fun _ => .rfl, fun _ => .rfl, fun _ => .rfl, fun _ => .rfl, fun c => by
      show iprop(StableHlo.held (c : Thread nD τ) (Pipeline.ucRefs τ sig) (B6 m c) ∗ Ride c) ⊢ iprop(Last m c ∗ ∃ W, owes (c : Thread nD τ) (0 : CellTallies nD τ sig Unit) W)
      iintro ⟨Hh, Hp, HO⟩
      isplitl [Hh Hp]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-! ## The frame, and the result buffer -/

/-- No argument array is written: each ends holding what it was launched with. And the result buffer ends at the
    third call's write-backs folded over its array. -/
theorem run_result : θ_run defs (onTc (τ := τ) (main (F := F))) ⟨m, fun _ => 0, ρ⟩ (fun r => ∀ c : Dev nD,
      r.2.mem ((c.tc : Thread nD τ).loc main_v32) = (R2.dat (E5 m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v32 (by decide))).trans (B6_arr m c 7),
     (h c _ (mem_uc main_arg0 (by decide))).trans (B6_untouched m c main_arg0 (by decide) (by decide) (by decide) (by decide) (by decide) (by decide)),
     (h c _ (mem_uc main_arg1 (by decide))).trans (B6_untouched m c main_arg1 (by decide) (by decide) (by decide) (by decide) (by decide) (by decide)),
     (h c _ (mem_uc main_arg2 (by decide))).trans (B6_untouched m c main_arg2 (by decide) (by decide) (by decide) (by decide) (by decide) (by decide)),
     (h c _ (mem_uc main_arg3 (by decide))).trans (B6_untouched m c main_arg3 (by decide) (by decide) (by decide) (by decide) (by decide) (by decide)),
     (h c _ (mem_uc main_arg4 (by decide))).trans (B6_untouched m c main_arg4 (by decide) (by decide) (by decide) (by decide) (by decide) (by decide)),
     (h c _ (mem_uc main_arg5 (by decide))).trans (B6_untouched m c main_arg5 (by decide) (by decide) (by decide) (by decide) (by decide) (by decide)),
     (h c _ (mem_uc main_arg6 (by decide))).trans (B6_untouched m c main_arg6 (by decide) (by decide) (by decide) (by decide) (by decide) (by decide)),
     (h c _ (mem_uc main_arg7 (by decide))).trans (B6_untouched m c main_arg7 (by decide) (by decide) (by decide) (by decide) (by decide) (by decide)),
     (h c _ (mem_uc main_arg8 (by decide))).trans (B6_untouched m c main_arg8 (by decide) (by decide) (by decide) (by decide) (by decide) (by decide)),
     (h c _ (mem_uc main_arg9 (by decide))).trans (B6_untouched m c main_arg9 (by decide) (by decide) (by decide) (by decide) (by decide) (by decide)),
     (h c _ (mem_uc main_arg10 (by decide))).trans (B6_untouched m c main_arg10 (by decide) (by decide) (by decide) (by decide) (by decide) (by decide)),
     (h c _ (mem_uc main_arg11 (by decide))).trans (B6_untouched m c main_arg11 (by decide) (by decide) (by decide) (by decide) (by decide) (by decide))⟩)
    (run m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.KernelIdeal.Whole

end
-- ==== Proof.LibReadBack.lean ====
/-
  A block read back after stores the last of which covered it whole.

  When a kernel keeps a running value in a scratch block — store the whole block, load the whole block, store again —
  each load reads the value of the store just before it, whatever was stored earlier and whatever the block held at
  the start. Imports only the library.
-/
import Idealize.ShloMosaic.Lib.Pipeline.Value

noncomputable section

open Idealize.ShloMosaic

namespace Cert.ReadBack

/-- A load of the whole block (the unit-stride rectangle at zero offsets of the block's own sizes, however the zeros
    are spelt), after a list of stores whose LAST one (the head of the list) went through that same rectangle, reads
    that last store's value `w`; the earlier stores `L` are arbitrary. -/
theorem readCov_whole_last {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.ReadBack

end
-- ==== Proof.KI.V0.lean ====
/-
  What call 0 leaves in its three result arrays, as functions of the arrays the region was entered with. The block of
  rows written at point `t` is the body's arithmetic on that point's blocks, and the 32 points' row ranges tile the
  16384 rows. The two accumulators start from zero at point 0 and at every later point continue from what the point
  before left; their copies in the two result rows are written back once, after the last point.
-/
import proofs.«145499_j5368709120128_1_alg».proof.Proof.KI.R0
import proofs.«145499_j5368709120128_1_alg».proof.Proof.LibReadBack
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-! ## What each buffer holds after a point, as the body's arithmetic on the point's blocks -/

theorem big_first (c : Dev nD) (t : Fin cfg0.N) (h : atFirst (grid0.coords t)) :
    (stFirst V c t h).1 = k0_pay3 (blk V c 0 t) (blk V c 1 t) (blk V c 2 t) := by
  unfold stFirst
  dsimp only
  rw [View.read_writes_eq_canon _ _ _ (tilesF0 V c t h)]
  unfold runFirst
  dsimp only
  try sl_unfold_words
  simp only [View.canon_cons_unit_zero (S := S1x256) zeros2, View.canon_unit_zero (S := S1x256) zeros2, View.canon_unit_zero (S := S512x256) zeros2, View.readCov_unit_zero (S := S1x256) _ zeros2, Cert.ReadBack.readCov_whole_last (S := S1x256) _ zeros2, View.readAt_eq_ld, (hs0 t).read_unread, (hs1 t).read_unread, (hs2 t).read_unread, (Memref.isWhole_whole _).read_unread, View.ld_unit_zero (S := S512x4096) zeros2, View.ld_unit_zero (S := S4096x256) zeros2, View.ld_unit_zero (S := S1x256) zeros2, View.ld_unit_zero (S := S512x256) zeros2]
theorem outSum_first (c : Dev nD) (t : Fin cfg0.N) (h : atFirst (grid0.coords t)) :
    (stFirst V c t h).2.1 = k0_pay4 (blk V c 0 t) (blk V c 1 t) (blk V c 2 t) k0_pay1 := by
  unfold stFirst
  dsimp only
  rw [View.read_writes_eq_canon _ _ _ (tilesF1 V c t h)]
  unfold runFirst
  dsimp only
  try sl_unfold_words
  simp only [View.canon_cons_unit_zero (S := S1x256) zeros2, View.canon_unit_zero (S := S1x256) zeros2, View.canon_unit_zero (S := S512x256) zeros2, View.readCov_unit_zero (S := S1x256) _ zeros2, Cert.ReadBack.readCov_whole_last (S := S1x256) _ zeros2, View.readAt_eq_ld, (hs0 t).read_unread, (hs1 t).read_unread, (hs2 t).read_unread, (Memref.isWhole_whole _).read_unread, View.ld_unit_zero (S := S512x4096) zeros2, View.ld_unit_zero (S := S4096x256) zeros2, View.ld_unit_zero (S := S1x256) zeros2, View.ld_unit_zero (S := S512x256) zeros2]
theorem outSq_first (c : Dev nD) (t : Fin cfg0.N) (h : atFirst (grid0.coords t)) :
    (stFirst V c t h).2.2.1 = k0_pay5 (blk V c 0 t) (blk V c 1 t) (blk V c 2 t) k0_pay2 := by
  unfold stFirst
  dsimp only
  rw [View.read_writes_eq_canon _ _ _ (tilesF2 V c t h)]
  unfold runFirst
  dsimp only
  try sl_unfold_words
  simp only [View.canon_cons_unit_zero (S := S1x256) zeros2, View.canon_unit_zero (S := S1x256) zeros2, View.canon_unit_zero (S := S512x256) zeros2, View.readCov_unit_zero (S := S1x256) _ zeros2, Cert.ReadBack.readCov_whole_last (S := S1x256) _ zeros2, View.readAt_eq_ld, (hs0 t).read_unread, (hs1 t).read_unread, (hs2 t).read_unread, (Memref.isWhole_whole _).read_unread, View.ld_unit_zero (S := S512x4096) zeros2, View.ld_unit_zero (S := S4096x256) zeros2, View.ld_unit_zero (S := S1x256) zeros2, View.ld_unit_zero (S := S512x256) zeros2]
theorem accSum_first (c : Dev nD) (t : Fin cfg0.N) (h : atFirst (grid0.coords t)) :
    (stFirst V c t h).2.2.2.1 = k0_pay4 (blk V c 0 t) (blk V c 1 t) (blk V c 2 t) k0_pay1 := by
  unfold stFirst
  dsimp only
  rw [View.read_writes_eq_canon _ _ _ (tilesF3 V c t h)]
  unfold runFirst
  dsimp only
  try sl_unfold_words
  simp only [View.canon_cons_unit_zero (S := S1x256) zeros2, View.canon_unit_zero (S := S1x256) zeros2, View.canon_unit_zero (S := S512x256) zeros2, View.readCov_unit_zero (S := S1x256) _ zeros2, Cert.ReadBack.readCov_whole_last (S := S1x256) _ zeros2, View.readAt_eq_ld, (hs0 t).read_unread, (hs1 t).read_unread, (hs2 t).read_unread, (Memref.isWhole_whole _).read_unread, View.ld_unit_zero (S := S512x4096) zeros2, View.ld_unit_zero (S := S4096x256) zeros2, View.ld_unit_zero (S := S1x256) zeros2, View.ld_unit_zero (S := S512x256) zeros2]
theorem accSq_first (c : Dev nD) (t : Fin cfg0.N) (h : atFirst (grid0.coords t)) :
    (stFirst V c t h).2.2.2.2 = k0_pay5 (blk V c 0 t) (blk V c 1 t) (blk V c 2 t) k0_pay2 := by
  unfold stFirst
  dsimp only
  rw [View.read_writes_eq_canon _ _ _ (tilesF4 V c t h)]
  unfold runFirst
  dsimp only
  try sl_unfold_words
  simp only [View.canon_cons_unit_zero (S := S1x256) zeros2, View.canon_unit_zero (S := S1x256) zeros2, View.canon_unit_zero (S := S512x256) zeros2, View.readCov_unit_zero (S := S1x256) _ zeros2, Cert.ReadBack.readCov_whole_last (S := S1x256) _ zeros2, View.readAt_eq_ld, (hs0 t).read_unread, (hs1 t).read_unread, (hs2 t).read_unread, (Memref.isWhole_whole _).read_unread, View.ld_unit_zero (S := S512x4096) zeros2, View.ld_unit_zero (S := S4096x256) zeros2, View.ld_unit_zero (S := S1x256) zeros2, View.ld_unit_zero (S := S512x256) zeros2]
theorem big_next (c : Dev nD) (t : Fin cfg0.N) (h : ¬atFirst (grid0.coords t)) (r0 r1 : Vec F S1x256 .f32) :
    (stNext V c t h r0 r1).1 = k0_pay3 (blk V c 0 t) (blk V c 1 t) (blk V c 2 t) := by
  unfold stNext
  dsimp only
  rw [View.read_writes_eq_canon _ _ _ (tilesN0 V c t h r0 r1)]
  unfold runNext
  dsimp only
  try sl_unfold_words
  simp only [View.canon_cons_unit_zero (S := S1x256) zeros2, View.canon_unit_zero (S := S1x256) zeros2, View.canon_unit_zero (S := S512x256) zeros2, View.readCov_unit_zero (S := S1x256) _ zeros2, Cert.ReadBack.readCov_whole_last (S := S1x256) _ zeros2, View.readAt_eq_ld, (hs0 t).read_unread, (hs1 t).read_unread, (hs2 t).read_unread, (Memref.isWhole_whole _).read_unread, View.ld_unit_zero (S := S512x4096) zeros2, View.ld_unit_zero (S := S4096x256) zeros2, View.ld_unit_zero (S := S1x256) zeros2, View.ld_unit_zero (S := S512x256) zeros2]
theorem outSum_next (c : Dev nD) (t : Fin cfg0.N) (h : ¬atFirst (grid0.coords t)) (r0 r1 : Vec F S1x256 .f32) :
    (stNext V c t h r0 r1).2.1 = k0_pay4 (blk V c 0 t) (blk V c 1 t) (blk V c 2 t) r0 := by
  unfold stNext
  dsimp only
  rw [View.read_writes_eq_canon _ _ _ (tilesN1 V c t h r0 r1)]
  unfold runNext
  dsimp only
  try sl_unfold_words
  simp only [View.canon_cons_unit_zero (S := S1x256) zeros2, View.canon_unit_zero (S := S1x256) zeros2, View.canon_unit_zero (S := S512x256) zeros2, View.readCov_unit_zero (S := S1x256) _ zeros2, Cert.ReadBack.readCov_whole_last (S := S1x256) _ zeros2, View.readAt_eq_ld, (hs0 t).read_unread, (hs1 t).read_unread, (hs2 t).read_unread, (Memref.isWhole_whole _).read_unread, View.ld_unit_zero (S := S512x4096) zeros2, View.ld_unit_zero (S := S4096x256) zeros2, View.ld_unit_zero (S := S1x256) zeros2, View.ld_unit_zero (S := S512x256) zeros2]
theorem outSq_next (c : Dev nD) (t : Fin cfg0.N) (h : ¬atFirst (grid0.coords t)) (r0 r1 : Vec F S1x256 .f32) :
    (stNext V c t h r0 r1).2.2.1 = k0_pay5 (blk V c 0 t) (blk V c 1 t) (blk V c 2 t) r1 := by
  unfold stNext
  dsimp only
  rw [View.read_writes_eq_canon _ _ _ (tilesN2 V c t h r0 r1)]
  unfold runNext
  dsimp only
  try sl_unfold_words
  simp only [View.canon_cons_unit_zero (S := S1x256) zeros2, View.canon_unit_zero (S := S1x256) zeros2, View.canon_unit_zero (S := S512x256) zeros2, View.readCov_unit_zero (S := S1x256) _ zeros2, Cert.ReadBack.readCov_whole_last (S := S1x256) _ zeros2, View.readAt_eq_ld, (hs0 t).read_unread, (hs1 t).read_unread, (hs2 t).read_unread, (Memref.isWhole_whole _).read_unread, View.ld_unit_zero (S := S512x4096) zeros2, View.ld_unit_zero (S := S4096x256) zeros2, View.ld_unit_zero (S := S1x256) zeros2, View.ld_unit_zero (S := S512x256) zeros2]
theorem accSum_next (c : Dev nD) (t : Fin cfg0.N) (h : ¬atFirst (grid0.coords t)) (r0 r1 : Vec F S1x256 .f32) :
    (stNext V c t h r0 r1).2.2.2.1 = k0_pay4 (blk V c 0 t) (blk V c 1 t) (blk V c 2 t) r0 := by
  unfold stNext
  dsimp only
  rw [View.read_writes_eq_canon _ _ _ (tilesN3 V c t h r0 r1)]
  unfold runNext
  dsimp only
  try sl_unfold_words
  simp only [View.canon_cons_unit_zero (S := S1x256) zeros2, View.canon_unit_zero (S := S1x256) zeros2, View.canon_unit_zero (S := S512x256) zeros2, View.readCov_unit_zero (S := S1x256) _ zeros2, Cert.ReadBack.readCov_whole_last (S := S1x256) _ zeros2, View.readAt_eq_ld, (hs0 t).read_unread, (hs1 t).read_unread, (hs2 t).read_unread, (Memref.isWhole_whole _).read_unread, View.ld_unit_zero (S := S512x4096) zeros2, View.ld_unit_zero (S := S4096x256) zeros2, View.ld_unit_zero (S := S1x256) zeros2, View.ld_unit_zero (S := S512x256) zeros2]
theorem accSq_next (c : Dev nD) (t : Fin cfg0.N) (h : ¬atFirst (grid0.coords t)) (r0 r1 : Vec F S1x256 .f32) :
    (stNext V c t h r0 r1).2.2.2.2 = k0_pay5 (blk V c 0 t) (blk V c 1 t) (blk V c 2 t) r1 := by
  unfold stNext
  dsimp only
  rw [View.read_writes_eq_canon _ _ _ (tilesN4 V c t h r0 r1)]
  unfold runNext
  dsimp only
  try sl_unfold_words
  simp only [View.canon_cons_unit_zero (S := S1x256) zeros2, View.canon_unit_zero (S := S1x256) zeros2, View.canon_unit_zero (S := S512x256) zeros2, View.readCov_unit_zero (S := S1x256) _ zeros2, Cert.ReadBack.readCov_whole_last (S := S1x256) _ zeros2, View.readAt_eq_ld, (hs0 t).read_unread, (hs1 t).read_unread, (hs2 t).read_unread, (Memref.isWhole_whole _).read_unread, View.ld_unit_zero (S := S512x4096) zeros2, View.ld_unit_zero (S := S4096x256) zeros2, View.ld_unit_zero (S := S1x256) zeros2, View.ld_unit_zero (S := S512x256) zeros2]

/-! ## The windows' blocks by coordinates -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)

/-- Window 0's block at point `t` is rows 512·t … 512·t + 511 of its array. -/
theorem blk0_apply (c : Dev nD) (t : Fin cfg0.N) (y : S512x4096.Idx) (k : S16384x4096.Idx)
    (hk0 : (k 0).val = 512 * t.val + (y 0).val) (hk1 : (k 1).val = (y 1).val) :
    (blk V c 0 t : Vec F S512x4096 .f32) y = (V c main_v0 : S16384x4096.Idx → Elt F .f32) k := by
  unfold blk
  rw [View.read_apply]
  show V c main_v0 _ = V c main_v0 _
  congr 1
  funext a
  apply Fin.ext
  match a with
  | ⟨0, _⟩ => show win0_0.index t 0 * 512 + 1 * (y 0).val = (k 0).val; rw [(idx0 t).1, hk0]; omega
  | ⟨1, _⟩ => show win0_0.index t 1 * 4096 + 1 * (y 1).val = (k 1).val; rw [(idx0 t).2, hk1]; omega

/-- Window 1 shows its whole array at every point. -/
theorem blk1_eq (c : Dev nD) (t : Fin cfg0.N) : (blk V c 1 t : Vec F S4096x256 .bf16) = (V c main_v3 : S4096x256.Idx → Elt F .bf16) := by
  funext y
  unfold blk
  rw [View.read_apply]
  show V c main_v3 _ = V c main_v3 y
  congr 1
  funext a
  apply Fin.ext
  match a with
  | ⟨0, _⟩ => show win0_1.index t 0 * 4096 + 1 * (y 0).val = (y 0).val; rw [(idx1 t).1]; omega
  | ⟨1, _⟩ => show win0_1.index t 1 * 256 + 1 * (y 1).val = (y 1).val; rw [(idx1 t).2]; omega
/-- Window 2 shows its whole array at every point. -/
theorem blk2_eq (c : Dev nD) (t : Fin cfg0.N) : (blk V c 2 t : Vec F S1x256 .f32) = (V c main_v5 : S1x256.Idx → Elt F .f32) := by
  funext y
  unfold blk
  rw [View.read_apply]
  show V c main_v5 _ = V c main_v5 y
  congr 1
  funext a
  apply Fin.ext
  match a with
  | ⟨0, _⟩ => show win0_2.index t 0 * 1 + 1 * (y 0).val = (y 0).val; rw [(idx2 t).1]; omega
  | ⟨1, _⟩ => show win0_2.index t 1 * 256 + 1 * (y 1).val = (y 1).val; rw [(idx2 t).2]; omega

/-! ## The array of pre-activations -/

/-- The grid point whose block holds row `i 0`. -/
def pointOf (i : S16384x256.Idx) : Fin cfg0.N :=
  ⟨(i 0).val / 512, by rw [show cfg0.N = 32 from N_0]; have h : (i 0 : Nat) < 16384 := (i 0).isLt; omega⟩

/-- The array after the region: entry (r, j) is the body's arithmetic on the block of rows holding r, at local row r mod 512. -/
def preact (c : Dev nD) : S16384x256.Idx → Elt F .f32 := fun i =>
  k0_pay3 (blk V c 0 (pointOf i)) (V c main_v3 : S4096x256.Idx → Elt F .bf16) (V c main_v5 : S1x256.Idx → Elt F .f32)
    (ix2 (⟨(i 0).val % 512, Nat.mod_lt _ (by decide)⟩ : Fin 512) (⟨(i 1).val, (i 1).isLt⟩ : Fin 256))

theorem stAt_big (c : Dev nD) (t : Fin cfg0.N) : (stAt V c t.val t.isLt).1 = k0_pay3 (blk V c 0 t) (blk V c 1 t) (blk V c 2 t) := by
  by_cases h0 : t.val % 32 = 0
  · rw [stAt_first V c t h0, big_first]
  · rw [stAt_next V c t h0, big_next]

/-- What point `t` writes back is block `t` of `preact`. -/
theorem flushedBig_eq (c : Dev nD) (t : Fin cfg0.N) (hf : (cfg0.win 3).flush t = true) :
    (dat V c).flushed 3 t = ((cfg0.win 3).blk t).view.read (Elt F) (preact V c) := by
  show (cfg0.win 3).cut (grid0.coords t) ((dat V c).after 3 t) = _
  rw [after3, stAt_big, blk1_eq, blk2_eq]
  funext y
  rw [View.read_apply]
  have he0 : ((((cfg0.win 3).blk t).view.emb y) 0 : Nat) = 512 * t.val + (y 0 : Nat) := by
    show win0_3.index t 0 * 512 + 1 * (y 0).val = _; rw [(idx3 t).1]; omega
  have he1 : ((((cfg0.win 3).blk t).view.emb y) 1 : Nat) = (y 1 : Nat) := by
    show win0_3.index t 1 * 256 + 1 * (y 1).val = _; rw [(idx3 t).2]; omega
  have hy0 : (y 0 : Nat) < 512 := (y 0).isLt
  have ht : pointOf (((cfg0.win 3).blk t).view.emb y) = t := Fin.ext (by
    show ((((cfg0.win 3).blk t).view.emb y) 0 : Nat) / 512 = t.val; rw [he0]; omega)
  unfold preact
  rw [ht]
  show k0_pay3 (blk V c 0 t) _ _ y = k0_pay3 (blk V c 0 t) _ _ (ix2 _ _)
  refine congrArg (k0_pay3 (blk V c 0 t) _ _) (funext fun a => ?_)
  apply Fin.ext
  match a with
  | ⟨0, _⟩ => show (y 0 : Nat) = ((((cfg0.win 3).blk t).view.emb y) 0 : Nat) % 512; rw [he0]; omega
  | ⟨1, _⟩ => show (y 1 : Nat) = ((((cfg0.win 3).blk t).view.emb y) 1 : Nat); rw [he1]

theorem xsizeBig : ∀ t : Fin cfg0.N, win0_3.xsize (grid0.coords t) 0 = 512 ∧ win0_3.xsize (grid0.coords t) 1 = 256 :=
  (by decide +kernel : ∀ t : Fin grid0.N, win0_3.xsize (grid0.coords t) 0 = 512 ∧ win0_3.xsize (grid0.coords t) 1 = 256)

/-- The 32 points' blocks tile the 16384 rows, so the array ends holding `preact`. -/
theorem finalBig (c : Dev nD) : (dat V c).arrAt 3 cfg0.N = preact V c :=
  (dat V c).arrAt_eq_of_cover 3 (preact V c) (flushedBig_eq V c) fun i =>
    ⟨pointOf i, flush0_3 (pointOf i), by
      show i ∈ ((View.whole main_v18_0).slice (win0_3.rect (pointOf i))).set
      rw [View.set_slice_whole, Rect.mem_set_unit]
      intro a
      have h0 : (i 0 : Nat) < 16384 := (i 0).isLt
      have h1 : (i 1 : Nat) < 256 := (i 1).isLt
      match a with
      | ⟨0, _⟩ =>
        show win0_3.index (pointOf i) 0 * win0_3.size 0 ≤ (i 0 : Nat) ∧ (i 0 : Nat) < win0_3.index (pointOf i) 0 * win0_3.size 0 + win0_3.xsize (grid0.coords (pointOf i)) 0
        rw [(idx3 (pointOf i)).1, (xsizeBig (pointOf i)).1, show win0_3.size 0 = 512 from rfl]
        show (i 0 : Nat) / 512 * 512 ≤ (i 0 : Nat) ∧ (i 0 : Nat) < (i 0 : Nat) / 512 * 512 + 512
        omega
      | ⟨1, _⟩ =>
        show win0_3.index (pointOf i) 1 * win0_3.size 1 ≤ (i 1 : Nat) ∧ (i 1 : Nat) < win0_3.index (pointOf i) 1 * win0_3.size 1 + win0_3.xsize (grid0.coords (pointOf i)) 1
        rw [(idx3 (pointOf i)).2, (xsizeBig (pointOf i)).2]
        omega⟩

/-! ## The two result rows: written back once, after the last point -/

/-- The last grid point. -/
def lastPt : Fin cfg0.N := ⟨31, by rw [show cfg0.N = 32 from N_0]; decide⟩

theorem xsizeSum : ∀ t : Fin cfg0.N, win0_4.xsize (grid0.coords t) 0 = 1 ∧ win0_4.xsize (grid0.coords t) 1 = 256 :=
  (by decide +kernel : ∀ t : Fin grid0.N, win0_4.xsize (grid0.coords t) 0 = 1 ∧ win0_4.xsize (grid0.coords t) 1 = 256)

theorem flushedSum_eq (c : Dev nD) (t : Fin cfg0.N) (hf : (cfg0.win 4).flush t = true) :
    (dat V c).flushed 4 t = ((cfg0.win 4).blk t).view.read (Elt F) ((stAt V c lastPt.val lastPt.isLt).2.1 : S1x256.Idx → Elt F .f32) := by
  have hN : cfg0.N = 32 := N_0
  have h1 : t.val = 31 := by have := (flush0_4 t).mp hf; have := t.isLt; omega
  obtain rfl : t = lastPt := Fin.ext h1
  show (cfg0.win 4).cut (grid0.coords lastPt) ((dat V c).after 4 lastPt) = _
  rw [after4]
  funext y
  rw [View.read_apply]
  show (stAt V c lastPt.val lastPt.isLt).2.1 y = (stAt V c lastPt.val lastPt.isLt).2.1 _
  refine congrArg ((stAt V c lastPt.val lastPt.isLt).2.1) (funext fun a => ?_)
  apply Fin.ext
  match a with
  | ⟨0, _⟩ => show (y 0 : Nat) = win0_4.index lastPt 0 * 1 + 1 * (y 0).val; rw [(idx4 lastPt).1]; omega
  | ⟨1, _⟩ => show (y 1 : Nat) = win0_4.index lastPt 1 * 256 + 1 * (y 1).val; rw [(idx4 lastPt).2]; omega

/-- The row array ends holding what the last point left in its staging buffer. -/
theorem finalSum (c : Dev nD) : (dat V c).arrAt 4 cfg0.N = ((stAt V c lastPt.val lastPt.isLt).2.1 : S1x256.Idx → Elt F .f32) :=
  (dat V c).arrAt_eq_of_cover 4 _ (flushedSum_eq V c) fun i =>
    ⟨lastPt, (flush0_4 lastPt).mpr rfl, by
      show i ∈ ((View.whole main_v18_1).slice (win0_4.rect lastPt)).set
      rw [View.set_slice_whole, Rect.mem_set_unit]
      intro a
      have h0 : (i 0 : Nat) < 1 := (i 0).isLt
      have h1 : (i 1 : Nat) < 256 := (i 1).isLt
      match a with
      | ⟨0, _⟩ =>
        show win0_4.index lastPt 0 * win0_4.size 0 ≤ (i 0 : Nat) ∧ (i 0 : Nat) < win0_4.index lastPt 0 * win0_4.size 0 + win0_4.xsize (grid0.coords lastPt) 0
        rw [(idx4 lastPt).1, (xsizeSum lastPt).1]; omega
      | ⟨1, _⟩ =>
        show win0_4.index lastPt 1 * win0_4.size 1 ≤ (i 1 : Nat) ∧ (i 1 : Nat) < win0_4.index lastPt 1 * win0_4.size 1 + win0_4.xsize (grid0.coords lastPt) 1
        rw [(idx4 lastPt).2, (xsizeSum lastPt).2]; omega⟩

theorem xsizeSq : ∀ t : Fin cfg0.N, win0_5.xsize (grid0.coords t) 0 = 1 ∧ win0_5.xsize (grid0.coords t) 1 = 256 :=
  (by decide +kernel : ∀ t : Fin grid0.N, win0_5.xsize (grid0.coords t) 0 = 1 ∧ win0_5.xsize (grid0.coords t) 1 = 256)

theorem flushedSq_eq (c : Dev nD) (t : Fin cfg0.N) (hf : (cfg0.win 5).flush t = true) :
    (dat V c).flushed 5 t = ((cfg0.win 5).blk t).view.read (Elt F) ((stAt V c lastPt.val lastPt.isLt).2.2.1 : S1x256.Idx → Elt F .f32) := by
  have hN : cfg0.N = 32 := N_0
  have h1 : t.val = 31 := by have := (flush0_5 t).mp hf; have := t.isLt; omega
  obtain rfl : t = lastPt := Fin.ext h1
  show (cfg0.win 5).cut (grid0.coords lastPt) ((dat V c).after 5 lastPt) = _
  rw [after5]
  funext y
  rw [View.read_apply]
  show (stAt V c lastPt.val lastPt.isLt).2.2.1 y = (stAt V c lastPt.val lastPt.isLt).2.2.1 _
  refine congrArg ((stAt V c lastPt.val lastPt.isLt).2.2.1) (funext fun a => ?_)
  apply Fin.ext
  match a with
  | ⟨0, _⟩ => show (y 0 : Nat) = win0_5.index lastPt 0 * 1 + 1 * (y 0).val; rw [(idx5 lastPt).1]; omega
  | ⟨1, _⟩ => show (y 1 : Nat) = win0_5.index lastPt 1 * 256 + 1 * (y 1).val; rw [(idx5 lastPt).2]; omega

/-- The row array ends holding what the last point left in its staging buffer. -/
theorem finalSq (c : Dev nD) : (dat V c).arrAt 5 cfg0.N = ((stAt V c lastPt.val lastPt.isLt).2.2.1 : S1x256.Idx → Elt F .f32) :=
  (dat V c).arrAt_eq_of_cover 5 _ (flushedSq_eq V c) fun i =>
    ⟨lastPt, (flush0_5 lastPt).mpr rfl, by
      show i ∈ ((View.whole main_v18_2).slice (win0_5.rect lastPt)).set
      rw [View.set_slice_whole, Rect.mem_set_unit]
      intro a
      have h0 : (i 0 : Nat) < 1 := (i 0).isLt
      have h1 : (i 1 : Nat) < 256 := (i 1).isLt
      match a with
      | ⟨0, _⟩ =>
        show win0_5.index lastPt 0 * win0_5.size 0 ≤ (i 0 : Nat) ∧ (i 0 : Nat) < win0_5.index lastPt 0 * win0_5.size 0 + win0_5.xsize (grid0.coords lastPt) 0
        rw [(idx5 lastPt).1, (xsizeSq lastPt).1]; omega
      | ⟨1, _⟩ =>
        show win0_5.index lastPt 1 * win0_5.size 1 ≤ (i 1 : Nat) ∧ (i 1 : Nat) < win0_5.index lastPt 1 * win0_5.size 1 + win0_5.xsize (grid0.coords lastPt) 1
        rw [(idx5 lastPt).2, (xsizeSq lastPt).2]; omega⟩

end Cert.KernelIdeal.R0

end
-- ==== Proof.Spec.lean ====
/-
  The mathematics both programs compute, as functions of the argument arrays over the extended reals.

  A row of the 16384 × 1 × 64 × 64 input is flattened to 4096 numbers. Three linear layers follow; the first two
  multiply by the SIGNS of their weights and add the signs of their biases, and each is followed by batch
  normalization over the 16384 rows (mean and variance per column, a scale and a shift per column) and a clip to
  [-1, 1]. The only thing on which two ways of writing this network may differ is the VARIANCE of a column:
  the mean of the squares minus the square of the mean, or the mean of the squared deviations from the mean. The network
  is therefore stated once, over a variance functional, and instantiated at both.
-/
import Idealize.ShloMosaic.PureOps.Ideal
import Idealize.ShloMosaic.PureOps.Ideal.Laws
import Idealize.ShloMosaic.Lib.ValueIdx

noncomputable section

namespace Cert.Net

open Idealize.ShloMosaic Idealize.ShloMosaic.ValueIdx

/-- The float words the two programs share, as the extended reals they denote: the stabilizer added to a variance, the
    batch size 16384, and the clip's two bounds -1 and 1. -/
abbrev eps : EReal := Ideal.ofBits .f32 0x3727C5AC#32
abbrev batch : EReal := Ideal.ofBits .f32 0x46800000#32
abbrev lo : EReal := Ideal.ofBits .f32 0xBF800000#32
abbrev hi : EReal := Ideal.ofBits .f32 0x3F800000#32

/-- A linear layer: entry (r, j) is the sum over k of a(r, k) · w(k, j), plus the bias of column j. -/
def lin {K : ℕ} {R J : Type} (a : R → Fin K → EReal) (w : Fin K → J → EReal) (b : J → EReal) (r : R) (j : J) : EReal :=
  (∑ k : Fin K, a r k * w k j) + b j

/-- The batch mean of column j: the column's sum over the 16384 rows, divided by the batch size. -/
def mean {J : Type} (h : Fin 16384 → J → EReal) (j : J) : EReal :=
  Ideal.div (∑ r : Fin 16384, h r j) batch

/-- The variance of column j as the mean of the squares minus the square of the mean. -/
def varOfSquares {J : Type} (h : Fin 16384 → J → EReal) (j : J) : EReal :=
  Ideal.div (∑ r : Fin 16384, h r j * h r j) batch - mean h j * mean h j

/-- The variance of column j as the mean of the squared deviations from the mean. -/
def varOfDeviations {J : Type} (h : Fin 16384 → J → EReal) (j : J) : EReal :=
  Ideal.div (∑ r : Fin 16384, (h r j - mean h j) * (h r j - mean h j)) batch

/-- Batch normalization of entry (r, j) with the column variances `v`, scale `g` and shift `be`, then the clip to [-1, 1]. -/
def act {J : Type} (h : Fin 16384 → J → EReal) (v g be : J → EReal) (r : Fin 16384) (j : J) : EReal :=
  min hi (max lo ((h r j - mean h j) * Ideal.rsqrt (v j + eps) * g j + be j))

section Network

variable (var : ∀ {J : Type}, (Fin 16384 → J → EReal) → J → EReal)
variable (x : (⟨4, ![16384, 1, 64, 64]⟩ : Shape).Idx → EReal)
  (W1 : (⟨2, ![256, 4096]⟩ : Shape).Idx → EReal) (b1 g1 be1 : (⟨1, ![256]⟩ : Shape).Idx → EReal)
  (W2 : (⟨2, ![128, 256]⟩ : Shape).Idx → EReal) (b2 g2 be2 : (⟨1, ![128]⟩ : Shape).Idx → EReal)
  (W4 : (⟨2, ![12, 128]⟩ : Shape).Idx → EReal) (b4 : (⟨1, ![12]⟩ : Shape).Idx → EReal)

/-- Row r of the input, flattened: entry k is the image's pixel (k / 64, k mod 64). -/
def rowsOf (r : Fin 16384) (k : Fin 4096) : EReal :=
  x (ix4 r (0 : Fin 1) (⟨k.val / 64, by omega⟩ : Fin 64) (⟨k.val % 64, by omega⟩ : Fin 64))

/-- First layer before normalization: x · sign(W1)ᵀ + sign(b1). -/
def pre1 : Fin 16384 → Fin 256 → EReal :=
  lin (rowsOf x) (fun k j => Ideal.sign (W1 (ix2 j k))) (fun j => Ideal.sign (b1 (ix1 j)))

/-- First layer after normalization and clip. -/
def act1 : Fin 16384 → Fin 256 → EReal :=
  act (pre1 x W1 b1) (var (pre1 x W1 b1)) (fun j => g1 (ix1 j)) (fun j => be1 (ix1 j))

/-- Second layer before normalization: act1 · sign(W2)ᵀ + sign(b2). -/
def pre2 : Fin 16384 → Fin 128 → EReal :=
  lin (act1 (@var) x W1 b1 g1 be1) (fun k j => Ideal.sign (W2 (ix2 j k))) (fun j => Ideal.sign (b2 (ix1 j)))

/-- Second layer after normalization and clip. -/
def act2 : Fin 16384 → Fin 128 → EReal :=
  act (pre2 (@var) x W1 b1 g1 be1 W2 b2) (var (pre2 (@var) x W1 b1 g1 be1 W2 b2)) (fun j => g2 (ix1 j)) (fun j => be2 (ix1 j))

/-- The result: act2 · W4ᵀ + b4, as an array indexed by (row, class). -/
def out (i : (⟨2, ![16384, 12]⟩ : Shape).Idx) : EReal :=
  lin (act2 (@var) x W1 b1 g1 be1 W2 b2 g2 be2) (fun k j => W4 (ix2 j k)) (fun j => b4 (ix1 j)) (i 0 : Fin 16384) (i 1 : Fin 12)

end Network

/-- The network with the variance taken as mean of squares minus squared mean. -/
abbrev netBySquares := @out (@varOfSquares)
/-- The network with the variance taken as mean of squared deviations. -/
abbrev netByDeviations := @out (@varOfDeviations)

end Cert.Net

end
-- ==== Proof.KI.Pay.lean ====
/-
  The kernel's payloads read at an index, at the ideal values.

  Each payload of the three kernel bodies is a chain of vector operations. Over the extended reals every
  operation is exact and a format change is the identity, so a payload read at one index is a closed
  expression in the elements of the vectors it is given: a matrix product is the sum over the contracted
  coordinate, a reduction over the rows is the sum over the row coordinate, a row broadcast reads its one
  row, and a cast to the same shape is the identity.
-/
import proofs.«145499_j5368709120128_1_alg».proof.Proof.Gen.KernelIdeal.Skeleton
import proofs.«145499_j5368709120128_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Net
open scoped BigOperators

/-! ## Small readings shared by the payloads -/

/-- A reciprocal square root at an index is the extended reals' one of the element. -/
theorem rsqrt_apply {s : Shape} {φ : FTy} (a : FVec Ideal s φ) (i : s.Idx) : rsqrt a i = Ideal.rsqrt (a i) := rfl

/-- A sum over the rows of an n0 × n1 array, read at column q, is the sum over the row coordinate. -/
theorem reduce_rows {n0 n1 : ℕ} (src : FVec Ideal ⟨2, ![n0, n1]⟩ .f32) (acc : BitVec 32)
    (h : (⟨2, ![n0, n1]⟩ : Shape).Reduces [0] ⟨1, ![n1]⟩) (hφ : FKind.Formats .f32)
    (hacc : acc = FKind.add.neutral .f32 hφ) (q : Fin n1) :
    multiReduction .add [0] ⟨1, ![n1]⟩ src acc h hφ hacc (ix1 q) = ∑ p : Fin n0, src (ix2 p q) := by
  refine (Ideal.multiReduction_add_single src acc h hφ hacc (ix1 q)).trans ?_
  refine Finset.sum_congr rfl fun p _ => congrArg src ?_
  funext a
  refine Fin.ext ?_
  match a with
  | ⟨0, _⟩ => rfl
  | ⟨1, _⟩ => rfl

/-- A product of an m × n by an n × r matrix into the zero array, read at (p, q), is the sum over the one
    contracted coordinate k of the left operand at (p, k) times the right operand at (k, q). The four
    hypotheses say which coordinate of each operand's index the output's row, the output's column and the
    contracted coordinate land on. -/
theorem matmul0_ix2 {m n r : ℕ} {φ₁ φ₂ : FTy} (D : DotDims ⟨2, ![m, n]⟩ ⟨2, ![n, r]⟩ ⟨2, ![m, r]⟩)
    (hr : D.contr.rank = 1) (hs : D.contr.size ⟨0, by omega⟩ = n)
    (hl0 : ∀ (i : (⟨2, ![m, r]⟩ : Shape).Idx) (c : D.contr.Idx), (D.lhsIdx i c 0).val = (i 0).val)
    (hl1 : ∀ (i : (⟨2, ![m, r]⟩ : Shape).Idx) (c : D.contr.Idx), (D.lhsIdx i c 1).val = (c ⟨0, by omega⟩).val)
    (hr0 : ∀ (i : (⟨2, ![m, r]⟩ : Shape).Idx) (c : D.contr.Idx), (D.rhsIdx i c 0).val = (c ⟨0, by omega⟩).val)
    (hr1 : ∀ (i : (⟨2, ![m, r]⟩ : Shape).Idx) (c : D.contr.Idx), (D.rhsIdx i c 1).val = (i 1).val)
    (a : FVec Ideal ⟨2, ![m, n]⟩ φ₁) (b : FVec Ideal ⟨2, ![n, r]⟩ φ₂) (p : Fin m) (q : Fin r) :
    matmul D none a b (constant (F := Ideal) ⟨2, ![m, r]⟩ .f32 0x00000000#32) (ix2 p q)
      = ∑ k : Fin n, a (ix2 p k) * b (ix2 k q) := by
  refine (Ideal.matmul_constant_zero_apply D none a b (ix2 p q)).trans ?_
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k :=
    funext fun c => Fin.ext (by
      match c with
      | ⟨0, _⟩ => exact hl0 _ _
      | ⟨1, _⟩ => exact (hl1 _ _).trans hk)
  have er : D.rhsIdx (ix2 p q) ((contrEquiv1 D n hr hs).symm k) = ix2 k q :=
    funext fun c => Fin.ext (by
      match c with
      | ⟨0, _⟩ => exact (hr0 _ _).trans hk
      | ⟨1, _⟩ => exact hr1 _ _)
  rw [el, er]

/-! ## The first call -/

/-- The first accumulator's initial value is zero everywhere. -/
theorem k0_pay1_apply (q : Fin 256) : k0_pay1 (F := Ideal) (ix2 0 q) = 0 := by
  unfold k0_pay1
  simp only [shapeCast_self, broadcast_apply]
  exact Ideal.ofBits_zero_f32

/-- The second accumulator's initial value is zero everywhere. -/
theorem k0_pay2_apply (q : Fin 256) : k0_pay2 (F := Ideal) (ix2 0 q) = 0 := by
  unfold k0_pay2
  simp only [shapeCast_self, broadcast_apply]
  exact Ideal.ofBits_zero_f32

/-- In the first call's product the left operand's index keeps the output's row. -/
theorem lhs_k0_0 (i : S512x256.Idx) (c : dot_S512x4096_S4096x256_S512x256_1_0_0_1_n_n.contr.Idx) :
    (dot_S512x4096_S4096x256_S512x256_1_0_0_1_n_n.lhsIdx i c 0).val = (i 0).val := by
  unfold DotDims.lhsIdx
  rw [dif_neg (show ¬(0 : Fin S512x4096.rank) ∈ dot_S512x4096_S4096x256_S512x256_1_0_0_1_n_n.lhsBatch by decide),
    dif_pos (show (0 : Fin S512x4096.rank) ∈ dot_S512x4096_S4096x256_S512x256_1_0_0_1_n_n.lhsNonContracting by decide)]
  rfl

/-- In the first call's product the right operand's index keeps the output's column. -/
theorem rhs_k0_1 (i : S512x256.Idx) (c : dot_S512x4096_S4096x256_S512x256_1_0_0_1_n_n.contr.Idx) :
    (dot_S512x4096_S4096x256_S512x256_1_0_0_1_n_n.rhsIdx i c 1).val = (i 1).val := by
  unfold DotDims.rhsIdx
  rw [dif_neg (show ¬(1 : Fin S4096x256.rank) ∈ dot_S512x4096_S4096x256_S512x256_1_0_0_1_n_n.rhsBatch by decide),
    dif_pos (show (1 : Fin S4096x256.rank) ∈ dot_S512x4096_S4096x256_S512x256_1_0_0_1_n_n.rhsNonContracting by decide)]
  rfl

/-- The first call's product into the zero array, at (p, q): the sum over the 4096 contracted coordinates. -/
theorem matmul0_k0 (a : FVec Ideal S512x4096 .bf16) (b : FVec Ideal S4096x256 .bf16) (p : Fin 512) (q : Fin 256) :
    matmul dot_S512x4096_S4096x256_S512x256_1_0_0_1_n_n none a b (constant (F := Ideal) S512x256 .f32 0x00000000#32) (ix2 p q)
      = ∑ k : Fin 4096, a (ix2 p k) * b (ix2 k q) :=
  matmul0_ix2 dot_S512x4096_S4096x256_S512x256_1_0_0_1_n_n rfl rfl lhs_k0_0
    (fun i c => dot_S512x4096_S4096x256_S512x256_1_0_0_1_n_n.lhsIdx_val_of_single rfl i c)
    (fun i c => dot_S512x4096_S4096x256_S512x256_1_0_0_1_n_n.rhsIdx_val_of_single rfl i c) rhs_k0_1 a b p q

/-- The first layer's block at (p, q): the row of the input times the column of the weights, plus the bias. -/
theorem k0_pay3_apply (x : Vec Ideal S512x4096 .f32) (w : Vec Ideal S4096x256 .bf16) (b : Vec Ideal S1x256 .f32)
    (p : Fin 512) (q : Fin 256) :
    k0_pay3 x w b (ix2 p q) = (∑ k : Fin 4096, x (ix2 p k) * w (ix2 k q)) + b (ix2 0 q) := by
  unfold k0_pay3
  simp only [shapeCast_self, addf_apply]
  rw [matmul0_k0, broadcastTo_1b_ab_apply]
  rfl

/-- The column sums accumulated over the block's rows. -/
theorem k0_pay4_apply (x : Vec Ideal S512x4096 .f32) (w : Vec Ideal S4096x256 .bf16) (b : Vec Ideal S1x256 .f32)
    (acc : Vec Ideal S1x256 .f32) (q : Fin 256) :
    k0_pay4 x w b acc (ix2 0 q) = acc (ix2 0 q) + ∑ p : Fin 512, k0_pay3 x w b (ix2 p q) := by
  unfold k0_pay4
  simp only [shapeCast_self, addf_apply]
  refine congrArg (acc (ix2 0 q) + ·) ?_
  refine (shapeCast_a_1a_apply _ shapeCasts_S256_S1x256 0 q).trans ?_
  exact reduce_rows (k0_pay3 x w b) _ reduces_S512x256_S256 _ _ q

/-- The column sums of squares accumulated over the block's rows. -/
theorem k0_pay5_apply (x : Vec Ideal S512x4096 .f32) (w : Vec Ideal S4096x256 .bf16) (b : Vec Ideal S1x256 .f32)
    (acc : Vec Ideal S1x256 .f32) (q : Fin 256) :
    k0_pay5 x w b acc (ix2 0 q)
      = acc (ix2 0 q) + ∑ p : Fin 512, k0_pay3 x w b (ix2 p q) * k0_pay3 x w b (ix2 p q) := by
  unfold k0_pay5
  simp only [shapeCast_self, addf_apply]
  refine congrArg (acc (ix2 0 q) + ·) ?_
  refine (shapeCast_a_1a_apply _ shapeCasts_S256_S1x256 0 q).trans ?_
  exact reduce_rows (mulf (k0_pay3 x w b) (k0_pay3 x w b)) _ reduces_S512x256_S256 _ _ q

/-! ## The second call -/

/-- The column sums of the second layer's block accumulated over its rows. -/
theorem k1_pay1_apply (h : FVec Ideal S2048x128 .f32) (acc : Vec Ideal S1x128 .f32) (q : Fin 128) :
    k1_pay1 h acc (ix2 0 q) = acc (ix2 0 q) + ∑ p : Fin 2048, h (ix2 p q) := by
  unfold k1_pay1
  simp only [shapeCast_self, addf_apply]
  refine congrArg (acc (ix2 0 q) + ·) ?_
  refine (shapeCast_a_1a_apply _ shapeCasts_S128_S1x128 0 q).trans ?_
  exact reduce_rows h _ reduces_S2048x128_S128 _ _ q

/-- The column sums of squares of the second layer's block accumulated over its rows. -/
theorem k1_pay2_apply (h : FVec Ideal S2048x128 .f32) (acc : Vec Ideal S1x128 .f32) (q : Fin 128) :
    k1_pay2 h acc (ix2 0 q) = acc (ix2 0 q) + ∑ p : Fin 2048, h (ix2 p q) * h (ix2 p q) := by
  unfold k1_pay2
  simp only [shapeCast_self, addf_apply]
  refine congrArg (acc (ix2 0 q) + ·) ?_
  refine (shapeCast_a_1a_apply _ shapeCasts_S128_S1x128 0 q).trans ?_
  exact reduce_rows (mulf h h) _ reduces_S2048x128_S128 _ _ q

/-- The second call's first accumulator starts at zero everywhere. -/
theorem k1_pay3_apply (q : Fin 128) : k1_pay3 (F := Ideal) (ix2 0 q) = 0 := by
  unfold k1_pay3
  simp only [shapeCast_self, broadcast_apply]
  exact Ideal.ofBits_zero_f32

/-- The second call's second accumulator starts at zero everywhere. -/
theorem k1_pay4_apply (q : Fin 128) : k1_pay4 (F := Ideal) (ix2 0 q) = 0 := by
  unfold k1_pay4
  simp only [shapeCast_self, broadcast_apply]
  exact Ideal.ofBits_zero_f32

/-- In the second call's product the left operand's index keeps the output's row. -/
theorem lhs_k1_0 (i : S2048x128.Idx) (c : dot_S2048x256_S256x128_S2048x128_1_0_0_1_n_n.contr.Idx) :
    (dot_S2048x256_S256x128_S2048x128_1_0_0_1_n_n.lhsIdx i c 0).val = (i 0).val := by
  unfold DotDims.lhsIdx
  rw [dif_neg (show ¬(0 : Fin S2048x256.rank) ∈ dot_S2048x256_S256x128_S2048x128_1_0_0_1_n_n.lhsBatch by decide),
    dif_pos (show (0 : Fin S2048x256.rank) ∈ dot_S2048x256_S256x128_S2048x128_1_0_0_1_n_n.lhsNonContracting by decide)]
  rfl

/-- In the second call's product the right operand's index keeps the output's column. -/
theorem rhs_k1_1 (i : S2048x128.Idx) (c : dot_S2048x256_S256x128_S2048x128_1_0_0_1_n_n.contr.Idx) :
    (dot_S2048x256_S256x128_S2048x128_1_0_0_1_n_n.rhsIdx i c 1).val = (i 1).val := by
  unfold DotDims.rhsIdx
  rw [dif_neg (show ¬(1 : Fin S256x128.rank) ∈ dot_S2048x256_S256x128_S2048x128_1_0_0_1_n_n.rhsBatch by decide),
    dif_pos (show (1 : Fin S256x128.rank) ∈ dot_S2048x256_S256x128_S2048x128_1_0_0_1_n_n.rhsNonContracting by decide)]
  rfl

/-- The second call's product into the zero array, at (p, q): the sum over the 256 contracted coordinates. -/
theorem matmul0_k1 (a : FVec Ideal S2048x256 .bf16) (b : FVec Ideal S256x128 .bf16) (p : Fin 2048) (q : Fin 128) :
    matmul dot_S2048x256_S256x128_S2048x128_1_0_0_1_n_n none a b (constant (F := Ideal) S2048x128 .f32 0x00000000#32) (ix2 p q)
      = ∑ k : Fin 256, a (ix2 p k) * b (ix2 k q) :=
  matmul0_ix2 dot_S2048x256_S256x128_S2048x128_1_0_0_1_n_n rfl rfl lhs_k1_0
    (fun i c => dot_S2048x256_S256x128_S2048x128_1_0_0_1_n_n.lhsIdx_val_of_single rfl i c)
    (fun i c => dot_S2048x256_S256x128_S2048x128_1_0_0_1_n_n.rhsIdx_val_of_single rfl i c) rhs_k1_1 a b p q

/-- The second layer's block at (p, q): the first layer's block normalized with the given column variances and
    means, scaled, shifted and clipped, times the column of the weights, plus the bias. -/
theorem k1_pay5_apply (x0 : Vec Ideal S2048x256 .f32) (xv xm xg xb : Vec Ideal S1x256 .f32)
    (xw : Vec Ideal S256x128 .bf16) (xc : Vec Ideal S1x128 .f32) (p : Fin 2048) (q : Fin 128) :
    k1_pay5 x0 xv xm xg xb xw xc (ix2 p q)
      = (∑ k : Fin 256, min hi (max lo ((x0 (ix2 p k) - xm (ix2 0 k)) * Ideal.rsqrt (xv (ix2 0 k) + eps)
          * xg (ix2 0 k) + xb (ix2 0 k))) * xw (ix2 k q)) + xc (ix2 0 q) := by
  unfold k1_pay5
  simp only [shapeCast_self, addf_apply]
  rw [matmul0_k1, broadcastTo_1b_ab_apply]
  refine congrArg (· + xc (ix2 0 q)) ?_
  refine Finset.sum_congr rfl fun k _ => ?_
  refine congrArg (· * xw (ix2 k q)) ?_
  simp only [truncf_apply, minimumf_apply, maximumf_apply, addf_apply, mulf_apply, subf_apply, broadcast_apply,
    rsqrt_apply, broadcastTo_1b_ab_apply]
  rfl

/-! ## The third call -/

/-- In the third call's product the left operand's index keeps the output's row. -/
theorem lhs_k2_0 (i : S2048x12.Idx) (c : dot_S2048x128_S128x12_S2048x12_1_0_0_1_n_n.contr.Idx) :
    (dot_S2048x128_S128x12_S2048x12_1_0_0_1_n_n.lhsIdx i c 0).val = (i 0).val := by
  unfold DotDims.lhsIdx
  rw [dif_neg (show ¬(0 : Fin S2048x128.rank) ∈ dot_S2048x128_S128x12_S2048x12_1_0_0_1_n_n.lhsBatch by decide),
    dif_pos (show (0 : Fin S2048x128.rank) ∈ dot_S2048x128_S128x12_S2048x12_1_0_0_1_n_n.lhsNonContracting by decide)]
  rfl

/-- In the third call's product the right operand's index keeps the output's column. -/
theorem rhs_k2_1 (i : S2048x12.Idx) (c : dot_S2048x128_S128x12_S2048x12_1_0_0_1_n_n.contr.Idx) :
    (dot_S2048x128_S128x12_S2048x12_1_0_0_1_n_n.rhsIdx i c 1).val = (i 1).val := by
  unfold DotDims.rhsIdx
  rw [dif_neg (show ¬(1 : Fin S128x12.rank) ∈ dot_S2048x128_S128x12_S2048x12_1_0_0_1_n_n.rhsBatch by decide),
    dif_pos (show (1 : Fin S128x12.rank) ∈ dot_S2048x128_S128x12_S2048x12_1_0_0_1_n_n.rhsNonContracting by decide)]
  rfl

/-- The third call's product into the zero array, at (p, q): the sum over the 128 contracted coordinates. -/
theorem matmul0_k2 (a : FVec Ideal S2048x128 .bf16) (b : FVec Ideal S128x12 .bf16) (p : Fin 2048) (q : Fin 12) :
    matmul dot_S2048x128_S128x12_S2048x12_1_0_0_1_n_n none a b (constant (F := Ideal) S2048x12 .f32 0x00000000#32) (ix2 p q)
      = ∑ k : Fin 128, a (ix2 p k) * b (ix2 k q) :=
  matmul0_ix2 dot_S2048x128_S128x12_S2048x12_1_0_0_1_n_n rfl rfl lhs_k2_0
    (fun i c => dot_S2048x128_S128x12_S2048x12_1_0_0_1_n_n.lhsIdx_val_of_single rfl i c)
    (fun i c => dot_S2048x128_S128x12_S2048x12_1_0_0_1_n_n.rhsIdx_val_of_single rfl i c) rhs_k2_1 a b p q

/-- The result's block at (p, q): the second layer's block normalized with the given column variances and means,
    scaled, shifted and clipped, times the column of the weights, plus the bias. -/
theorem k2_pay1_apply (x0 : Vec Ideal S2048x128 .f32) (xv xm xg xb : Vec Ideal S1x128 .f32)
    (xw : Vec Ideal S128x12 .bf16) (xc : Vec Ideal S1x12 .f32) (p : Fin 2048) (q : Fin 12) :
    k2_pay1 x0 xv xm xg xb xw xc (ix2 p q)
      = (∑ k : Fin 128, min hi (max lo ((x0 (ix2 p k) - xm (ix2 0 k)) * Ideal.rsqrt (xv (ix2 0 k) + eps)
          * xg (ix2 0 k) + xb (ix2 0 k))) * xw (ix2 k q)) + xc (ix2 0 q) := by
  unfold k2_pay1
  simp only [shapeCast_self, addf_apply]
  rw [matmul0_k2, broadcastTo_1b_ab_apply]
  refine congrArg (· + xc (ix2 0 q)) ?_
  refine Finset.sum_congr rfl fun k _ => ?_
  refine congrArg (· * xw (ix2 k q)) ?_
  simp only [truncf_apply, minimumf_apply, maximumf_apply, addf_apply, mulf_apply, subf_apply, broadcast_apply,
    rsqrt_apply, broadcastTo_1b_ab_apply]
  rfl

end Cert.KernelIdeal.Pay

end
-- ==== Proof.LibBlockedSum.lean ====
/-
  A sum over `N * R` consecutive indices taken block by block, and a running sum.

  Index `r` of `Fin (N * R)` is `R * t + p` for exactly one block `t : Fin N` and one position `p : Fin R` inside the
  block. So a sum over all of `Fin (N * R)`, in an additive commutative monoid, is the sum over the blocks of each
  block's sum. The two instances spell this out for 16384 = 32 · 512 and 16384 = 8 · 2048.

  A sequence that starts at the first term and adds the next term at every step is the sequence of partial sums.
-/
import Mathlib.Algebra.BigOperators.Fin
import Mathlib.Logic.Equiv.Fin.Basic

namespace Cert.BlockedSum

/-- Position `p` of block `t` is an index below `N * R`. -/
theorem block_lt {N R : ℕ} (t : Fin N) (p : Fin R) : R * t.val + p.val < N * R :=
  calc R * t.val + p.val < R * t.val + R := Nat.add_lt_add_left p.isLt _
    _ = R * (t.val + 1) := (Nat.mul_succ R t.val).symm
    _ ≤ R * N := Nat.mul_le_mul_left R t.isLt
    _ = N * R := Nat.mul_comm R N

/-- A sum over `Fin (N * R)` is the sum over the `N` blocks of the sums over the `R` positions of a block. -/
theorem sum_by_blocks {M : Type*} [AddCommMonoid M] {N R : ℕ} (H : Fin (N * R) → M) :
    ∑ r : Fin (N * R), H r = ∑ t : Fin N, ∑ p : Fin R, H ⟨R * t.val + p.val, block_lt t p⟩ := by
  rw [← Equiv.sum_comp finProdFinEquiv H, Fintype.sum_prod_type]
  refine Finset.sum_congr rfl fun t _ => Finset.sum_congr rfl fun p _ => congrArg H (Fin.ext ?_)
  show p.val + R * t.val = R * t.val + p.val
  exact Nat.add_comm _ _

/-- 16384 indices as 32 blocks of 512. -/
theorem sum_32x512 {M : Type*} [AddCommMonoid M] (H : Fin 16384 → M) :
    ∑ r : Fin 16384, H r = ∑ t : Fin 32, ∑ p : Fin 512, H ⟨512 * t.val + p.val, by omega⟩ :=
  sum_by_blocks (N := 32) (R := 512) H

/-- 16384 indices as 8 blocks of 2048. -/
theorem sum_8x2048 {M : Type*} [AddCommMonoid M] (H : Fin 16384 → M) :
    ∑ r : Fin 16384, H r = ∑ t : Fin 8, ∑ p : Fin 2048, H ⟨2048 * t.val + p.val, by omega⟩ :=
  sum_by_blocks (N := 8) (R := 2048) H

/-- A sequence with `acc 0 = b 0` and `acc (n + 1) = acc n + b (n + 1)` is the sequence of partial sums of `b`. -/
theorem running_sum {M : Type*} [AddCommMonoid M] (acc b : ℕ → M) (h0 : acc 0 = b 0)
    (hs : ∀ n, acc (n + 1) = acc n + b (n + 1)) (n : ℕ) : acc n = ∑ s ∈ Finset.range (n + 1), b s := by
  induction n with
  | zero => rw [h0, Finset.sum_range_one]
  | succ n ih =>
    rw [hs, ih]
    exact (Finset.sum_range_succ b (n + 1)).symm

end Cert.BlockedSum
-- ==== Proof.KI.A0.lean ====
/-
  Call 0 at the ideal values, entry by entry. Write H(r, q) for the first layer's pre-activation of row r and column q: the sum over k of input(r, k) · weight(k, q), plus the bias of column q, the three arrays being the ones the region is entered with.
  The big result array ends holding H. The accumulator of column sums holds, after point n, the sum of H(r, q) over the
  rows of the blocks 0 … n: it starts at zero plus the first block's column sums, and every later point adds its block's.
  After the last point that is the sum over all 16384 rows — and likewise for the squares.
-/
import proofs.«145499_j5368709120128_1_alg».proof.Proof.KI.V0
import proofs.«145499_j5368709120128_1_alg».proof.Proof.KI.Pay
import proofs.«145499_j5368709120128_1_alg».proof.Proof.LibBlockedSum

set_option maxRecDepth 16384

noncomputable section

namespace Cert.KernelIdeal.R0

open Cert.KernelIdeal Cert.KernelIdeal.Gen Cert.KernelIdeal.Pay Cert.Net
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! The arrays the region is entered with, at their shapes. -/
def inX : S16384x4096.Idx → EReal := V c main_v0
def inW : S4096x256.Idx → EReal := V c main_v3
def inB : S1x256.Idx → EReal := V c main_v5

/-- The pre-activation of row r, column q. -/
def H (r : Fin 16384) (q : Fin 256) : EReal :=
  (∑ k : Fin 4096, inX V c (ix2 r k) * inW V c (ix2 k q)) + inB V c (ix2 0 q)

/-- Local row p of point t's block of pre-activations is global row 512·t + p. -/
theorem pay_at (t : Fin cfg0.N) (p : Fin 512) (q : Fin 256) (r : Fin 16384) (hr : r.val = 512 * t.val + p.val) :
    k0_pay3 (blk V c 0 t) (blk V c 1 t) (blk V c 2 t) (ix2 p q) = H V c r q := by
  rw [blk1_eq, blk2_eq]
  refine (k0_pay3_apply _ _ _ p q).trans ?_
  unfold H
  refine congrArg₂ (· + ·) (Finset.sum_congr rfl fun k _ => ?_) rfl
  have hb : (blk V c 0 t : Vec Ideal S512x4096 .f32) (ix2 p k) = inX V c (ix2 r k) :=
    blk0_apply V c t (ix2 p k) (ix2 r k) hr rfl
  rw [hb]
  rfl

theorem rowBound (t : Fin cfg0.N) (p : Fin 512) : 512 * t.val + p.val < 16384 := by
  have : t.val < 32 := lt_of_lt_of_eq t.isLt (show cfg0.N = 32 from N_0); have := p.isLt; omega

/-- The big result array, entry by entry. -/
theorem preact_apply (r : Fin 16384) (q : Fin 256) : preact V c (ix2 r q) = H V c r q := by
  unfold preact
  rw [← blk1_eq V c (pointOf (ix2 r q)), ← blk2_eq V c (pointOf (ix2 r q))]
  refine pay_at V c (pointOf (ix2 r q)) _ _ r ?_
  show r.val = 512 * (r.val / 512) + r.val % 512
  omega

/-- The column sums of point s's block of pre-activations (zero past the grid), and of their squares. -/
def blockSum (s : ℕ) (q : Fin 256) : EReal :=
  if h : s < cfg0.N then ∑ p : Fin 512, H V c ⟨512 * s + p.val, rowBound ⟨s, h⟩ p⟩ q else 0
def blockSq (s : ℕ) (q : Fin 256) : EReal :=
  if h : s < cfg0.N then ∑ p : Fin 512, H V c ⟨512 * s + p.val, rowBound ⟨s, h⟩ p⟩ q * H V c ⟨512 * s + p.val, rowBound ⟨s, h⟩ p⟩ q else 0

/-- After point n the first accumulator holds the column sums over the blocks 0 … n, -/
theorem accSum_eq : ∀ (n : ℕ) (hn : n < cfg0.N) (q : Fin 256),
    (stAt V c n hn).2.2.2.1 (ix2 0 q) = ∑ s ∈ Finset.range (n + 1), blockSum V c s q
  | 0, hn, q => by
    rw [stAt_first V c ⟨0, hn⟩ (Nat.zero_mod _), accSum_first]
    refine (k0_pay4_apply _ _ _ _ q).trans ?_
    rw [k0_pay1_apply, zero_add, Finset.sum_range_one, blockSum, dif_pos hn]
    exact Finset.sum_congr rfl fun p _ => pay_at V c ⟨0, hn⟩ p q ⟨512 * 0 + p.val, rowBound ⟨0, hn⟩ p⟩ rfl
  | n + 1, hn, q => by
    have hN : cfg0.N = 32 := N_0
    have h0 : ¬ (n + 1) % 32 = 0 := by omega
    rw [stAt_next V c ⟨n + 1, hn⟩ h0, accSum_next]
    refine (k0_pay4_apply _ _ _ _ q).trans ?_
    rw [Finset.sum_range_succ, ← accSum_eq n (Nat.lt_of_succ_lt hn) q, blockSum, dif_pos hn]
    refine congrArg₂ (· + ·) rfl ?_
    exact Finset.sum_congr rfl fun p _ => pay_at V c ⟨n + 1, hn⟩ p q ⟨512 * (n + 1) + p.val, rowBound ⟨n + 1, hn⟩ p⟩ rfl

/-- and the second the column sums of squares. -/
theorem accSq_eq : ∀ (n : ℕ) (hn : n < cfg0.N) (q : Fin 256),
    (stAt V c n hn).2.2.2.2 (ix2 0 q) = ∑ s ∈ Finset.range (n + 1), blockSq V c s q
  | 0, hn, q => by
    rw [stAt_first V c ⟨0, hn⟩ (Nat.zero_mod _), accSq_first]
    refine (k0_pay5_apply _ _ _ _ q).trans ?_
    rw [k0_pay2_apply, zero_add, Finset.sum_range_one, blockSq, dif_pos hn]
    exact Finset.sum_congr rfl fun p _ => by rw [pay_at V c ⟨0, hn⟩ p q ⟨512 * 0 + p.val, rowBound ⟨0, hn⟩ p⟩ rfl]
  | n + 1, hn, q => by
    have hN : cfg0.N = 32 := N_0
    have h0 : ¬ (n + 1) % 32 = 0 := by omega
    rw [stAt_next V c ⟨n + 1, hn⟩ h0, accSq_next]
    refine (k0_pay5_apply _ _ _ _ q).trans ?_
    rw [Finset.sum_range_succ, ← accSq_eq n (Nat.lt_of_succ_lt hn) q, blockSq, dif_pos hn]
    refine congrArg₂ (· + ·) rfl ?_
    exact Finset.sum_congr rfl fun p _ => by rw [pay_at V c ⟨n + 1, hn⟩ p q ⟨512 * (n + 1) + p.val, rowBound ⟨n + 1, hn⟩ p⟩ rfl]

/-- The copies in the result rows hold what the accumulators hold. -/
theorem outSum_eq_acc (t : Fin cfg0.N) : (stAt V c t.val t.isLt).2.1 = (stAt V c t.val t.isLt).2.2.2.1 := by
  by_cases h0 : t.val % 32 = 0
  · rw [stAt_first V c t h0, outSum_first, accSum_first]
  · rw [stAt_next V c t h0, outSum_next, accSum_next]
theorem outSq_eq_acc (t : Fin cfg0.N) : (stAt V c t.val t.isLt).2.2.1 = (stAt V c t.val t.isLt).2.2.2.2 := by
  by_cases h0 : t.val % 32 = 0
  · rw [stAt_first V c t h0, outSq_first, accSq_first]
  · rw [stAt_next V c t h0, outSq_next, accSq_next]

/-- A sum over the grid's blocks of sums over a block's rows is the sum over all 16384 rows. -/
theorem sum_blocks (f : ℕ → EReal) (g : Fin 16384 → EReal)
    (hf : ∀ s (h : s < cfg0.N), f s = ∑ p : Fin 512, g ⟨512 * s + p.val, rowBound ⟨s, h⟩ p⟩) :
    ∑ s ∈ Finset.range 32, f s = ∑ r : Fin 16384, g r := by
  have hN : cfg0.N = 32 := N_0
  rw [Cert.BlockedSum.sum_32x512 g, Finset.sum_range]
  exact Finset.sum_congr rfl fun t _ => hf t.val (by rw [hN]; exact t.isLt)

/-- THE THREE RESULT ARRAYS of call 0, entry by entry. -/
theorem final_pre (r : Fin 16384) (q : Fin 256) :
    ((dat V c).arrAt 3 cfg0.N : S16384x256.Idx → EReal) (ix2 r q) = H V c r q := by
  rw [finalBig]; exact preact_apply V c r q

theorem final_sum (q : Fin 256) :
    ((dat V c).arrAt 4 cfg0.N : S1x256.Idx → EReal) (ix2 0 q) = ∑ r : Fin 16384, H V c r q := by
  rw [finalSum, outSum_eq_acc V c lastPt, accSum_eq V c lastPt.val lastPt.isLt q]
  exact sum_blocks (fun s => blockSum V c s q) (fun r => H V c r q) fun s h => by rw [blockSum, dif_pos h]

theorem final_sq (q : Fin 256) :
    ((dat V c).arrAt 5 cfg0.N : S1x256.Idx → EReal) (ix2 0 q) = ∑ r : Fin 16384, H V c r q * H V c r q := by
  rw [finalSq, outSq_eq_acc V c lastPt, accSq_eq V c lastPt.val lastPt.isLt q]
  exact sum_blocks (fun s => blockSq V c s q) (fun r => H V c r q * H V c r q) fun s h => by rw [blockSq, dif_pos h]

end Cert.KernelIdeal.R0

end
-- ==== Proof.KI.V1.lean ====
/-
  What call 1 leaves in its three result arrays, as functions of the arrays the region was entered with. The block of
  rows written at point `t` is the body's arithmetic on that point's blocks, and the 8 points' row ranges tile the
  16384 rows. The two accumulators start from zero at point 0 and at every later point continue from what the point
  before left; their copies in the two result rows are written back once, after the last point.
-/
import proofs.«145499_j5368709120128_1_alg».proof.Proof.KI.R1
import proofs.«145499_j5368709120128_1_alg».proof.Proof.LibReadBack
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-! ## What each buffer holds after a point, as the body's arithmetic on the point's blocks -/

theorem big_first (c : Dev nD) (t : Fin cfg1.N) (h : atFirst (grid1.coords t)) :
    (stFirst V c t h).1 = k1_pay5 (blk V c 0 t) (blk V c 2 t) (blk V c 1 t) (blk V c 3 t) (blk V c 4 t) (blk V c 5 t) (blk V c 6 t) := by
  unfold stFirst
  dsimp only
  rw [View.read_writes_eq_canon _ _ _ (tilesF0 V c t h)]
  unfold runFirst
  dsimp only
  try sl_unfold_words
  simp only [View.canon_cons_unit_zero (S := S1x128) zeros2, View.canon_unit_zero (S := S1x128) zeros2, View.canon_unit_zero (S := S2048x128) zeros2, View.readCov_unit_zero (S := S1x128) _ zeros2, Cert.ReadBack.readCov_whole_last (S := S1x128) _ zeros2, View.readAt_eq_ld, (hs0 t).read_unread, (hs1 t).read_unread, (hs2 t).read_unread, (hs3 t).read_unread, (hs4 t).read_unread, (hs5 t).read_unread, (hs6 t).read_unread, (Memref.isWhole_whole _).read_unread, View.ld_unit_zero (S := S2048x256) zeros2, View.ld_unit_zero (S := S1x256) zeros2, View.ld_unit_zero (S := S256x128) zeros2, View.ld_unit_zero (S := S1x128) zeros2, View.ld_unit_zero (S := S2048x128) zeros2]
theorem outSum_first (c : Dev nD) (t : Fin cfg1.N) (h : atFirst (grid1.coords t)) :
    (stFirst V c t h).2.1 = k1_pay1 (k1_pay5 (blk V c 0 t) (blk V c 2 t) (blk V c 1 t) (blk V c 3 t) (blk V c 4 t) (blk V c 5 t) (blk V c 6 t)) k1_pay3 := by
  unfold stFirst
  dsimp only
  rw [View.read_writes_eq_canon _ _ _ (tilesF1 V c t h)]
  unfold runFirst
  dsimp only
  try sl_unfold_words
  simp only [View.canon_cons_unit_zero (S := S1x128) zeros2, View.canon_unit_zero (S := S1x128) zeros2, View.canon_unit_zero (S := S2048x128) zeros2, View.readCov_unit_zero (S := S1x128) _ zeros2, Cert.ReadBack.readCov_whole_last (S := S1x128) _ zeros2, View.readAt_eq_ld, (hs0 t).read_unread, (hs1 t).read_unread, (hs2 t).read_unread, (hs3 t).read_unread, (hs4 t).read_unread, (hs5 t).read_unread, (hs6 t).read_unread, (Memref.isWhole_whole _).read_unread, View.ld_unit_zero (S := S2048x256) zeros2, View.ld_unit_zero (S := S1x256) zeros2, View.ld_unit_zero (S := S256x128) zeros2, View.ld_unit_zero (S := S1x128) zeros2, View.ld_unit_zero (S := S2048x128) zeros2]
theorem outSq_first (c : Dev nD) (t : Fin cfg1.N) (h : atFirst (grid1.coords t)) :
    (stFirst V c t h).2.2.1 = k1_pay2 (k1_pay5 (blk V c 0 t) (blk V c 2 t) (blk V c 1 t) (blk V c 3 t) (blk V c 4 t) (blk V c 5 t) (blk V c 6 t)) k1_pay4 := by
  unfold stFirst
  dsimp only
  rw [View.read_writes_eq_canon _ _ _ (tilesF2 V c t h)]
  unfold runFirst
  dsimp only
  try sl_unfold_words
  simp only [View.canon_cons_unit_zero (S := S1x128) zeros2, View.canon_unit_zero (S := S1x128) zeros2, View.canon_unit_zero (S := S2048x128) zeros2, View.readCov_unit_zero (S := S1x128) _ zeros2, Cert.ReadBack.readCov_whole_last (S := S1x128) _ zeros2, View.readAt_eq_ld, (hs0 t).read_unread, (hs1 t).read_unread, (hs2 t).read_unread, (hs3 t).read_unread, (hs4 t).read_unread, (hs5 t).read_unread, (hs6 t).read_unread, (Memref.isWhole_whole _).read_unread, View.ld_unit_zero (S := S2048x256) zeros2, View.ld_unit_zero (S := S1x256) zeros2, View.ld_unit_zero (S := S256x128) zeros2, View.ld_unit_zero (S := S1x128) zeros2, View.ld_unit_zero (S := S2048x128) zeros2]
theorem accSum_first (c : Dev nD) (t : Fin cfg1.N) (h : atFirst (grid1.coords t)) :
    (stFirst V c t h).2.2.2.1 = k1_pay1 (k1_pay5 (blk V c 0 t) (blk V c 2 t) (blk V c 1 t) (blk V c 3 t) (blk V c 4 t) (blk V c 5 t) (blk V c 6 t)) k1_pay3 := by
  unfold stFirst
  dsimp only
  rw [View.read_writes_eq_canon _ _ _ (tilesF3 V c t h)]
  unfold runFirst
  dsimp only
  try sl_unfold_words
  simp only [View.canon_cons_unit_zero (S := S1x128) zeros2, View.canon_unit_zero (S := S1x128) zeros2, View.canon_unit_zero (S := S2048x128) zeros2, View.readCov_unit_zero (S := S1x128) _ zeros2, Cert.ReadBack.readCov_whole_last (S := S1x128) _ zeros2, View.readAt_eq_ld, (hs0 t).read_unread, (hs1 t).read_unread, (hs2 t).read_unread, (hs3 t).read_unread, (hs4 t).read_unread, (hs5 t).read_unread, (hs6 t).read_unread, (Memref.isWhole_whole _).read_unread, View.ld_unit_zero (S := S2048x256) zeros2, View.ld_unit_zero (S := S1x256) zeros2, View.ld_unit_zero (S := S256x128) zeros2, View.ld_unit_zero (S := S1x128) zeros2, View.ld_unit_zero (S := S2048x128) zeros2]
theorem accSq_first (c : Dev nD) (t : Fin cfg1.N) (h : atFirst (grid1.coords t)) :
    (stFirst V c t h).2.2.2.2 = k1_pay2 (k1_pay5 (blk V c 0 t) (blk V c 2 t) (blk V c 1 t) (blk V c 3 t) (blk V c 4 t) (blk V c 5 t) (blk V c 6 t)) k1_pay4 := by
  unfold stFirst
  dsimp only
  rw [View.read_writes_eq_canon _ _ _ (tilesF4 V c t h)]
  unfold runFirst
  dsimp only
  try sl_unfold_words
  simp only [View.canon_cons_unit_zero (S := S1x128) zeros2, View.canon_unit_zero (S := S1x128) zeros2, View.canon_unit_zero (S := S2048x128) zeros2, View.readCov_unit_zero (S := S1x128) _ zeros2, Cert.ReadBack.readCov_whole_last (S := S1x128) _ zeros2, View.readAt_eq_ld, (hs0 t).read_unread, (hs1 t).read_unread, (hs2 t).read_unread, (hs3 t).read_unread, (hs4 t).read_unread, (hs5 t).read_unread, (hs6 t).read_unread, (Memref.isWhole_whole _).read_unread, View.ld_unit_zero (S := S2048x256) zeros2, View.ld_unit_zero (S := S1x256) zeros2, View.ld_unit_zero (S := S256x128) zeros2, View.ld_unit_zero (S := S1x128) zeros2, View.ld_unit_zero (S := S2048x128) zeros2]
theorem big_next (c : Dev nD) (t : Fin cfg1.N) (h : ¬atFirst (grid1.coords t)) (r0 r1 : Vec F S1x128 .f32) :
    (stNext V c t h r0 r1).1 = k1_pay5 (blk V c 0 t) (blk V c 2 t) (blk V c 1 t) (blk V c 3 t) (blk V c 4 t) (blk V c 5 t) (blk V c 6 t) := by
  unfold stNext
  dsimp only
  rw [View.read_writes_eq_canon _ _ _ (tilesN0 V c t h r0 r1)]
  unfold runNext
  dsimp only
  try sl_unfold_words
  simp only [View.canon_cons_unit_zero (S := S1x128) zeros2, View.canon_unit_zero (S := S1x128) zeros2, View.canon_unit_zero (S := S2048x128) zeros2, View.readCov_unit_zero (S := S1x128) _ zeros2, Cert.ReadBack.readCov_whole_last (S := S1x128) _ zeros2, View.readAt_eq_ld, (hs0 t).read_unread, (hs1 t).read_unread, (hs2 t).read_unread, (hs3 t).read_unread, (hs4 t).read_unread, (hs5 t).read_unread, (hs6 t).read_unread, (Memref.isWhole_whole _).read_unread, View.ld_unit_zero (S := S2048x256) zeros2, View.ld_unit_zero (S := S1x256) zeros2, View.ld_unit_zero (S := S256x128) zeros2, View.ld_unit_zero (S := S1x128) zeros2, View.ld_unit_zero (S := S2048x128) zeros2]
theorem outSum_next (c : Dev nD) (t : Fin cfg1.N) (h : ¬atFirst (grid1.coords t)) (r0 r1 : Vec F S1x128 .f32) :
    (stNext V c t h r0 r1).2.1 = k1_pay1 (k1_pay5 (blk V c 0 t) (blk V c 2 t) (blk V c 1 t) (blk V c 3 t) (blk V c 4 t) (blk V c 5 t) (blk V c 6 t)) r0 := by
  unfold stNext
  dsimp only
  rw [View.read_writes_eq_canon _ _ _ (tilesN1 V c t h r0 r1)]
  unfold runNext
  dsimp only
  try sl_unfold_words
  simp only [View.canon_cons_unit_zero (S := S1x128) zeros2, View.canon_unit_zero (S := S1x128) zeros2, View.canon_unit_zero (S := S2048x128) zeros2, View.readCov_unit_zero (S := S1x128) _ zeros2, Cert.ReadBack.readCov_whole_last (S := S1x128) _ zeros2, View.readAt_eq_ld, (hs0 t).read_unread, (hs1 t).read_unread, (hs2 t).read_unread, (hs3 t).read_unread, (hs4 t).read_unread, (hs5 t).read_unread, (hs6 t).read_unread, (Memref.isWhole_whole _).read_unread, View.ld_unit_zero (S := S2048x256) zeros2, View.ld_unit_zero (S := S1x256) zeros2, View.ld_unit_zero (S := S256x128) zeros2, View.ld_unit_zero (S := S1x128) zeros2, View.ld_unit_zero (S := S2048x128) zeros2]
theorem outSq_next (c : Dev nD) (t : Fin cfg1.N) (h : ¬atFirst (grid1.coords t)) (r0 r1 : Vec F S1x128 .f32) :
    (stNext V c t h r0 r1).2.2.1 = k1_pay2 (k1_pay5 (blk V c 0 t) (blk V c 2 t) (blk V c 1 t) (blk V c 3 t) (blk V c 4 t) (blk V c 5 t) (blk V c 6 t)) r1 := by
  unfold stNext
  dsimp only
  rw [View.read_writes_eq_canon _ _ _ (tilesN2 V c t h r0 r1)]
  unfold runNext
  dsimp only
  try sl_unfold_words
  simp only [View.canon_cons_unit_zero (S := S1x128) zeros2, View.canon_unit_zero (S := S1x128) zeros2, View.canon_unit_zero (S := S2048x128) zeros2, View.readCov_unit_zero (S := S1x128) _ zeros2, Cert.ReadBack.readCov_whole_last (S := S1x128) _ zeros2, View.readAt_eq_ld, (hs0 t).read_unread, (hs1 t).read_unread, (hs2 t).read_unread, (hs3 t).read_unread, (hs4 t).read_unread, (hs5 t).read_unread, (hs6 t).read_unread, (Memref.isWhole_whole _).read_unread, View.ld_unit_zero (S := S2048x256) zeros2, View.ld_unit_zero (S := S1x256) zeros2, View.ld_unit_zero (S := S256x128) zeros2, View.ld_unit_zero (S := S1x128) zeros2, View.ld_unit_zero (S := S2048x128) zeros2]
theorem accSum_next (c : Dev nD) (t : Fin cfg1.N) (h : ¬atFirst (grid1.coords t)) (r0 r1 : Vec F S1x128 .f32) :
    (stNext V c t h r0 r1).2.2.2.1 = k1_pay1 (k1_pay5 (blk V c 0 t) (blk V c 2 t) (blk V c 1 t) (blk V c 3 t) (blk V c 4 t) (blk V c 5 t) (blk V c 6 t)) r0 := by
  unfold stNext
  dsimp only
  rw [View.read_writes_eq_canon _ _ _ (tilesN3 V c t h r0 r1)]
  unfold runNext
  dsimp only
  try sl_unfold_words
  simp only [View.canon_cons_unit_zero (S := S1x128) zeros2, View.canon_unit_zero (S := S1x128) zeros2, View.canon_unit_zero (S := S2048x128) zeros2, View.readCov_unit_zero (S := S1x128) _ zeros2, Cert.ReadBack.readCov_whole_last (S := S1x128) _ zeros2, View.readAt_eq_ld, (hs0 t).read_unread, (hs1 t).read_unread, (hs2 t).read_unread, (hs3 t).read_unread, (hs4 t).read_unread, (hs5 t).read_unread, (hs6 t).read_unread, (Memref.isWhole_whole _).read_unread, View.ld_unit_zero (S := S2048x256) zeros2, View.ld_unit_zero (S := S1x256) zeros2, View.ld_unit_zero (S := S256x128) zeros2, View.ld_unit_zero (S := S1x128) zeros2, View.ld_unit_zero (S := S2048x128) zeros2]
theorem accSq_next (c : Dev nD) (t : Fin cfg1.N) (h : ¬atFirst (grid1.coords t)) (r0 r1 : Vec F S1x128 .f32) :
    (stNext V c t h r0 r1).2.2.2.2 = k1_pay2 (k1_pay5 (blk V c 0 t) (blk V c 2 t) (blk V c 1 t) (blk V c 3 t) (blk V c 4 t) (blk V c 5 t) (blk V c 6 t)) r1 := by
  unfold stNext
  dsimp only
  rw [View.read_writes_eq_canon _ _ _ (tilesN4 V c t h r0 r1)]
  unfold runNext
  dsimp only
  try sl_unfold_words
  simp only [View.canon_cons_unit_zero (S := S1x128) zeros2, View.canon_unit_zero (S := S1x128) zeros2, View.canon_unit_zero (S := S2048x128) zeros2, View.readCov_unit_zero (S := S1x128) _ zeros2, Cert.ReadBack.readCov_whole_last (S := S1x128) _ zeros2, View.readAt_eq_ld, (hs0 t).read_unread, (hs1 t).read_unread, (hs2 t).read_unread, (hs3 t).read_unread, (hs4 t).read_unread, (hs5 t).read_unread, (hs6 t).read_unread, (Memref.isWhole_whole _).read_unread, View.ld_unit_zero (S := S2048x256) zeros2, View.ld_unit_zero (S := S1x256) zeros2, View.ld_unit_zero (S := S256x128) zeros2, View.ld_unit_zero (S := S1x128) zeros2, View.ld_unit_zero (S := S2048x128) zeros2]

/-! ## The windows' blocks by coordinates -/

theorem idx0 : ∀ t : Fin cfg1.N, win1_0.index t 0 = t.val ∧ win1_0.index t 1 = 0 :=
  (by decide +kernel : ∀ t : Fin grid1.N, win1_0.index t 0 = t.val ∧ win1_0.index t 1 = 0)
theorem idx1 : ∀ t : Fin cfg1.N, win1_1.index t 0 = 0 ∧ win1_1.index t 1 = 0 :=
  (by decide +kernel : ∀ t : Fin grid1.N, win1_1.index t 0 = 0 ∧ win1_1.index t 1 = 0)
theorem idx2 : ∀ t : Fin cfg1.N, win1_2.index t 0 = 0 ∧ win1_2.index t 1 = 0 :=
  (by decide +kernel : ∀ t : Fin grid1.N, win1_2.index t 0 = 0 ∧ win1_2.index t 1 = 0)
theorem idx3 : ∀ t : Fin cfg1.N, win1_3.index t 0 = 0 ∧ win1_3.index t 1 = 0 :=
  (by decide +kernel : ∀ t : Fin grid1.N, win1_3.index t 0 = 0 ∧ win1_3.index t 1 = 0)
theorem idx4 : ∀ t : Fin cfg1.N, win1_4.index t 0 = 0 ∧ win1_4.index t 1 = 0 :=
  (by decide +kernel : ∀ t : Fin grid1.N, win1_4.index t 0 = 0 ∧ win1_4.index t 1 = 0)
theorem idx5 : ∀ t : Fin cfg1.N, win1_5.index t 0 = 0 ∧ win1_5.index t 1 = 0 :=
  (by decide +kernel : ∀ t : Fin grid1.N, win1_5.index t 0 = 0 ∧ win1_5.index t 1 = 0)
theorem idx6 : ∀ t : Fin cfg1.N, win1_6.index t 0 = 0 ∧ win1_6.index t 1 = 0 :=
  (by decide +kernel : ∀ t : Fin grid1.N, win1_6.index t 0 = 0 ∧ win1_6.index t 1 = 0)
theorem idx7 : ∀ t : Fin cfg1.N, win1_7.index t 0 = t.val ∧ win1_7.index t 1 = 0 :=
  (by decide +kernel : ∀ t : Fin grid1.N, win1_7.index t 0 = t.val ∧ win1_7.index t 1 = 0)
theorem idx8 : ∀ t : Fin cfg1.N, win1_8.index t 0 = 0 ∧ win1_8.index t 1 = 0 :=
  (by decide +kernel : ∀ t : Fin grid1.N, win1_8.index t 0 = 0 ∧ win1_8.index t 1 = 0)
theorem idx9 : ∀ t : Fin cfg1.N, win1_9.index t 0 = 0 ∧ win1_9.index t 1 = 0 :=
  (by decide +kernel : ∀ t : Fin grid1.N, win1_9.index t 0 = 0 ∧ win1_9.index t 1 = 0)

/-- Window 0's block at point `t` is rows 2048·t … 2048·t + 2047 of its array. -/
theorem blk0_apply (c : Dev nD) (t : Fin cfg1.N) (y : S2048x256.Idx) (k : S16384x256.Idx)
    (hk0 : (k 0).val = 2048 * t.val + (y 0).val) (hk1 : (k 1).val = (y 1).val) :
    (blk V c 0 t : Vec F S2048x256 .f32) y = (V c main_v18_0 : S16384x256.Idx → Elt F .f32) k := by
  unfold blk
  rw [View.read_apply]
  show V c main_v18_0 _ = V c main_v18_0 _
  congr 1
  funext a
  apply Fin.ext
  match a with
  | ⟨0, _⟩ => show win1_0.index t 0 * 2048 + 1 * (y 0).val = (k 0).val; rw [(idx0 t).1, hk0]; omega
  | ⟨1, _⟩ => show win1_0.index t 1 * 256 + 1 * (y 1).val = (k 1).val; rw [(idx0 t).2, hk1]; omega

/-- Window 1 shows its whole array at every point. -/
theorem blk1_eq (c : Dev nD) (t : Fin cfg1.N) : (blk V c 1 t : Vec F S1x256 .f32) = (V c main_v20 : S1x256.Idx → Elt F .f32) := by
  funext y
  unfold blk
  rw [View.read_apply]
  show V c main_v20 _ = V c main_v20 y
  congr 1
  funext a
  apply Fin.ext
  match a with
  | ⟨0, _⟩ => show win1_1.index t 0 * 1 + 1 * (y 0).val = (y 0).val; rw [(idx1 t).1]; omega
  | ⟨1, _⟩ => show win1_1.index t 1 * 256 + 1 * (y 1).val = (y 1).val; rw [(idx1 t).2]; omega
/-- Window 2 shows its whole array at every point. -/
theorem blk2_eq (c : Dev nD) (t : Fin cfg1.N) : (blk V c 2 t : Vec F S1x256 .f32) = (V c main_v24 : S1x256.Idx → Elt F .f32) := by
  funext y
  unfold blk
  rw [View.read_apply]
  show V c main_v24 _ = V c main_v24 y
  congr 1
  funext a
  apply Fin.ext
  match a with
  | ⟨0, _⟩ => show win1_2.index t 0 * 1 + 1 * (y 0).val = (y 0).val; rw [(idx2 t).1]; omega
  | ⟨1, _⟩ => show win1_2.index t 1 * 256 + 1 * (y 1).val = (y 1).val; rw [(idx2 t).2]; omega
/-- Window 3 shows its whole array at every point. -/
theorem blk3_eq (c : Dev nD) (t : Fin cfg1.N) : (blk V c 3 t : Vec F S1x256 .f32) = (V c main_v14 : S1x256.Idx → Elt F .f32) := by
  funext y
  unfold blk
  rw [View.read_apply]
  show V c main_v14 _ = V c main_v14 y
  congr 1
  funext a
  apply Fin.ext
  match a with
  | ⟨0, _⟩ => show win1_3.index t 0 * 1 + 1 * (y 0).val = (y 0).val; rw [(idx3 t).1]; omega
  | ⟨1, _⟩ => show win1_3.index t 1 * 256 + 1 * (y 1).val = (y 1).val; rw [(idx3 t).2]; omega
/-- Window 4 shows its whole array at every point. -/
theorem blk4_eq (c : Dev nD) (t : Fin cfg1.N) : (blk V c 4 t : Vec F S1x256 .f32) = (V c main_v15 : S1x256.Idx → Elt F .f32) := by
  funext y
  unfold blk
  rw [View.read_apply]
  show V c main_v15 _ = V c main_v15 y
  congr 1
  funext a
  apply Fin.ext
  match a with
  | ⟨0, _⟩ => show win1_4.index t 0 * 1 + 1 * (y 0).val = (y 0).val; rw [(idx4 t).1]; omega
  | ⟨1, _⟩ => show win1_4.index t 1 * 256 + 1 * (y 1).val = (y 1).val; rw [(idx4 t).2]; omega
/-- Window 5 shows its whole array at every point. -/
theorem blk5_eq (c : Dev nD) (t : Fin cfg1.N) : (blk V c 5 t : Vec F S256x128 .bf16) = (V c main_v8 : S256x128.Idx → Elt F .bf16) := by
  funext y
  unfold blk
  rw [View.read_apply]
  show V c main_v8 _ = V c main_v8 y
  congr 1
  funext a
  apply Fin.ext
  match a with
  | ⟨0, _⟩ => show win1_5.index t 0 * 256 + 1 * (y 0).val = (y 0).val; rw [(idx5 t).1]; omega
  | ⟨1, _⟩ => show win1_5.index t 1 * 128 + 1 * (y 1).val = (y 1).val; rw [(idx5 t).2]; omega
/-- Window 6 shows its whole array at every point. -/
theorem blk6_eq (c : Dev nD) (t : Fin cfg1.N) : (blk V c 6 t : Vec F S1x128 .f32) = (V c main_v10 : S1x128.Idx → Elt F .f32) := by
  funext y
  unfold blk
  rw [View.read_apply]
  show V c main_v10 _ = V c main_v10 y
  congr 1
  funext a
  apply Fin.ext
  match a with
  | ⟨0, _⟩ => show win1_6.index t 0 * 1 + 1 * (y 0).val = (y 0).val; rw [(idx6 t).1]; omega
  | ⟨1, _⟩ => show win1_6.index t 1 * 128 + 1 * (y 1).val = (y 1).val; rw [(idx6 t).2]; omega

/-! ## The array of pre-activations -/

/-- The grid point whose block holds row `i 0`. -/
def pointOf (i : S16384x128.Idx) : Fin cfg1.N :=
  ⟨(i 0).val / 2048, by rw [show cfg1.N = 8 from N_1]; have h : (i 0 : Nat) < 16384 := (i 0).isLt; omega⟩

/-- The array after the region: entry (r, j) is the body's arithmetic on the block of rows holding r, at local row r mod 2048. -/
def preact (c : Dev nD) : S16384x128.Idx → Elt F .f32 := fun i =>
  k1_pay5 (blk V c 0 (pointOf i)) (V c main_v24 : S1x256.Idx → Elt F .f32) (V c main_v20 : S1x256.Idx → Elt F .f32) (V c main_v14 : S1x256.Idx → Elt F .f32) (V c main_v15 : S1x256.Idx → Elt F .f32) (V c main_v8 : S256x128.Idx → Elt F .bf16) (V c main_v10 : S1x128.Idx → Elt F .f32)
    (ix2 (⟨(i 0).val % 2048, Nat.mod_lt _ (by decide)⟩ : Fin 2048) (⟨(i 1).val, (i 1).isLt⟩ : Fin 128))

theorem stAt_big (c : Dev nD) (t : Fin cfg1.N) : (stAt V c t.val t.isLt).1 = k1_pay5 (blk V c 0 t) (blk V c 2 t) (blk V c 1 t) (blk V c 3 t) (blk V c 4 t) (blk V c 5 t) (blk V c 6 t) := by
  by_cases h0 : t.val % 8 = 0
  · rw [stAt_first V c t h0, big_first]
  · rw [stAt_next V c t h0, big_next]

/-- What point `t` writes back is block `t` of `preact`. -/
theorem flushedBig_eq (c : Dev nD) (t : Fin cfg1.N) (hf : (cfg1.win 7).flush t = true) :
    (dat V c).flushed 7 t = ((cfg1.win 7).blk t).view.read (Elt F) (preact V c) := by
  show (cfg1.win 7).cut (grid1.coords t) ((dat V c).after 7 t) = _
  rw [after7, stAt_big, blk1_eq, blk2_eq, blk3_eq, blk4_eq, blk5_eq, blk6_eq]
  funext y
  rw [View.read_apply]
  have he0 : ((((cfg1.win 7).blk t).view.emb y) 0 : Nat) = 2048 * t.val + (y 0 : Nat) := by
    show win1_7.index t 0 * 2048 + 1 * (y 0).val = _; rw [(idx7 t).1]; omega
  have he1 : ((((cfg1.win 7).blk t).view.emb y) 1 : Nat) = (y 1 : Nat) := by
    show win1_7.index t 1 * 128 + 1 * (y 1).val = _; rw [(idx7 t).2]; omega
  have hy0 : (y 0 : Nat) < 2048 := (y 0).isLt
  have ht : pointOf (((cfg1.win 7).blk t).view.emb y) = t := Fin.ext (by
    show ((((cfg1.win 7).blk t).view.emb y) 0 : Nat) / 2048 = t.val; rw [he0]; omega)
  unfold preact
  rw [ht]
  show k1_pay5 (blk V c 0 t) _ _ _ _ _ _ y = k1_pay5 (blk V c 0 t) _ _ _ _ _ _ (ix2 _ _)
  refine congrArg (k1_pay5 (blk V c 0 t) _ _ _ _ _ _) (funext fun a => ?_)
  apply Fin.ext
  match a with
  | ⟨0, _⟩ => show (y 0 : Nat) = ((((cfg1.win 7).blk t).view.emb y) 0 : Nat) % 2048; rw [he0]; omega
  | ⟨1, _⟩ => show (y 1 : Nat) = ((((cfg1.win 7).blk t).view.emb y) 1 : Nat); rw [he1]

theorem xsizeBig : ∀ t : Fin cfg1.N, win1_7.xsize (grid1.coords t) 0 = 2048 ∧ win1_7.xsize (grid1.coords t) 1 = 128 :=
  (by decide +kernel : ∀ t : Fin grid1.N, win1_7.xsize (grid1.coords t) 0 = 2048 ∧ win1_7.xsize (grid1.coords t) 1 = 128)

/-- The 8 points' blocks tile the 16384 rows, so the array ends holding `preact`. -/
theorem finalBig (c : Dev nD) : (dat V c).arrAt 7 cfg1.N = preact V c :=
  (dat V c).arrAt_eq_of_cover 7 (preact V c) (flushedBig_eq V c) fun i =>
    ⟨pointOf i, flush1_7 (pointOf i), by
      show i ∈ ((View.whole main_v25_0).slice (win1_7.rect (pointOf i))).set
      rw [View.set_slice_whole, Rect.mem_set_unit]
      intro a
      have h0 : (i 0 : Nat) < 16384 := (i 0).isLt
      have h1 : (i 1 : Nat) < 128 := (i 1).isLt
      match a with
      | ⟨0, _⟩ =>
        show win1_7.index (pointOf i) 0 * win1_7.size 0 ≤ (i 0 : Nat) ∧ (i 0 : Nat) < win1_7.index (pointOf i) 0 * win1_7.size 0 + win1_7.xsize (grid1.coords (pointOf i)) 0
        rw [(idx7 (pointOf i)).1, (xsizeBig (pointOf i)).1, show win1_7.size 0 = 2048 from rfl]
        show (i 0 : Nat) / 2048 * 2048 ≤ (i 0 : Nat) ∧ (i 0 : Nat) < (i 0 : Nat) / 2048 * 2048 + 2048
        omega
      | ⟨1, _⟩ =>
        show win1_7.index (pointOf i) 1 * win1_7.size 1 ≤ (i 1 : Nat) ∧ (i 1 : Nat) < win1_7.index (pointOf i) 1 * win1_7.size 1 + win1_7.xsize (grid1.coords (pointOf i)) 1
        rw [(idx7 (pointOf i)).2, (xsizeBig (pointOf i)).2]
        omega⟩

/-! ## The two result rows: written back once, after the last point -/

/-- The last grid point. -/
def lastPt : Fin cfg1.N := ⟨7, by rw [show cfg1.N = 8 from N_1]; decide⟩

theorem xsizeSum : ∀ t : Fin cfg1.N, win1_8.xsize (grid1.coords t) 0 = 1 ∧ win1_8.xsize (grid1.coords t) 1 = 128 :=
  (by decide +kernel : ∀ t : Fin grid1.N, win1_8.xsize (grid1.coords t) 0 = 1 ∧ win1_8.xsize (grid1.coords t) 1 = 128)

theorem flushedSum_eq (c : Dev nD) (t : Fin cfg1.N) (hf : (cfg1.win 8).flush t = true) :
    (dat V c).flushed 8 t = ((cfg1.win 8).blk t).view.read (Elt F) ((stAt V c lastPt.val lastPt.isLt).2.1 : S1x128.Idx → Elt F .f32) := by
  have hN : cfg1.N = 8 := N_1
  have h1 : t.val = 7 := by have := (flush1_8 t).mp hf; have := t.isLt; omega
  obtain rfl : t = lastPt := Fin.ext h1
  show (cfg1.win 8).cut (grid1.coords lastPt) ((dat V c).after 8 lastPt) = _
  rw [after8]
  funext y
  rw [View.read_apply]
  show (stAt V c lastPt.val lastPt.isLt).2.1 y = (stAt V c lastPt.val lastPt.isLt).2.1 _
  refine congrArg ((stAt V c lastPt.val lastPt.isLt).2.1) (funext fun a => ?_)
  apply Fin.ext
  match a with
  | ⟨0, _⟩ => show (y 0 : Nat) = win1_8.index lastPt 0 * 1 + 1 * (y 0).val; rw [(idx8 lastPt).1]; omega
  | ⟨1, _⟩ => show (y 1 : Nat) = win1_8.index lastPt 1 * 128 + 1 * (y 1).val; rw [(idx8 lastPt).2]; omega

/-- The row array ends holding what the last point left in its staging buffer. -/
theorem finalSum (c : Dev nD) : (dat V c).arrAt 8 cfg1.N = ((stAt V c lastPt.val lastPt.isLt).2.1 : S1x128.Idx → Elt F .f32) :=
  (dat V c).arrAt_eq_of_cover 8 _ (flushedSum_eq V c) fun i =>
    ⟨lastPt, (flush1_8 lastPt).mpr rfl, by
      show i ∈ ((View.whole main_v25_1).slice (win1_8.rect lastPt)).set
      rw [View.set_slice_whole, Rect.mem_set_unit]
      intro a
      have h0 : (i 0 : Nat) < 1 := (i 0).isLt
      have h1 : (i 1 : Nat) < 128 := (i 1).isLt
      match a with
      | ⟨0, _⟩ =>
        show win1_8.index lastPt 0 * win1_8.size 0 ≤ (i 0 : Nat) ∧ (i 0 : Nat) < win1_8.index lastPt 0 * win1_8.size 0 + win1_8.xsize (grid1.coords lastPt) 0
        rw [(idx8 lastPt).1, (xsizeSum lastPt).1]; omega
      | ⟨1, _⟩ =>
        show win1_8.index lastPt 1 * win1_8.size 1 ≤ (i 1 : Nat) ∧ (i 1 : Nat) < win1_8.index lastPt 1 * win1_8.size 1 + win1_8.xsize (grid1.coords lastPt) 1
        rw [(idx8 lastPt).2, (xsizeSum lastPt).2]; omega⟩

theorem xsizeSq : ∀ t : Fin cfg1.N, win1_9.xsize (grid1.coords t) 0 = 1 ∧ win1_9.xsize (grid1.coords t) 1 = 128 :=
  (by decide +kernel : ∀ t : Fin grid1.N, win1_9.xsize (grid1.coords t) 0 = 1 ∧ win1_9.xsize (grid1.coords t) 1 = 128)

theorem flushedSq_eq (c : Dev nD) (t : Fin cfg1.N) (hf : (cfg1.win 9).flush t = true) :
    (dat V c).flushed 9 t = ((cfg1.win 9).blk t).view.read (Elt F) ((stAt V c lastPt.val lastPt.isLt).2.2.1 : S1x128.Idx → Elt F .f32) := by
  have hN : cfg1.N = 8 := N_1
  have h1 : t.val = 7 := by have := (flush1_9 t).mp hf; have := t.isLt; omega
  obtain rfl : t = lastPt := Fin.ext h1
  show (cfg1.win 9).cut (grid1.coords lastPt) ((dat V c).after 9 lastPt) = _
  rw [after9]
  funext y
  rw [View.read_apply]
  show (stAt V c lastPt.val lastPt.isLt).2.2.1 y = (stAt V c lastPt.val lastPt.isLt).2.2.1 _
  refine congrArg ((stAt V c lastPt.val lastPt.isLt).2.2.1) (funext fun a => ?_)
  apply Fin.ext
  match a with
  | ⟨0, _⟩ => show (y 0 : Nat) = win1_9.index lastPt 0 * 1 + 1 * (y 0).val; rw [(idx9 lastPt).1]; omega
  | ⟨1, _⟩ => show (y 1 : Nat) = win1_9.index lastPt 1 * 128 + 1 * (y 1).val; rw [(idx9 lastPt).2]; omega

/-- The row array ends holding what the last point left in its staging buffer. -/
theorem finalSq (c : Dev nD) : (dat V c).arrAt 9 cfg1.N = ((stAt V c lastPt.val lastPt.isLt).2.2.1 : S1x128.Idx → Elt F .f32) :=
  (dat V c).arrAt_eq_of_cover 9 _ (flushedSq_eq V c) fun i =>
    ⟨lastPt, (flush1_9 lastPt).mpr rfl, by
      show i ∈ ((View.whole main_v25_2).slice (win1_9.rect lastPt)).set
      rw [View.set_slice_whole, Rect.mem_set_unit]
      intro a
      have h0 : (i 0 : Nat) < 1 := (i 0).isLt
      have h1 : (i 1 : Nat) < 128 := (i 1).isLt
      match a with
      | ⟨0, _⟩ =>
        show win1_9.index lastPt 0 * win1_9.size 0 ≤ (i 0 : Nat) ∧ (i 0 : Nat) < win1_9.index lastPt 0 * win1_9.size 0 + win1_9.xsize (grid1.coords lastPt) 0
        rw [(idx9 lastPt).1, (xsizeSq lastPt).1]; omega
      | ⟨1, _⟩ =>
        show win1_9.index lastPt 1 * win1_9.size 1 ≤ (i 1 : Nat) ∧ (i 1 : Nat) < win1_9.index lastPt 1 * win1_9.size 1 + win1_9.xsize (grid1.coords lastPt) 1
        rw [(idx9 lastPt).2, (xsizeSq lastPt).2]; omega⟩

end Cert.KernelIdeal.R1

end
-- ==== Proof.KI.A1.lean ====
/-
  Call 1 at the ideal values, entry by entry. Write H(r, q) for the second layer's pre-activation of row r and column q: the sum over k of the normalized, clipped first-layer activation (r, k) times weight (k, q), plus the bias of column q, every array being one the region is entered with.
  The big result array ends holding H. The accumulator of column sums holds, after point n, the sum of H(r, q) over the
  rows of the blocks 0 … n: it starts at zero plus the first block's column sums, and every later point adds its block's.
  After the last point that is the sum over all 16384 rows — and likewise for the squares.
-/
import proofs.«145499_j5368709120128_1_alg».proof.Proof.KI.V1
import proofs.«145499_j5368709120128_1_alg».proof.Proof.KI.Pay
import proofs.«145499_j5368709120128_1_alg».proof.Proof.LibBlockedSum

set_option maxRecDepth 16384

noncomputable section

namespace Cert.KernelIdeal.R1

open Cert.KernelIdeal Cert.KernelIdeal.Gen Cert.KernelIdeal.Pay Cert.Net
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! The arrays the region is entered with, at their shapes. -/
def inH : S16384x256.Idx → EReal := V c main_v18_0
def inMean : S1x256.Idx → EReal := V c main_v20
def inVar : S1x256.Idx → EReal := V c main_v24
def inG : S1x256.Idx → EReal := V c main_v14
def inBe : S1x256.Idx → EReal := V c main_v15
def inW : S256x128.Idx → EReal := V c main_v8
def inB : S1x128.Idx → EReal := V c main_v10

/-- The pre-activation of row r, column q. -/
def H (r : Fin 16384) (q : Fin 128) : EReal :=
  (∑ k : Fin 256, min hi (max lo ((inH V c (ix2 r k) - inMean V c (ix2 0 k)) * Ideal.rsqrt (inVar V c (ix2 0 k) + eps) * inG V c (ix2 0 k)
      + inBe V c (ix2 0 k))) * inW V c (ix2 k q)) + inB V c (ix2 0 q)

/-- Local row p of point t's block of pre-activations is global row 2048·t + p. -/
theorem pay_at (t : Fin cfg1.N) (p : Fin 2048) (q : Fin 128) (r : Fin 16384) (hr : r.val = 2048 * t.val + p.val) :
    k1_pay5 (blk V c 0 t) (blk V c 2 t) (blk V c 1 t) (blk V c 3 t) (blk V c 4 t) (blk V c 5 t) (blk V c 6 t) (ix2 p q) = H V c r q := by
  rw [blk1_eq, blk2_eq, blk3_eq, blk4_eq, blk5_eq, blk6_eq]
  refine (k1_pay5_apply _ _ _ _ _ _ _ p q).trans ?_
  unfold H
  refine congrArg₂ (· + ·) (Finset.sum_congr rfl fun k _ => ?_) rfl
  have hb : (blk V c 0 t : Vec Ideal S2048x256 .f32) (ix2 p k) = inH V c (ix2 r k) :=
    blk0_apply V c t (ix2 p k) (ix2 r k) hr rfl
  rw [hb]
  rfl

theorem rowBound (t : Fin cfg1.N) (p : Fin 2048) : 2048 * t.val + p.val < 16384 := by
  have : t.val < 8 := lt_of_lt_of_eq t.isLt (show cfg1.N = 8 from N_1); have := p.isLt; omega

/-- The big result array, entry by entry. -/
theorem preact_apply (r : Fin 16384) (q : Fin 128) : preact V c (ix2 r q) = H V c r q := by
  unfold preact
  rw [← blk1_eq V c (pointOf (ix2 r q)), ← blk2_eq V c (pointOf (ix2 r q)), ← blk3_eq V c (pointOf (ix2 r q)), ← blk4_eq V c (pointOf (ix2 r q)), ← blk5_eq V c (pointOf (ix2 r q)), ← blk6_eq V c (pointOf (ix2 r q))]
  refine pay_at V c (pointOf (ix2 r q)) _ _ r ?_
  show r.val = 2048 * (r.val / 2048) + r.val % 2048
  omega

/-- The column sums of point s's block of pre-activations (zero past the grid), and of their squares. -/
def blockSum (s : ℕ) (q : Fin 128) : EReal :=
  if h : s < cfg1.N then ∑ p : Fin 2048, H V c ⟨2048 * s + p.val, rowBound ⟨s, h⟩ p⟩ q else 0
def blockSq (s : ℕ) (q : Fin 128) : EReal :=
  if h : s < cfg1.N then ∑ p : Fin 2048, H V c ⟨2048 * s + p.val, rowBound ⟨s, h⟩ p⟩ q * H V c ⟨2048 * s + p.val, rowBound ⟨s, h⟩ p⟩ q else 0

/-- After point n the first accumulator holds the column sums over the blocks 0 … n, -/
theorem accSum_eq : ∀ (n : ℕ) (hn : n < cfg1.N) (q : Fin 128),
    (stAt V c n hn).2.2.2.1 (ix2 0 q) = ∑ s ∈ Finset.range (n + 1), blockSum V c s q
  | 0, hn, q => by
    rw [stAt_first V c ⟨0, hn⟩ (Nat.zero_mod _), accSum_first]
    refine (k1_pay1_apply _ _ q).trans ?_
    rw [k1_pay3_apply, zero_add, Finset.sum_range_one, blockSum, dif_pos hn]
    exact Finset.sum_congr rfl fun p _ => pay_at V c ⟨0, hn⟩ p q ⟨2048 * 0 + p.val, rowBound ⟨0, hn⟩ p⟩ rfl
  | n + 1, hn, q => by
    have hN : cfg1.N = 8 := N_1
    have h0 : ¬ (n + 1) % 8 = 0 := by omega
    rw [stAt_next V c ⟨n + 1, hn⟩ h0, accSum_next]
    refine (k1_pay1_apply _ _ q).trans ?_
    rw [Finset.sum_range_succ, ← accSum_eq n (Nat.lt_of_succ_lt hn) q, blockSum, dif_pos hn]
    refine congrArg₂ (· + ·) rfl ?_
    exact Finset.sum_congr rfl fun p _ => pay_at V c ⟨n + 1, hn⟩ p q ⟨2048 * (n + 1) + p.val, rowBound ⟨n + 1, hn⟩ p⟩ rfl

/-- and the second the column sums of squares. -/
theorem accSq_eq : ∀ (n : ℕ) (hn : n < cfg1.N) (q : Fin 128),
    (stAt V c n hn).2.2.2.2 (ix2 0 q) = ∑ s ∈ Finset.range (n + 1), blockSq V c s q
  | 0, hn, q => by
    rw [stAt_first V c ⟨0, hn⟩ (Nat.zero_mod _), accSq_first]
    refine (k1_pay2_apply _ _ q).trans ?_
    rw [k1_pay4_apply, zero_add, Finset.sum_range_one, blockSq, dif_pos hn]
    exact Finset.sum_congr rfl fun p _ => by rw [pay_at V c ⟨0, hn⟩ p q ⟨2048 * 0 + p.val, rowBound ⟨0, hn⟩ p⟩ rfl]
  | n + 1, hn, q => by
    have hN : cfg1.N = 8 := N_1
    have h0 : ¬ (n + 1) % 8 = 0 := by omega
    rw [stAt_next V c ⟨n + 1, hn⟩ h0, accSq_next]
    refine (k1_pay2_apply _ _ q).trans ?_
    rw [Finset.sum_range_succ, ← accSq_eq n (Nat.lt_of_succ_lt hn) q, blockSq, dif_pos hn]
    refine congrArg₂ (· + ·) rfl ?_
    exact Finset.sum_congr rfl fun p _ => by rw [pay_at V c ⟨n + 1, hn⟩ p q ⟨2048 * (n + 1) + p.val, rowBound ⟨n + 1, hn⟩ p⟩ rfl]

/-- The copies in the result rows hold what the accumulators hold. -/
theorem outSum_eq_acc (t : Fin cfg1.N) : (stAt V c t.val t.isLt).2.1 = (stAt V c t.val t.isLt).2.2.2.1 := by
  by_cases h0 : t.val % 8 = 0
  · rw [stAt_first V c t h0, outSum_first, accSum_first]
  · rw [stAt_next V c t h0, outSum_next, accSum_next]
theorem outSq_eq_acc (t : Fin cfg1.N) : (stAt V c t.val t.isLt).2.2.1 = (stAt V c t.val t.isLt).2.2.2.2 := by
  by_cases h0 : t.val % 8 = 0
  · rw [stAt_first V c t h0, outSq_first, accSq_first]
  · rw [stAt_next V c t h0, outSq_next, accSq_next]

/-- A sum over the grid's blocks of sums over a block's rows is the sum over all 16384 rows. -/
theorem sum_blocks (f : ℕ → EReal) (g : Fin 16384 → EReal)
    (hf : ∀ s (h : s < cfg1.N), f s = ∑ p : Fin 2048, g ⟨2048 * s + p.val, rowBound ⟨s, h⟩ p⟩) :
    ∑ s ∈ Finset.range 8, f s = ∑ r : Fin 16384, g r := by
  have hN : cfg1.N = 8 := N_1
  rw [Cert.BlockedSum.sum_8x2048 g, Finset.sum_range]
  exact Finset.sum_congr rfl fun t _ => hf t.val (by rw [hN]; exact t.isLt)

/-- THE THREE RESULT ARRAYS of call 1, entry by entry. -/
theorem final_pre (r : Fin 16384) (q : Fin 128) :
    ((dat V c).arrAt 7 cfg1.N : S16384x128.Idx → EReal) (ix2 r q) = H V c r q := by
  rw [finalBig]; exact preact_apply V c r q

theorem final_sum (q : Fin 128) :
    ((dat V c).arrAt 8 cfg1.N : S1x128.Idx → EReal) (ix2 0 q) = ∑ r : Fin 16384, H V c r q := by
  rw [finalSum, outSum_eq_acc V c lastPt, accSum_eq V c lastPt.val lastPt.isLt q]
  exact sum_blocks (fun s => blockSum V c s q) (fun r => H V c r q) fun s h => by rw [blockSum, dif_pos h]

theorem final_sq (q : Fin 128) :
    ((dat V c).arrAt 9 cfg1.N : S1x128.Idx → EReal) (ix2 0 q) = ∑ r : Fin 16384, H V c r q * H V c r q := by
  rw [finalSq, outSq_eq_acc V c lastPt, accSq_eq V c lastPt.val lastPt.isLt q]
  exact sum_blocks (fun s => blockSq V c s q) (fun r => H V c r q * H V c r q) fun s h => by rw [blockSq, dif_pos h]

end Cert.KernelIdeal.R1

end
-- ==== Proof.KI.V2.lean ====
/-
  What the third call leaves in the result array. Point `t` of its grid writes rows [2048·t, 2048·t + 2048) of the result,
  each row computed from the same row of the second layer's pre-activations and from the six small operands, which every
  point sees whole. The eight points' row ranges tile the 16384 rows, so the array ends as one function of the arrays the
  region was entered with: entry (r, j) is the body's arithmetic at local row r mod 2048 of point r / 2048.
-/
import proofs.«145499_j5368709120128_1_alg».proof.Proof.KI.R2
import Idealize.ShloMosaic.Lib.Pipeline.Value
import Idealize.ShloMosaic.Lib.ValueIdx

set_option maxRecDepth 16384

noncomputable section

namespace Cert.KernelIdeal.R2

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- What point `t` leaves in the result's staging buffer is the body's arithmetic on that point's blocks. -/
theorem rows_eq (c : Dev nD) (t : Fin cfg2.N) :
    rows V c t = k2_pay1 (blk V c 0 t) (blk V c 2 t) (blk V c 1 t) (blk V c 3 t) (blk V c 4 t) (blk V c 5 t) (blk V c 6 t) := by
  unfold rows
  rw [View.read_writes_eq_canon _ _ _ (tiles V c t)]
  unfold runAt layer3Run
  dsimp only
  try sl_unfold_words
  rw [View.canon_unit_zero zeros2]
  simp only [View.readAt_eq_ld, (hs0 t).read_unread, (hs1 t).read_unread, (hs2 t).read_unread, (hs3 t).read_unread,
    (hs4 t).read_unread, (hs5 t).read_unread, (hs6 t).read_unread,
    View.ld_unit_zero (S := S2048x128) zeros2, View.ld_unit_zero (S := S1x128) zeros2, View.ld_unit_zero (S := S128x12) zeros2,
    View.ld_unit_zero (S := S1x12) zeros2]

/-! ## The windows' blocks by coordinates -/

theorem idx0 : ∀ t : Fin cfg2.N, win2_0.index t 0 = t.val ∧ win2_0.index t 1 = 0 :=
  (by decide +kernel : ∀ t : Fin grid2.N, win2_0.index t 0 = t.val ∧ win2_0.index t 1 = 0)
theorem idx1 : ∀ t : Fin cfg2.N, win2_1.index t 0 = 0 ∧ win2_1.index t 1 = 0 :=
  (by decide +kernel : ∀ t : Fin grid2.N, win2_1.index t 0 = 0 ∧ win2_1.index t 1 = 0)
theorem idx2 : ∀ t : Fin cfg2.N, win2_2.index t 0 = 0 ∧ win2_2.index t 1 = 0 :=
  (by decide +kernel : ∀ t : Fin grid2.N, win2_2.index t 0 = 0 ∧ win2_2.index t 1 = 0)
theorem idx3 : ∀ t : Fin cfg2.N, win2_3.index t 0 = 0 ∧ win2_3.index t 1 = 0 :=
  (by decide +kernel : ∀ t : Fin grid2.N, win2_3.index t 0 = 0 ∧ win2_3.index t 1 = 0)
theorem idx4 : ∀ t : Fin cfg2.N, win2_4.index t 0 = 0 ∧ win2_4.index t 1 = 0 :=
  (by decide +kernel : ∀ t : Fin grid2.N, win2_4.index t 0 = 0 ∧ win2_4.index t 1 = 0)
theorem idx5 : ∀ t : Fin cfg2.N, win2_5.index t 0 = 0 ∧ win2_5.index t 1 = 0 :=
  (by decide +kernel : ∀ t : Fin grid2.N, win2_5.index t 0 = 0 ∧ win2_5.index t 1 = 0)
theorem idx6 : ∀ t : Fin cfg2.N, win2_6.index t 0 = 0 ∧ win2_6.index t 1 = 0 :=
  (by decide +kernel : ∀ t : Fin grid2.N, win2_6.index t 0 = 0 ∧ win2_6.index t 1 = 0)
theorem idx7 : ∀ t : Fin cfg2.N, win2_7.index t 0 = t.val ∧ win2_7.index t 1 = 0 :=
  (by decide +kernel : ∀ t : Fin grid2.N, win2_7.index t 0 = t.val ∧ win2_7.index t 1 = 0)

/-- Window 0's block at point `t` is rows 2048·t … 2048·t + 2047 of its array. -/
theorem blk0_apply (c : Dev nD) (t : Fin cfg2.N) (y : S2048x128.Idx) (k : S16384x128.Idx)
    (hk0 : (k 0).val = 2048 * t.val + (y 0).val) (hk1 : (k 1).val = (y 1).val) :
    (blk V c 0 t : Vec F S2048x128 .f32) y = (V c main_v25_0 : S16384x128.Idx → Elt F .f32) k := by
  unfold blk
  rw [View.read_apply]
  show V c main_v25_0 _ = V c main_v25_0 _
  congr 1
  funext a
  apply Fin.ext
  match a with
  | ⟨0, _⟩ => show win2_0.index t 0 * 2048 + 1 * (y 0).val = (k 0).val; rw [(idx0 t).1, hk0]; omega
  | ⟨1, _⟩ => show win2_0.index t 1 * 128 + 1 * (y 1).val = (k 1).val; rw [(idx0 t).2, hk1]; omega

/-- Window 1 shows its whole array at every point. -/
theorem blk1_eq (c : Dev nD) (t : Fin cfg2.N) : (blk V c 1 t : Vec F S1x128 .f32) = (V c main_v27 : S1x128.Idx → Elt F .f32) := by
  funext y
  unfold blk
  rw [View.read_apply]
  show V c main_v27 _ = V c main_v27 y
  congr 1
  funext a
  apply Fin.ext
  match a with
  | ⟨0, _⟩ => show win2_1.index t 0 * 1 + 1 * (y 0).val = (y 0).val; rw [(idx1 t).1]; omega
  | ⟨1, _⟩ => show win2_1.index t 1 * 128 + 1 * (y 1).val = (y 1).val; rw [(idx1 t).2]; omega
/-- Window 2 shows its whole array at every point. -/
theorem blk2_eq (c : Dev nD) (t : Fin cfg2.N) : (blk V c 2 t : Vec F S1x128 .f32) = (V c main_v31 : S1x128.Idx → Elt F .f32) := by
  funext y
  unfold blk
  rw [View.read_apply]
  show V c main_v31 _ = V c main_v31 y
  congr 1
  funext a
  apply Fin.ext
  match a with
  | ⟨0, _⟩ => show win2_2.index t 0 * 1 + 1 * (y 0).val = (y 0).val; rw [(idx2 t).1]; omega
  | ⟨1, _⟩ => show win2_2.index t 1 * 128 + 1 * (y 1).val = (y 1).val; rw [(idx2 t).2]; omega
/-- Window 3 shows its whole array at every point. -/
theorem blk3_eq (c : Dev nD) (t : Fin cfg2.N) : (blk V c 3 t : Vec F S1x128 .f32) = (V c main_v16 : S1x128.Idx → Elt F .f32) := by
  funext y
  unfold blk
  rw [View.read_apply]
  show V c main_v16 _ = V c main_v16 y
  congr 1
  funext a
  apply Fin.ext
  match a with
  | ⟨0, _⟩ => show win2_3.index t 0 * 1 + 1 * (y 0).val = (y 0).val; rw [(idx3 t).1]; omega
  | ⟨1, _⟩ => show win2_3.index t 1 * 128 + 1 * (y 1).val = (y 1).val; rw [(idx3 t).2]; omega
/-- Window 4 shows its whole array at every point. -/
theorem blk4_eq (c : Dev nD) (t : Fin cfg2.N) : (blk V c 4 t : Vec F S1x128 .f32) = (V c main_v17 : S1x128.Idx → Elt F .f32) := by
  funext y
  unfold blk
  rw [View.read_apply]
  show V c main_v17 _ = V c main_v17 y
  congr 1
  funext a
  apply Fin.ext
  match a with
  | ⟨0, _⟩ => show win2_4.index t 0 * 1 + 1 * (y 0).val = (y 0).val; rw [(idx4 t).1]; omega
  | ⟨1, _⟩ => show win2_4.index t 1 * 128 + 1 * (y 1).val = (y 1).val; rw [(idx4 t).2]; omega
/-- Window 5 shows its whole array at every point. -/
theorem blk5_eq (c : Dev nD) (t : Fin cfg2.N) : (blk V c 5 t : Vec F S128x12 .bf16) = (V c main_v12 : S128x12.Idx → Elt F .bf16) := by
  funext y
  unfold blk
  rw [View.read_apply]
  show V c main_v12 _ = V c main_v12 y
  congr 1
  funext a
  apply Fin.ext
  match a with
  | ⟨0, _⟩ => show win2_5.index t 0 * 128 + 1 * (y 0).val = (y 0).val; rw [(idx5 t).1]; omega
  | ⟨1, _⟩ => show win2_5.index t 1 * 12 + 1 * (y 1).val = (y 1).val; rw [(idx5 t).2]; omega
/-- Window 6 shows its whole array at every point. -/
theorem blk6_eq (c : Dev nD) (t : Fin cfg2.N) : (blk V c 6 t : Vec F S1x12 .f32) = (V c main_v13 : S1x12.Idx → Elt F .f32) := by
  funext y
  unfold blk
  rw [View.read_apply]
  show V c main_v13 _ = V c main_v13 y
  congr 1
  funext a
  apply Fin.ext
  match a with
  | ⟨0, _⟩ => show win2_6.index t 0 * 1 + 1 * (y 0).val = (y 0).val; rw [(idx6 t).1]; omega
  | ⟨1, _⟩ => show win2_6.index t 1 * 12 + 1 * (y 1).val = (y 1).val; rw [(idx6 t).2]; omega

/-! ## The result array -/

/-- The grid point whose block holds row `i 0`. -/
def pointOf (i : S16384x12.Idx) : Fin cfg2.N :=
  ⟨(i 0).val / 2048, by rw [show cfg2.N = 8 from N_2]; have h : (i 0 : Nat) < 16384 := (i 0).isLt; omega⟩

/-- The result array after the region, as one function of the arrays it was entered with: entry (r, j) is the body's
    arithmetic on the block of rows holding r, at local row r mod 2048. -/
def result (c : Dev nD) : S16384x12.Idx → Elt F .f32 := fun i =>
  k2_pay1 (blk V c 0 (pointOf i)) (V c main_v31 : S1x128.Idx → Elt F .f32) (V c main_v27 : S1x128.Idx → Elt F .f32)
    (V c main_v16 : S1x128.Idx → Elt F .f32) (V c main_v17 : S1x128.Idx → Elt F .f32) (V c main_v12 : S128x12.Idx → Elt F .bf16)
    (V c main_v13 : S1x12.Idx → Elt F .f32)
    (ix2 (⟨(i 0).val % 2048, Nat.mod_lt _ (by decide)⟩ : Fin 2048) (⟨(i 1).val, (i 1).isLt⟩ : Fin 12))

/-- What point `t` writes back is block `t` of `result`. -/
theorem flushed_eq (c : Dev nD) (t : Fin cfg2.N) (hf : (cfg2.win 7).flush t = true) :
    (dat V c).flushed 7 t = ((cfg2.win 7).blk t).view.read (Elt F) (result V c) := by
  show (cfg2.win 7).cut (grid2.coords t) ((dat V c).after 7 t) = _
  rw [after7, rows_eq, blk1_eq, blk2_eq, blk3_eq, blk4_eq, blk5_eq, blk6_eq]
  funext y
  rw [View.read_apply]
  have he0 : ((((cfg2.win 7).blk t).view.emb y) 0 : Nat) = 2048 * t.val + (y 0 : Nat) := by
    show win2_7.index t 0 * 2048 + 1 * (y 0).val = _; rw [(idx7 t).1]; omega
  have he1 : ((((cfg2.win 7).blk t).view.emb y) 1 : Nat) = (y 1 : Nat) := by
    show win2_7.index t 1 * 12 + 1 * (y 1).val = _; rw [(idx7 t).2]; omega
  have hy0 : (y 0 : Nat) < 2048 := (y 0).isLt
  have ht : pointOf (((cfg2.win 7).blk t).view.emb y) = t := Fin.ext (by
    show ((((cfg2.win 7).blk t).view.emb y) 0 : Nat) / 2048 = t.val; rw [he0]; omega)
  unfold result
  rw [ht]
  show k2_pay1 (blk V c 0 t) _ _ _ _ _ _ y = k2_pay1 (blk V c 0 t) _ _ _ _ _ _ (ix2 _ _)
  refine congrArg (k2_pay1 (blk V c 0 t) _ _ _ _ _ _) (funext fun a => ?_)
  apply Fin.ext
  match a with
  | ⟨0, _⟩ => show (y 0 : Nat) = ((((cfg2.win 7).blk t).view.emb y) 0 : Nat) % 2048; rw [he0]; omega
  | ⟨1, _⟩ => show (y 1 : Nat) = ((((cfg2.win 7).blk t).view.emb y) 1 : Nat); rw [he1]

theorem xsize7 : ∀ t : Fin cfg2.N, win2_7.xsize (grid2.coords t) 0 = 2048 ∧ win2_7.xsize (grid2.coords t) 1 = 12 :=
  (by decide +kernel : ∀ t : Fin grid2.N, win2_7.xsize (grid2.coords t) 0 = 2048 ∧ win2_7.xsize (grid2.coords t) 1 = 12)

/-- The eight points' blocks tile the 16384 rows, so the array ends holding `result`. -/
theorem final (c : Dev nD) : (dat V c).arrAt 7 cfg2.N = result V c :=
  (dat V c).arrAt_eq_of_cover 7 (result V c) (flushed_eq V c) fun i =>
    ⟨pointOf i, flush2_7 (pointOf i), by
      show i ∈ ((View.whole main_v32).slice (win2_7.rect (pointOf i))).set
      rw [View.set_slice_whole, Rect.mem_set_unit]
      intro a
      have h0 : (i 0 : Nat) < 16384 := (i 0).isLt
      have h1 : (i 1 : Nat) < 12 := (i 1).isLt
      match a with
      | ⟨0, _⟩ =>
        show win2_7.index (pointOf i) 0 * win2_7.size 0 ≤ (i 0 : Nat) ∧ (i 0 : Nat) < win2_7.index (pointOf i) 0 * win2_7.size 0 + win2_7.xsize (grid2.coords (pointOf i)) 0
        rw [(idx7 (pointOf i)).1, (xsize7 (pointOf i)).1, show win2_7.size 0 = 2048 from rfl]
        show (i 0 : Nat) / 2048 * 2048 ≤ (i 0 : Nat) ∧ (i 0 : Nat) < (i 0 : Nat) / 2048 * 2048 + 2048
        omega
      | ⟨1, _⟩ =>
        show win2_7.index (pointOf i) 1 * win2_7.size 1 ≤ (i 1 : Nat) ∧ (i 1 : Nat) < win2_7.index (pointOf i) 1 * win2_7.size 1 + win2_7.xsize (grid2.coords (pointOf i)) 1
        rw [(idx7 (pointOf i)).2, (xsize7 (pointOf i)).2]
        omega⟩

end Cert.KernelIdeal.R2

end
-- ==== Proof.KI.A2.lean ====
/-
  Call 2 at the ideal values, entry by entry: entry (r, q) of the result is the sum over k of the normalized, clipped
  second-layer activation of row r, column k, times weight (k, q), plus the bias of column q — every array being one the
  region is entered with.
-/
import proofs.«145499_j5368709120128_1_alg».proof.Proof.KI.V2
import proofs.«145499_j5368709120128_1_alg».proof.Proof.KI.Pay

set_option maxRecDepth 16384

noncomputable section

namespace Cert.KernelIdeal.R2

open Cert.KernelIdeal Cert.KernelIdeal.Gen Cert.KernelIdeal.Pay Cert.Net
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! The arrays the region is entered with, at their shapes. -/
def inH : S16384x128.Idx → EReal := V c main_v25_0
def inMean : S1x128.Idx → EReal := V c main_v27
def inVar : S1x128.Idx → EReal := V c main_v31
def inG : S1x128.Idx → EReal := V c main_v16
def inBe : S1x128.Idx → EReal := V c main_v17
def inW : S128x12.Idx → EReal := V c main_v12
def inB : S1x12.Idx → EReal := V c main_v13

/-- Entry (r, q) of the final linear layer. -/
def Out (r : Fin 16384) (q : Fin 12) : EReal :=
  (∑ k : Fin 128, min hi (max lo ((inH V c (ix2 r k) - inMean V c (ix2 0 k)) * Ideal.rsqrt (inVar V c (ix2 0 k) + eps) * inG V c (ix2 0 k)
      + inBe V c (ix2 0 k))) * inW V c (ix2 k q)) + inB V c (ix2 0 q)

theorem final_apply (r : Fin 16384) (q : Fin 12) :
    ((dat V c).arrAt 7 cfg2.N : S16384x12.Idx → EReal) (ix2 r q) = Out V c r q := by
  rw [final]
  unfold result
  refine (k2_pay1_apply _ _ _ _ _ _ _ _ _).trans ?_
  unfold Out
  refine congrArg₂ (· + ·) (Finset.sum_congr rfl fun k _ => ?_) rfl
  have hb : (blk V c 0 (pointOf (ix2 r q)) : Vec Ideal S2048x128 .f32) (ix2 (⟨r.val % 2048, Nat.mod_lt _ (by decide)⟩ : Fin 2048) k)
      = inH V c (ix2 r k) :=
    blk0_apply V c _ _ _ (by show r.val = 2048 * (r.val / 2048) + r.val % 2048; omega) rfl
  rw [hb]
  rfl

end Cert.KernelIdeal.R2

end
-- ==== Proof.KI.Host.lean ====
/-
  The host operations between the calls, read at coordinates, at the ideal values.

  Before the first call the host flattens each image to a row, takes the signs of the first two layers' weights and
  biases, transposes the three weight matrices, and gives every vector of 256, 128 or 12 numbers a leading unit axis.
  Between the calls it divides the accumulated column sums and sums of squares by the batch size and forms the column
  variance as the mean of the squares minus the square of the mean. Every other buffer is carried unchanged.
-/
import proofs.«145499_j5368709120128_1_alg».proof.Proof.KI.Run
import proofs.«145499_j5368709120128_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Host

open Cert.KernelIdeal Cert.KernelIdeal.Gen Cert.KernelIdeal.Whole
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

/-! ## Before the first call -/

/-- The flattened input at (r, k) is the image r's pixel (k / 64, k mod 64). -/
theorem B1_v0_apply (r : Fin 16384) (k : Fin 4096) :
    (B1 m c main_v0 : S16384x4096.Idx → EReal) (ix2 r k)
      = Cert.Net.rowsOf (m ((c.tc : Thread nD τ).loc main_arg0) : S16384x1x64x64.Idx → EReal) r k := by
  show StableHlo.after hostOps0 (fun b => m (c, b)) (Proc.devRef .tc main_v0) (ix2 r k) = _
  after_results
  unfold Cert.Net.rowsOf
  refine shapeCast_apply (s := S16384x1x64x64) (t := S16384x4096) _ shapeCasts_S16384x1x64x64_S16384x4096 (ix2 r k)
    (ix4 r (0 : Fin 1) (⟨k.val / 64, by omega⟩ : Fin 64) (⟨k.val % 64, by omega⟩ : Fin 64)) ?_
  rw [Shape.rowMajor_val_four, Shape.rowMajor_val_two]
  show ((r.val * 1 + 0) * 64 + k.val / 64) * 64 + k.val % 64 = r.val * 4096 + k.val
  omega

/-- The first layer's weights as the kernel reads them: at (k, j) the sign of the weight (j, k). -/
theorem B1_v3_apply (k : Fin 4096) (j : Fin 256) :
    (B1 m c main_v3 : S4096x256.Idx → EReal) (ix2 k j)
      = Ideal.sign ((m ((c.tc : Thread nD τ).loc main_arg1) : S256x4096.Idx → EReal) (ix2 j k)) := by
  show StableHlo.after hostOps0 (fun b => m (c, b)) (Proc.devRef .tc main_v3) (ix2 k j) = _
  after_results
  refine (truncf_apply _ bitsLt_bf16_f32 (ix2 k j)).trans ?_
  refine (transpose_ix2_apply _ transposes_S256x4096_S4096x256_1_0 k j).trans ?_
  rfl

/-- The first layer's bias as a row: at (0, j) the sign of the bias j. -/
theorem B1_v5_apply (j : Fin 256) :
    (B1 m c main_v5 : S1x256.Idx → EReal) (ix2 0 j)
      = Ideal.sign ((m ((c.tc : Thread nD τ).loc main_arg2) : S256.Idx → EReal) (ix1 j)) := by
  show StableHlo.after hostOps0 (fun b => m (c, b)) (Proc.devRef .tc main_v5) (ix2 0 j) = _
  after_results
  exact shapeCast_a_1a_apply _ shapeCasts_S256_S1x256 0 j

/-- The second layer's weights as the kernel reads them: at (k, j) the sign of the weight (j, k). -/
theorem B1_v8_apply (k : Fin 256) (j : Fin 128) :
    (B1 m c main_v8 : S256x128.Idx → EReal) (ix2 k j)
      = Ideal.sign ((m ((c.tc : Thread nD τ).loc main_arg5) : S128x256.Idx → EReal) (ix2 j k)) := by
  show StableHlo.after hostOps0 (fun b => m (c, b)) (Proc.devRef .tc main_v8) (ix2 k j) = _
  after_results
  refine (truncf_apply _ bitsLt_bf16_f32 (ix2 k j)).trans ?_
  refine (transpose_ix2_apply _ transposes_S128x256_S256x128_1_0 k j).trans ?_
  rfl

/-- The second layer's bias as a row: at (0, j) the sign of the bias j. -/
theorem B1_v10_apply (j : Fin 128) :
    (B1 m c main_v10 : S1x128.Idx → EReal) (ix2 0 j)
      = Ideal.sign ((m ((c.tc : Thread nD τ).loc main_arg6) : S128.Idx → EReal) (ix1 j)) := by
  show StableHlo.after hostOps0 (fun b => m (c, b)) (Proc.devRef .tc main_v10) (ix2 0 j) = _
  after_results
  exact shapeCast_a_1a_apply _ shapeCasts_S128_S1x128 0 j

/-- The third layer's weights as the kernel reads them: at (k, j) the weight (j, k). -/
theorem B1_v12_apply (k : Fin 128) (j : Fin 12) :
    (B1 m c main_v12 : S128x12.Idx → EReal) (ix2 k j)
      = (m ((c.tc : Thread nD τ).loc main_arg9) : S12x128.Idx → EReal) (ix2 j k) := by
  show StableHlo.after hostOps0 (fun b => m (c, b)) (Proc.devRef .tc main_v12) (ix2 k j) = _
  after_results
  exact transpose_ix2_apply _ transposes_S12x128_S128x12_1_0 k j

/-- The third layer's bias as a row. -/
theorem B1_v13_apply (j : Fin 12) :
    (B1 m c main_v13 : S1x12.Idx → EReal) (ix2 0 j)
      = (m ((c.tc : Thread nD τ).loc main_arg10) : S12.Idx → EReal) (ix1 j) := by
  show StableHlo.after hostOps0 (fun b => m (c, b)) (Proc.devRef .tc main_v13) (ix2 0 j) = _
  after_results
  exact shapeCast_a_1a_apply _ shapeCasts_S12_S1x12 0 j

/-- The first normalization's scale as a row. -/
theorem B1_v14_apply (j : Fin 256) :
    (B1 m c main_v14 : S1x256.Idx → EReal) (ix2 0 j)
      = (m ((c.tc : Thread nD τ).loc main_arg3) : S256.Idx → EReal) (ix1 j) := by
  show StableHlo.after hostOps0 (fun b => m (c, b)) (Proc.devRef .tc main_v14) (ix2 0 j) = _
  after_results
  exact shapeCast_a_1a_apply _ shapeCasts_S256_S1x256 0 j

/-- The first normalization's shift as a row. -/
theorem B1_v15_apply (j : Fin 256) :
    (B1 m c main_v15 : S1x256.Idx → EReal) (ix2 0 j)
      = (m ((c.tc : Thread nD τ).loc main_arg4) : S256.Idx → EReal) (ix1 j) := by
  show StableHlo.after hostOps0 (fun b => m (c, b)) (Proc.devRef .tc main_v15) (ix2 0 j) = _
  after_results
  exact shapeCast_a_1a_apply _ shapeCasts_S256_S1x256 0 j

/-- The second normalization's scale as a row. -/
theorem B1_v16_apply (j : Fin 128) :
    (B1 m c main_v16 : S1x128.Idx → EReal) (ix2 0 j)
      = (m ((c.tc : Thread nD τ).loc main_arg7) : S128.Idx → EReal) (ix1 j) := by
  show StableHlo.after hostOps0 (fun b => m (c, b)) (Proc.devRef .tc main_v16) (ix2 0 j) = _
  after_results
  exact shapeCast_a_1a_apply _ shapeCasts_S128_S1x128 0 j

/-- The second normalization's shift as a row. -/
theorem B1_v17_apply (j : Fin 128) :
    (B1 m c main_v17 : S1x128.Idx → EReal) (ix2 0 j)
      = (m ((c.tc : Thread nD τ).loc main_arg8) : S128.Idx → EReal) (ix1 j) := by
  show StableHlo.after hostOps0 (fun b => m (c, b)) (Proc.devRef .tc main_v17) (ix2 0 j) = _
  after_results
  exact shapeCast_a_1a_apply _ shapeCasts_S128_S1x128 0 j

/-! ## Between the first and the second call -/

/-- The first layer's column means: the accumulated column sums divided by the batch size. -/
theorem B3_v20_apply (j : Fin 256) :
    (B3 m c main_v20 : S1x256.Idx → EReal) (ix2 0 j)
      = Ideal.div ((B2 m c main_v18_1 : S1x256.Idx → EReal) (ix2 0 j)) Cert.Net.batch := by
  show StableHlo.after hostOps1 (B2 m c) (Proc.devRef .tc main_v20) (ix2 0 j) = _
  after_results
  rfl

/-- The first layer's column variances: the accumulated column sums of squares divided by the batch size, minus the
    square of the column sums divided by the batch size. -/
theorem B3_v24_apply (j : Fin 256) :
    (B3 m c main_v24 : S1x256.Idx → EReal) (ix2 0 j)
      = Ideal.div ((B2 m c main_v18_2 : S1x256.Idx → EReal) (ix2 0 j)) Cert.Net.batch
        - Ideal.div ((B2 m c main_v18_1 : S1x256.Idx → EReal) (ix2 0 j)) Cert.Net.batch
          * Ideal.div ((B2 m c main_v18_1 : S1x256.Idx → EReal) (ix2 0 j)) Cert.Net.batch := by
  show StableHlo.after hostOps1 (B2 m c) (Proc.devRef .tc main_v24) (ix2 0 j) = _
  after_results
  rfl

/-- The same with the column mean named: whatever the mean buffer holds at the column, the variance buffer holds the
    mean of the squares minus its square. -/
theorem B3_v24_of_mean (j : Fin 256) (μ : EReal) (hμ : (B3 m c main_v20 : S1x256.Idx → EReal) (ix2 0 j) = μ) :
    (B3 m c main_v24 : S1x256.Idx → EReal) (ix2 0 j)
      = Ideal.div ((B2 m c main_v18_2 : S1x256.Idx → EReal) (ix2 0 j)) Cert.Net.batch - μ * μ := by
  rw [B3_v24_apply, ← hμ, B3_v20_apply]

/-! ## Between the second and the third call -/

/-- The second layer's column means: the accumulated column sums divided by the batch size. -/
theorem B5_v27_apply (j : Fin 128) :
    (B5 m c main_v27 : S1x128.Idx → EReal) (ix2 0 j)
      = Ideal.div ((B4 m c main_v25_1 : S1x128.Idx → EReal) (ix2 0 j)) Cert.Net.batch := by
  show StableHlo.after hostOps2 (B4 m c) (Proc.devRef .tc main_v27) (ix2 0 j) = _
  after_results
  rfl

/-- The second layer's column variances: the accumulated column sums of squares divided by the batch size, minus the
    square of the column sums divided by the batch size. -/
theorem B5_v31_apply (j : Fin 128) :
    (B5 m c main_v31 : S1x128.Idx → EReal) (ix2 0 j)
      = Ideal.div ((B4 m c main_v25_2 : S1x128.Idx → EReal) (ix2 0 j)) Cert.Net.batch
        - Ideal.div ((B4 m c main_v25_1 : S1x128.Idx → EReal) (ix2 0 j)) Cert.Net.batch
          * Ideal.div ((B4 m c main_v25_1 : S1x128.Idx → EReal) (ix2 0 j)) Cert.Net.batch := by
  show StableHlo.after hostOps2 (B4 m c) (Proc.devRef .tc main_v31) (ix2 0 j) = _
  after_results
  rfl

/-- The same with the column mean named. -/
theorem B5_v31_of_mean (j : Fin 128) (μ : EReal) (hμ : (B5 m c main_v27 : S1x128.Idx → EReal) (ix2 0 j) = μ) :
    (B5 m c main_v31 : S1x128.Idx → EReal) (ix2 0 j)
      = Ideal.div ((B4 m c main_v25_2 : S1x128.Idx → EReal) (ix2 0 j)) Cert.Net.batch - μ * μ := by
  rw [B5_v31_apply, ← hμ, B5_v27_apply]

/-! ## What is carried unchanged

A buffer the first call does not write back and the host operations before the second call do not write holds at the
second call what it held at the first; likewise from the second call to the third. -/

/-- Neither the first call nor the host operations after it write this buffer. -/
theorem B3_eq_B1 (r : Ref sig .tc) (h1 : r ∉ hostOps1_W) (a0 : ∀ w, Pipeline.arrRef spec0 w ≠ r) :
    B3 m c (Proc.devRef .tc r) = B1 m c (Proc.devRef .tc r) :=
  (StableHlo.after_of_writes_sub hostOps1 _ hostOps1_writes h1).trans (B2_of_ne m c r a0)

/-- Neither the second call nor the host operations after it write this buffer. -/
theorem B5_eq_B3 (r : Ref sig .tc) (h2 : r ∉ hostOps2_W) (a1 : ∀ w, Pipeline.arrRef spec1 w ≠ r) :
    B5 m c (Proc.devRef .tc r) = B3 m c (Proc.devRef .tc r) :=
  (StableHlo.after_of_writes_sub hostOps2 _ hostOps2_writes h2).trans (B4_of_ne m c r a1)

theorem B3_v14 : B3 m c (Proc.devRef .tc main_v14) = B1 m c (Proc.devRef .tc main_v14) := B3_eq_B1 m c main_v14 (by decide) (by decide)
theorem B3_v15 : B3 m c (Proc.devRef .tc main_v15) = B1 m c (Proc.devRef .tc main_v15) := B3_eq_B1 m c main_v15 (by decide) (by decide)
theorem B3_v8 : B3 m c (Proc.devRef .tc main_v8) = B1 m c (Proc.devRef .tc main_v8) := B3_eq_B1 m c main_v8 (by decide) (by decide)
theorem B3_v10 : B3 m c (Proc.devRef .tc main_v10) = B1 m c (Proc.devRef .tc main_v10) := B3_eq_B1 m c main_v10 (by decide) (by decide)
theorem B3_v16 : B3 m c (Proc.devRef .tc main_v16) = B1 m c (Proc.devRef .tc main_v16) := B3_eq_B1 m c main_v16 (by decide) (by decide)
theorem B3_v17 : B3 m c (Proc.devRef .tc main_v17) = B1 m c (Proc.devRef .tc main_v17) := B3_eq_B1 m c main_v17 (by decide) (by decide)
theorem B3_v12 : B3 m c (Proc.devRef .tc main_v12) = B1 m c (Proc.devRef .tc main_v12) := B3_eq_B1 m c main_v12 (by decide) (by decide)
theorem B3_v13 : B3 m c (Proc.devRef .tc main_v13) = B1 m c (Proc.devRef .tc main_v13) := B3_eq_B1 m c main_v13 (by decide) (by decide)

/-- The first layer's stored block is not written by the host operations after the first call. -/
theorem B3_v18_0 : B3 m c (Proc.devRef .tc main_v18_0) = B2 m c (Proc.devRef .tc main_v18_0) :=
  StableHlo.after_of_writes_sub hostOps1 _ hostOps1_writes (by decide)

theorem B5_v16 : B5 m c (Proc.devRef .tc main_v16) = B3 m c (Proc.devRef .tc main_v16) := B5_eq_B3 m c main_v16 (by decide) (by decide)
theorem B5_v17 : B5 m c (Proc.devRef .tc main_v17) = B3 m c (Proc.devRef .tc main_v17) := B5_eq_B3 m c main_v17 (by decide) (by decide)
theorem B5_v12 : B5 m c (Proc.devRef .tc main_v12) = B3 m c (Proc.devRef .tc main_v12) := B5_eq_B3 m c main_v12 (by decide) (by decide)
theorem B5_v13 : B5 m c (Proc.devRef .tc main_v13) = B3 m c (Proc.devRef .tc main_v13) := B5_eq_B3 m c main_v13 (by decide) (by decide)

/-- The second layer's stored block is not written by the host operations after the second call. -/
theorem B5_v25_0 : B5 m c (Proc.devRef .tc main_v25_0) = B4 m c (Proc.devRef .tc main_v25_0) :=
  StableHlo.after_of_writes_sub hostOps2 _ hostOps2_writes (by decide)

end Cert.KernelIdeal.Host

end
-- ==== Proof.KI.Net.lean ====
/-
  The kernel's result array is the network of Spec.lean with each column's variance taken as the mean of the squares
  minus the square of the mean.

  The program is host operations, the first call, host operations, the second call, host operations, the third call.
  Each call's result arrays are known entry by entry as a closed form of the arrays the call is entered with, and the
  host operations before it are known at coordinates. Composing them layer by layer: the first call leaves the first
  layer before normalization together with its column sums and column sums of squares; the host turns those into the
  column means and variances; the second call normalizes, clips, and leaves the second layer before normalization with
  its column sums and sums of squares; the host again forms means and variances; the third call normalizes, clips and
  applies the last linear layer.
-/
import proofs.«145499_j5368709120128_1_alg».proof.Proof.KI.A0
import proofs.«145499_j5368709120128_1_alg».proof.Proof.KI.A1
import proofs.«145499_j5368709120128_1_alg».proof.Proof.KI.A2
import proofs.«145499_j5368709120128_1_alg».proof.Proof.KI.Host
import proofs.«145499_j5368709120128_1_alg».proof.Proof.Spec

noncomputable section

namespace Cert.KernelIdeal.Net

open Cert.KernelIdeal Cert.KernelIdeal.Gen Cert.KernelIdeal.Whole Cert.KernelIdeal.Host
open Idealize.ShloMosaic Idealize.ShloMosaic.TcCoe Idealize.ShloMosaic.ValueIdx Idealize.SL.Sem
open Cert.Net (rowsOf pre1 mean varOfSquares act act1 pre2 act2 out netBySquares hi lo eps batch)

variable (m : (ℓ : Loc nD τ sig) → Buf (Elt Ideal) ℓ) (c : Dev nD)

set_option quotPrecheck false
local notation "aX" => (m ((c.tc : Thread nD τ).loc main_arg0) : S16384x1x64x64.Idx → EReal)
local notation "aW1" => (m ((c.tc : Thread nD τ).loc main_arg1) : S256x4096.Idx → EReal)
local notation "ab1" => (m ((c.tc : Thread nD τ).loc main_arg2) : S256.Idx → EReal)
local notation "ag1" => (m ((c.tc : Thread nD τ).loc main_arg3) : S256.Idx → EReal)
local notation "abe1" => (m ((c.tc : Thread nD τ).loc main_arg4) : S256.Idx → EReal)
local notation "aW2" => (m ((c.tc : Thread nD τ).loc main_arg5) : S128x256.Idx → EReal)
local notation "ab2" => (m ((c.tc : Thread nD τ).loc main_arg6) : S128.Idx → EReal)
local notation "ag2" => (m ((c.tc : Thread nD τ).loc main_arg7) : S128.Idx → EReal)
local notation "abe2" => (m ((c.tc : Thread nD τ).loc main_arg8) : S128.Idx → EReal)
local notation "aW4" => (m ((c.tc : Thread nD τ).loc main_arg9) : S12x128.Idx → EReal)
local notation "ab4" => (m ((c.tc : Thread nD τ).loc main_arg10) : S12.Idx → EReal)

/-! ## The first call

The arrays it is entered with, at coordinates; then its three result arrays; then the host's means and variances. -/

theorem inX0 (r : Fin 16384) (k : Fin 4096) : R0.inX (E1 m) c (ix2 r k) = rowsOf aX r k := B1_v0_apply m c r k
theorem inW0 (k : Fin 4096) (j : Fin 256) : R0.inW (E1 m) c (ix2 k j) = Ideal.sign (aW1 (ix2 j k)) :=
  B1_v3_apply m c k j
theorem inB0 (j : Fin 256) : R0.inB (E1 m) c (ix2 0 j) = Ideal.sign (ab1 (ix1 j)) := B1_v5_apply m c j

/-- The first call's pre-activation, from the arrays the host prepared, is the first layer before normalization. -/
theorem H0_eq (r : Fin 16384) (j : Fin 256) : R0.H (E1 m) c r j = pre1 aX aW1 ab1 r j := by
  unfold R0.H
  simp only [inX0, inW0, inB0]
  rfl

theorem arr_pre1 (r : Fin 16384) (j : Fin 256) :
    (B2 m c main_v18_0 : S16384x256.Idx → EReal) (ix2 r j) = pre1 aX aW1 ab1 r j := by
  have e : (B2 m c main_v18_0 : S16384x256.Idx → EReal) = (R0.dat (E1 m) c).arrAt 3 cfg0.N := B2_arr m c 3
  rw [e, R0.final_pre, H0_eq]

theorem arr_sum1 (j : Fin 256) :
    (B2 m c main_v18_1 : S1x256.Idx → EReal) (ix2 0 j) = (∑ r : Fin 16384, pre1 aX aW1 ab1 r j : EReal) := by
  have e : (B2 m c main_v18_1 : S1x256.Idx → EReal) = (R0.dat (E1 m) c).arrAt 4 cfg0.N := B2_arr m c 4
  rw [e, R0.final_sum]
  simp only [H0_eq]

theorem arr_sq1 (j : Fin 256) :
    (B2 m c main_v18_2 : S1x256.Idx → EReal) (ix2 0 j)
      = (∑ r : Fin 16384, pre1 aX aW1 ab1 r j * pre1 aX aW1 ab1 r j : EReal) := by
  have e : (B2 m c main_v18_2 : S1x256.Idx → EReal) = (R0.dat (E1 m) c).arrAt 5 cfg0.N := B2_arr m c 5
  rw [e, R0.final_sq]
  simp only [H0_eq]

theorem arr_mean1 (j : Fin 256) :
    (B3 m c main_v20 : S1x256.Idx → EReal) (ix2 0 j) = mean (pre1 aX aW1 ab1) j := by
  rw [B3_v20_apply, arr_sum1]
  rfl

theorem arr_var1 (j : Fin 256) :
    (B3 m c main_v24 : S1x256.Idx → EReal) (ix2 0 j) = varOfSquares (pre1 aX aW1 ab1) j := by
  rw [B3_v24_apply, arr_sq1, arr_sum1]
  rfl

/-! ## The second call

The arrays it is entered with, at coordinates; then its three result arrays; then the host's means and variances. -/

theorem inH1 (r : Fin 16384) (k : Fin 256) : R1.inH (E3 m) c (ix2 r k) = pre1 aX aW1 ab1 r k := by
  show (B3 m c main_v18_0 : S16384x256.Idx → EReal) (ix2 r k) = _
  rw [B3_v18_0]
  exact arr_pre1 m c r k
theorem inMean1 (k : Fin 256) : R1.inMean (E3 m) c (ix2 0 k) = mean (pre1 aX aW1 ab1) k := arr_mean1 m c k
theorem inVar1 (k : Fin 256) : R1.inVar (E3 m) c (ix2 0 k) = varOfSquares (pre1 aX aW1 ab1) k := arr_var1 m c k
theorem inG1 (k : Fin 256) : R1.inG (E3 m) c (ix2 0 k) = ag1 (ix1 k) := by
  show (B3 m c main_v14 : S1x256.Idx → EReal) (ix2 0 k) = _
  rw [B3_v14]
  exact B1_v14_apply m c k
theorem inBe1 (k : Fin 256) : R1.inBe (E3 m) c (ix2 0 k) = abe1 (ix1 k) := by
  show (B3 m c main_v15 : S1x256.Idx → EReal) (ix2 0 k) = _
  rw [B3_v15]
  exact B1_v15_apply m c k
theorem inW1 (k : Fin 256) (q : Fin 128) : R1.inW (E3 m) c (ix2 k q) = Ideal.sign (aW2 (ix2 q k)) := by
  show (B3 m c main_v8 : S256x128.Idx → EReal) (ix2 k q) = _
  rw [B3_v8]
  exact B1_v8_apply m c k q
theorem inB1 (q : Fin 128) : R1.inB (E3 m) c (ix2 0 q) = Ideal.sign (ab2 (ix1 q)) := by
  show (B3 m c main_v10 : S1x128.Idx → EReal) (ix2 0 q) = _
  rw [B3_v10]
  exact B1_v10_apply m c q

/-- The second call's pre-activation is the second layer before normalization, the first layer's variance having been
    taken as the mean of the squares minus the square of the mean. -/
theorem H1_eq (r : Fin 16384) (q : Fin 128) :
    R1.H (E3 m) c r q = pre2 (@varOfSquares) aX aW1 ab1 ag1 abe1 aW2 ab2 r q := by
  unfold R1.H
  simp only [inH1, inMean1, inVar1, inG1, inBe1, inW1, inB1]
  rfl

theorem arr_pre2 (r : Fin 16384) (q : Fin 128) :
    (B4 m c main_v25_0 : S16384x128.Idx → EReal) (ix2 r q)
      = pre2 (@varOfSquares) aX aW1 ab1 ag1 abe1 aW2 ab2 r q := by
  have e : (B4 m c main_v25_0 : S16384x128.Idx → EReal) = (R1.dat (E3 m) c).arrAt 7 cfg1.N := B4_arr m c 7
  rw [e, R1.final_pre, H1_eq]

theorem arr_sum2 (q : Fin 128) :
    (B4 m c main_v25_1 : S1x128.Idx → EReal) (ix2 0 q)
      = (∑ r : Fin 16384, pre2 (@varOfSquares) aX aW1 ab1 ag1 abe1 aW2 ab2 r q : EReal) := by
  have e : (B4 m c main_v25_1 : S1x128.Idx → EReal) = (R1.dat (E3 m) c).arrAt 8 cfg1.N := B4_arr m c 8
  rw [e, R1.final_sum]
  simp only [H1_eq]

theorem arr_sq2 (q : Fin 128) :
    (B4 m c main_v25_2 : S1x128.Idx → EReal) (ix2 0 q)
      = (∑ r : Fin 16384, pre2 (@varOfSquares) aX aW1 ab1 ag1 abe1 aW2 ab2 r q
          * pre2 (@varOfSquares) aX aW1 ab1 ag1 abe1 aW2 ab2 r q : EReal) := by
  have e : (B4 m c main_v25_2 : S1x128.Idx → EReal) = (R1.dat (E3 m) c).arrAt 9 cfg1.N := B4_arr m c 9
  rw [e, R1.final_sq]
  simp only [H1_eq]

theorem arr_mean2 (q : Fin 128) :
    (B5 m c main_v27 : S1x128.Idx → EReal) (ix2 0 q)
      = mean (pre2 (@varOfSquares) aX aW1 ab1 ag1 abe1 aW2 ab2) q := by
  rw [B5_v27_apply, arr_sum2]
  rfl

theorem arr_var2 (q : Fin 128) :
    (B5 m c main_v31 : S1x128.Idx → EReal) (ix2 0 q)
      = varOfSquares (pre2 (@varOfSquares) aX aW1 ab1 ag1 abe1 aW2 ab2) q := by
  rw [B5_v31_apply, arr_sq2, arr_sum2]
  rfl

/-! ## The third call

The arrays it is entered with, at coordinates; then its result array. -/

theorem inH2 (r : Fin 16384) (k : Fin 128) :
    R2.inH (E5 m) c (ix2 r k) = pre2 (@varOfSquares) aX aW1 ab1 ag1 abe1 aW2 ab2 r k := by
  show (B5 m c main_v25_0 : S16384x128.Idx → EReal) (ix2 r k) = _
  rw [B5_v25_0]
  exact arr_pre2 m c r k
theorem inMean2 (k : Fin 128) :
    R2.inMean (E5 m) c (ix2 0 k) = mean (pre2 (@varOfSquares) aX aW1 ab1 ag1 abe1 aW2 ab2) k := arr_mean2 m c k
theorem inVar2 (k : Fin 128) :
    R2.inVar (E5 m) c (ix2 0 k) = varOfSquares (pre2 (@varOfSquares) aX aW1 ab1 ag1 abe1 aW2 ab2) k :=
  arr_var2 m c k
theorem inG2 (k : Fin 128) : R2.inG (E5 m) c (ix2 0 k) = ag2 (ix1 k) := by
  show (B5 m c main_v16 : S1x128.Idx → EReal) (ix2 0 k) = _
  rw [B5_v16, B3_v16]
  exact B1_v16_apply m c k
theorem inBe2 (k : Fin 128) : R2.inBe (E5 m) c (ix2 0 k) = abe2 (ix1 k) := by
  show (B5 m c main_v17 : S1x128.Idx → EReal) (ix2 0 k) = _
  rw [B5_v17, B3_v17]
  exact B1_v17_apply m c k
theorem inW2 (k : Fin 128) (q : Fin 12) : R2.inW (E5 m) c (ix2 k q) = aW4 (ix2 q k) := by
  show (B5 m c main_v12 : S128x12.Idx → EReal) (ix2 k q) = _
  rw [B5_v12, B3_v12]
  exact B1_v12_apply m c k q
theorem inB2 (q : Fin 12) : R2.inB (E5 m) c (ix2 0 q) = ab4 (ix1 q) := by
  show (B5 m c main_v13 : S1x12.Idx → EReal) (ix2 0 q) = _
  rw [B5_v13, B3_v13]
  exact B1_v13_apply m c q

/-- The third call's result at (r, q) is the network's, with both variances taken as the mean of the squares minus
    the square of the mean. -/
theorem Out_eq (r : Fin 16384) (q : Fin 12) :
    R2.Out (E5 m) c r q = netBySquares aX aW1 ab1 ag1 abe1 aW2 ab2 ag2 abe2 aW4 ab4 (ix2 r q) := by
  unfold R2.Out
  simp only [inH2, inMean2, inVar2, inG2, inBe2, inW2, inB2]
  rfl

/-- THE KERNEL'S RESULT ARRAY, after the third call, is the network of the argument arrays' launch contents. -/
theorem kernel_is_net :
    ((R2.dat (E5 m) c).arrAt 7 cfg2.N : S16384x12.Idx → EReal)
      = netBySquares aX aW1 ab1 ag1 abe1 aW2 ab2 ag2 abe2 aW4 ab4 := by
  funext i
  obtain ⟨r, q, rfl⟩ : ∃ (r : Fin 16384) (q : Fin 12), i = ix2 r q := ⟨i 0, i 1, eq_ix2 i⟩
  rw [R2.final_apply, Out_eq]

end Cert.KernelIdeal.Net

end
-- ==== Proof.RefIsNet.lean ====
/-
  The reference program's result, read index by index, is the network of Spec.lean with each column's variance
  taken as the mean of the squared deviations from the column's mean.

  The reference is a straight line of array operations. Each stage below reads one group of them at explicit
  coordinates: a linear layer (a contraction over k, plus a broadcast row of bias signs), a column mean (a sum over the
  16384 rows divided by the batch size), a column variance (the same sum of the squared deviations), and the
  normalization followed by the clip (a maximum with -1, then a minimum with 1). The sums start from the zero word,
  which denotes 0. Two layers of these, then the last linear layer.
-/
import proofs.«145499_j5368709120128_1_alg».proof.Proof.Gen.ReferenceIdeal.Read
import proofs.«145499_j5368709120128_1_alg».proof.Proof.Spec

noncomputable section

namespace Cert.RefNet

open Cert.ReferenceIdeal Cert.ReferenceIdeal.Gen Cert.ReferenceIdeal.Read Idealize.ShloMosaic
  Idealize.ShloMosaic.ValueIdx Cert.Net

variable (x : (⟨4, ![16384, 1, 64, 64]⟩ : Shape).Idx → EReal)
  (W1 : (⟨2, ![256, 4096]⟩ : Shape).Idx → EReal) (b1 g1 be1 : (⟨1, ![256]⟩ : Shape).Idx → EReal)
  (W2 : (⟨2, ![128, 256]⟩ : Shape).Idx → EReal) (b2 g2 be2 : (⟨1, ![128]⟩ : Shape).Idx → EReal)
  (W4 : (⟨2, ![12, 128]⟩ : Shape).Idx → EReal) (b4 : (⟨1, ![12]⟩ : Shape).Idx → EReal)

/-! ## Layer 1: where each operation reads its operands -/

/-- Entry (r, k) of the flattened input is pixel (k / 64, k mod 64) of image r. -/
theorem idx_x (r : Fin 16384) (j : Fin 256) (k : Fin 4096) :
    idx_main_v0 (lidx_main_v3 (ix2 r j) k)
      = ix4 r (0 : Fin 1) (⟨k.val / 64, by omega⟩ : Fin 64) (⟨k.val % 64, by omega⟩ : Fin 64) := by
  funext a
  refine Fin.ext ?_
  match a with
  | ⟨0, _⟩ => show (r.val * 4096 + k.val) / 4096 = r.val; omega
  | ⟨1, _⟩ => rfl
  | ⟨2, _⟩ => show (r.val * 4096 + k.val) / 64 % 64 = k.val / 64; omega
  | ⟨3, _⟩ => show (r.val * 4096 + k.val) % 64 = k.val % 64; omega

/-- Entry (k, j) of the transposed weight signs is entry (j, k) of the weights. -/
theorem idx_w1 (r : Fin 16384) (j : Fin 256) (k : Fin 4096) :
    idx_main_v2 (ridx_main_v3 (ix2 r j) k) = ix2 j k := by
  funext a
  match a with
  | ⟨0, _⟩ => rfl
  | ⟨1, _⟩ => rfl

theorem idx_b1 (r : Fin 16384) (j : Fin 256) : idx_main_v5 (idx_main_v6 (ix2 r j)) = ix1 j := by
  funext a
  match a with
  | ⟨0, _⟩ => rfl

/-- The k-th term of a sum down column j is at (k, j). -/
theorem idx_col8 (j : Fin 256) (k : Fin 16384) : idx_main_v8 (ix1 j) k = ix2 k j := by
  funext a
  match a with
  | ⟨0, _⟩ => rfl
  | ⟨1, _⟩ => rfl

theorem idx_col15 (j : Fin 256) (k : Fin 16384) : idx_main_v15 (ix1 j) k = ix2 k j := by
  funext a
  match a with
  | ⟨0, _⟩ => rfl
  | ⟨1, _⟩ => rfl

/-- A per-column quantity broadcast to the rows is read at the column. -/
theorem idx_row12 (r : Fin 16384) (j : Fin 256) : idx_main_v11 (idx_main_v12 (ix2 r j)) = ix1 j := by
  funext a
  match a with
  | ⟨0, _⟩ => rfl

theorem idx_row19 (r : Fin 16384) (j : Fin 256) : idx_main_v18 (idx_main_v19 (ix2 r j)) = ix1 j := by
  funext a
  match a with
  | ⟨0, _⟩ => rfl

theorem idx_row25 (r : Fin 16384) (j : Fin 256) : idx_main_v24 (idx_main_v25 (ix2 r j)) = ix1 j := by
  funext a
  match a with
  | ⟨0, _⟩ => rfl

theorem idx_row28 (r : Fin 16384) (j : Fin 256) : idx_main_v27 (idx_main_v28 (ix2 r j)) = ix1 j := by
  funext a
  match a with
  | ⟨0, _⟩ => rfl

theorem idx_row31 (r : Fin 16384) (j : Fin 256) : idx_main_v30 (idx_main_v31 (ix2 r j)) = ix1 j := by
  funext a
  match a with
  | ⟨0, _⟩ => rfl

/-! ## Layer 1: the stages -/

/-- The first linear layer: x · sign(W1)ᵀ + sign(b1). -/
theorem v7_eq (r : Fin 16384) (j : Fin 256) :
    val_main_v7 (F := Ideal) x W1 b1 (ix2 r j) = pre1 x W1 b1 r j := by
  rw [val_main_v7_apply, val_main_v3_apply, val_main_v6_apply, val_main_v5_apply, val_main_v4_apply]
  simp only [val_main_v0_apply, val_main_v2_apply, val_main_v1_apply, idx_x, idx_w1, idx_b1, Ideal.addf_def,
    Ideal.hostUnary_sign_def]
  rfl

/-- Its column means. -/
theorem v10_eq (j : Fin 256) :
    val_main_v10 (F := Ideal) x W1 b1 (ix1 j) = mean (pre1 x W1 b1) j := by
  rw [val_main_v10_apply, val_main_v8_apply, val_main_v9_apply, val_main_cst_0_apply, val_main_cst_apply]
  simp only [idx_col8, v7_eq, Ideal.hostDivf_def, Ideal.ofBits_def, Ideal.ofBits_zero_f32, zero_add]
  rfl

/-- Its column variances, as the mean of the squared deviations. -/
theorem v17_eq (j : Fin 256) :
    val_main_v17 (F := Ideal) x W1 b1 (ix1 j) = varOfDeviations (pre1 x W1 b1) j := by
  rw [val_main_v17_apply, val_main_v15_apply, val_main_v16_apply, val_main_cst_2_apply, val_main_cst_1_apply]
  simp only [val_main_v14_apply, val_main_v13_apply, val_main_v12_apply, val_main_v11_apply, idx_col15, idx_row12,
    v7_eq, v10_eq, Ideal.hostDivf_def, Ideal.mulf_def, Ideal.subf_def, Ideal.ofBits_def, Ideal.ofBits_zero_f32,
    zero_add]
  rfl

/-- The normalized and clipped first layer. -/
theorem v33_eq (r : Fin 16384) (j : Fin 256) :
    val_main_v33 (F := Ideal) x W1 b1 g1 be1 (ix2 r j) = act1 (@varOfDeviations) x W1 b1 g1 be1 r j := by
  simp only [val_main_v33_apply, val_main_call0_v4_apply, val_main_call0_v3_apply, val_main_cst_5_apply,
    val_main_call0_v2_apply, val_main_call0_v1_apply, val_main_call0_v0_apply, val_main_cst_4_apply,
    val_main_v32_apply, val_main_v31_apply, val_main_v30_apply, val_main_v29_apply, val_main_v28_apply,
    val_main_v27_apply, val_main_v26_apply, val_main_v25_apply, val_main_v24_apply, val_main_v23_apply,
    val_main_v22_apply, val_main_v21_apply, val_main_cst_3_apply, val_main_v20_apply, val_main_v19_apply,
    val_main_v18_apply, idx_row19, idx_row25, idx_row28, idx_row31, v7_eq, v10_eq, v17_eq,
    Ideal.minimumf_def, Ideal.maximumf_def, Ideal.addf_def, Ideal.mulf_def, Ideal.subf_def,
    Ideal.hostUnary_rsqrt_def, Ideal.ofBits_def]
  rfl

/-! ## Layer 2: where each operation reads its operands -/

theorem idx_a1 (r : Fin 16384) (j : Fin 128) (k : Fin 256) : lidx_main_v36 (ix2 r j) k = ix2 r k := by
  funext a
  match a with
  | ⟨0, _⟩ => rfl
  | ⟨1, _⟩ => rfl

theorem idx_w2 (r : Fin 16384) (j : Fin 128) (k : Fin 256) :
    idx_main_v35 (ridx_main_v36 (ix2 r j) k) = ix2 j k := by
  funext a
  match a with
  | ⟨0, _⟩ => rfl
  | ⟨1, _⟩ => rfl

theorem idx_b2 (r : Fin 16384) (j : Fin 128) : idx_main_v38 (idx_main_v39 (ix2 r j)) = ix1 j := by
  funext a
  match a with
  | ⟨0, _⟩ => rfl

theorem idx_col41 (j : Fin 128) (k : Fin 16384) : idx_main_v41 (ix1 j) k = ix2 k j := by
  funext a
  match a with
  | ⟨0, _⟩ => rfl
  | ⟨1, _⟩ => rfl

theorem idx_col48 (j : Fin 128) (k : Fin 16384) : idx_main_v48 (ix1 j) k = ix2 k j := by
  funext a
  match a with
  | ⟨0, _⟩ => rfl
  | ⟨1, _⟩ => rfl

theorem idx_row45 (r : Fin 16384) (j : Fin 128) : idx_main_v44 (idx_main_v45 (ix2 r j)) = ix1 j := by
  funext a
  match a with
  | ⟨0, _⟩ => rfl

theorem idx_row52 (r : Fin 16384) (j : Fin 128) : idx_main_v51 (idx_main_v52 (ix2 r j)) = ix1 j := by
  funext a
  match a with
  | ⟨0, _⟩ => rfl

theorem idx_row58 (r : Fin 16384) (j : Fin 128) : idx_main_v57 (idx_main_v58 (ix2 r j)) = ix1 j := by
  funext a
  match a with
  | ⟨0, _⟩ => rfl

theorem idx_row61 (r : Fin 16384) (j : Fin 128) : idx_main_v60 (idx_main_v61 (ix2 r j)) = ix1 j := by
  funext a
  match a with
  | ⟨0, _⟩ => rfl

theorem idx_row64 (r : Fin 16384) (j : Fin 128) : idx_main_v63 (idx_main_v64 (ix2 r j)) = ix1 j := by
  funext a
  match a with
  | ⟨0, _⟩ => rfl

/-! ## Layer 2: the stages -/

/-- The second linear layer: act1 · sign(W2)ᵀ + sign(b2). -/
theorem v40_eq (r : Fin 16384) (j : Fin 128) :
    val_main_v40 (F := Ideal) x W1 b1 g1 be1 W2 b2 (ix2 r j)
      = pre2 (@varOfDeviations) x W1 b1 g1 be1 W2 b2 r j := by
  rw [val_main_v40_apply, val_main_v36_apply, val_main_v39_apply, val_main_v38_apply, val_main_v37_apply]
  simp only [idx_a1, v33_eq, val_main_v35_apply, val_main_v34_apply, idx_w2, idx_b2, Ideal.addf_def,
    Ideal.hostUnary_sign_def]
  rfl

/-- Its column means. -/
theorem v43_eq (j : Fin 128) :
    val_main_v43 (F := Ideal) x W1 b1 g1 be1 W2 b2 (ix1 j)
      = mean (pre2 (@varOfDeviations) x W1 b1 g1 be1 W2 b2) j := by
  rw [val_main_v43_apply, val_main_v41_apply, val_main_v42_apply, val_main_cst_7_apply, val_main_cst_6_apply]
  simp only [idx_col41, v40_eq, Ideal.hostDivf_def, Ideal.ofBits_def, Ideal.ofBits_zero_f32, zero_add]
  rfl

/-- Its column variances, as the mean of the squared deviations. -/
theorem v50_eq (j : Fin 128) :
    val_main_v50 (F := Ideal) x W1 b1 g1 be1 W2 b2 (ix1 j)
      = varOfDeviations (pre2 (@varOfDeviations) x W1 b1 g1 be1 W2 b2) j := by
  rw [val_main_v50_apply, val_main_v48_apply, val_main_v49_apply, val_main_cst_9_apply, val_main_cst_8_apply]
  simp only [val_main_v47_apply, val_main_v46_apply, val_main_v45_apply, val_main_v44_apply, idx_col48, idx_row45,
    v40_eq, v43_eq, Ideal.hostDivf_def, Ideal.mulf_def, Ideal.subf_def, Ideal.ofBits_def, Ideal.ofBits_zero_f32,
    zero_add]
  rfl

/-- The normalized and clipped second layer. -/
theorem v66_eq (r : Fin 16384) (j : Fin 128) :
    val_main_v66 (F := Ideal) x W1 b1 g1 be1 W2 b2 g2 be2 (ix2 r j)
      = act2 (@varOfDeviations) x W1 b1 g1 be1 W2 b2 g2 be2 r j := by
  simp only [val_main_v66_apply, val_main_call1_v4_apply, val_main_call1_v3_apply, val_main_cst_12_apply,
    val_main_call1_v2_apply, val_main_call1_v1_apply, val_main_call1_v0_apply, val_main_cst_11_apply,
    val_main_v65_apply, val_main_v64_apply, val_main_v63_apply, val_main_v62_apply, val_main_v61_apply,
    val_main_v60_apply, val_main_v59_apply, val_main_v58_apply, val_main_v57_apply, val_main_v56_apply,
    val_main_v55_apply, val_main_v54_apply, val_main_cst_10_apply, val_main_v53_apply, val_main_v52_apply,
    val_main_v51_apply, idx_row52, idx_row58, idx_row61, idx_row64, v40_eq, v43_eq, v50_eq,
    Ideal.minimumf_def, Ideal.maximumf_def, Ideal.addf_def, Ideal.mulf_def, Ideal.subf_def,
    Ideal.hostUnary_rsqrt_def, Ideal.ofBits_def]
  rfl

/-! ## The last linear layer, and the whole program -/

theorem idx_a2 (r : Fin 16384) (c : Fin 12) (k : Fin 128) : lidx_main_v68 (ix2 r c) k = ix2 r k := by
  funext a
  match a with
  | ⟨0, _⟩ => rfl
  | ⟨1, _⟩ => rfl

theorem idx_w4 (r : Fin 16384) (c : Fin 12) (k : Fin 128) :
    idx_main_v67 (ridx_main_v68 (ix2 r c) k) = ix2 c k := by
  funext a
  match a with
  | ⟨0, _⟩ => rfl
  | ⟨1, _⟩ => rfl

theorem idx_b4 (r : Fin 16384) (c : Fin 12) : idx_main_v69 (idx_main_v70 (ix2 r c)) = ix1 c := by
  funext a
  match a with
  | ⟨0, _⟩ => rfl

/-- The result at (r, c): act2 · W4ᵀ + b4. -/
theorem v71_eq (r : Fin 16384) (c : Fin 12) :
    val_main_v71 (F := Ideal) x W1 b1 g1 be1 W2 b2 g2 be2 W4 b4 (ix2 r c)
      = netByDeviations x W1 b1 g1 be1 W2 b2 g2 be2 W4 b4 (ix2 r c) := by
  rw [val_main_v71_apply, val_main_v68_apply, val_main_v70_apply, val_main_v69_apply]
  simp only [idx_a2, v66_eq, val_main_v67_apply, idx_w4, idx_b4, Ideal.addf_def]
  rfl

/-- The reference's last stage, as a function of the eleven float argument arrays, is the network with the variance
    taken as the mean of the squared deviations. -/
theorem val_eq_net :
    val_main_v71 (F := Ideal) x W1 b1 g1 be1 W2 b2 g2 be2 W4 b4
      = netByDeviations x W1 b1 g1 be1 W2 b2 g2 be2 W4 b4 := by
  funext i
  obtain ⟨r, c, rfl⟩ : ∃ (r : Fin 16384) (c : Fin 12), i = ix2 r c := ⟨i 0, i 1, eq_ix2 i⟩
  exact v71_eq x W1 b1 g1 be1 W2 b2 g2 be2 W4 b4 r c

open Idealize.ShloMosaic.TcCoe Idealize.SL.Sem in
/-- The term the reference's run ends with, on every device, is that network of the argument arrays' launch contents
    (the twelfth argument, the integer labels, is not read). -/
theorem res_eq_net (m : (ℓ : Loc nD τ sig) → Buf (Elt Ideal) ℓ) (c : Dev nD) :
    Cert.ReferenceIdeal.Value.res_main_v71 m c
      = netByDeviations (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  (val_main_v71_eq m c).trans (val_eq_net _ _ _ _ _ _ _ _ _ _ _)

end Cert.RefNet

end
-- ==== Proof.LibBatchVariance.lean ====
/-
  The batch-variance law on the extended reals, and the facts about real-valued entries that feed it.

  For a column `h` of `n` REAL numbers (`n ≠ 0`), read in the extended reals, the mean of the squared deviations from
  the mean equals the mean of the squares minus the square of the mean. Every quantity is an extended real and the
  division by the real `n` is `Ideal.div`, which for a nonzero real divisor is the product with its reciprocal
  (`Ideal.div_coe`). With a column that has an infinite entry the law fails (a difference of infinities on one side
  only), hence the hypothesis that every entry is a real.

  The auxiliary facts say which entries are reals: a finite sum of coerced reals is the coerced sum; `Ideal.sign` of
  anything is one of -1, 0, 1; a value clipped between two reals is a real; a sum of products of reals plus a real is a
  real; and the float words for 16384, 1 and -1 denote those reals.
-/
import Idealize.ShloMosaic.PureOps.Ideal
import Idealize.ShloMosaic.PureOps.Ideal.Laws

noncomputable section

namespace Cert.BatchVariance

open Idealize.ShloMosaic

/-! ## Sums of reals in the extended reals -/

/-- A finite sum of coerced reals is the coerced sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The law -/

/-- Over the reals: with μ the mean, the mean of (h - μ)² is the mean of h² minus μ². -/
theorem real_law {n : ℕ} (hn : n ≠ 0) (h : Fin n → ℝ) :
    (∑ r, (h r - (∑ s, h s) * (1 / (n : ℝ))) * (h r - (∑ s, h s) * (1 / (n : ℝ)))) * (1 / (n : ℝ))
      = (∑ r, h r * h r) * (1 / (n : ℝ)) - (∑ s, h s) * (1 / (n : ℝ)) * ((∑ s, h s) * (1 / (n : ℝ))) := by
  have hn' : (n : ℝ) ≠ 0 := Nat.cast_ne_zero.mpr hn
  generalize hS : ∑ s, h s = S
  generalize hμ : S * (1 / (n : ℝ)) = μ
  have hSμ : S = n * μ := by rw [← hμ]; field_simp
  have e : ∑ r, (h r - μ) * (h r - μ) = (∑ r, h r * h r) - 2 * μ * S + n * (μ * μ) := by
    have hsq : ∀ r, (h r - μ) * (h r - μ) = h r * h r - 2 * μ * h r + μ * μ := fun r => by ring
    simp only [hsq, Finset.sum_add_distrib, Finset.sum_sub_distrib, ← Finset.mul_sum, hS, Finset.sum_const,
      Finset.card_univ, Fintype.card_fin, nsmul_eq_mul]
    ring
  rw [e, hSμ]
  field_simp
  ring

/-- Over the extended reals, for a column of reals: the mean of the squared deviations from the mean is the mean of
    the squares minus the square of the mean. -/
theorem variance_law {n : ℕ} (hn : n ≠ 0) (h : Fin n → ℝ) :
    Ideal.div (∑ r, ((h r : EReal) - Ideal.div (∑ s, (h s : EReal)) ((n : ℝ) : EReal))
        * ((h r : EReal) - Ideal.div (∑ s, (h s : EReal)) ((n : ℝ) : EReal))) ((n : ℝ) : EReal)
      = Ideal.div (∑ r, (h r : EReal) * (h r : EReal)) ((n : ℝ) : EReal)
        - Ideal.div (∑ s, (h s : EReal)) ((n : ℝ) : EReal) * Ideal.div (∑ s, (h s : EReal)) ((n : ℝ) : EReal) := by
  have hn' : (n : ℝ) ≠ 0 := Nat.cast_ne_zero.mpr hn
  simp only [Ideal.div_coe hn', coe_sum, ← EReal.coe_mul, ← EReal.coe_sub]
  exact congrArg _ (real_law hn h)

/-- The same for a column of extended reals every entry of which is a real. -/
theorem variance_law_of_real {n : ℕ} (hn : n ≠ 0) (h : Fin n → EReal) (hr : ∀ r, ∃ y : ℝ, h r = (y : EReal)) :
    Ideal.div (∑ r, (h r - Ideal.div (∑ s, h s) ((n : ℝ) : EReal)) * (h r - Ideal.div (∑ s, h s) ((n : ℝ) : EReal)))
        ((n : ℝ) : EReal)
      = Ideal.div (∑ r, h r * h r) ((n : ℝ) : EReal)
        - Ideal.div (∑ s, h s) ((n : ℝ) : EReal) * Ideal.div (∑ s, h s) ((n : ℝ) : EReal) := by
  choose y hy using hr
  obtain rfl : h = fun r => (y r : EReal) := funext hy
  exact variance_law hn y

/-! ## Which entries are reals -/

/-- `Ideal.sign` of any extended real is a real: -1, 0 or 1. -/
theorem sign_real (z : EReal) : ∃ y : ℝ, Ideal.sign z = (y : EReal) := by
  induction z using EReal.rec with
  | bot => exact ⟨-1, by simp⟩
  | top => exact ⟨1, by simp⟩
  | coe r => exact ⟨_, Ideal.sign_coe r⟩

/-- A value clipped between two reals is a real, whatever it was: it lies between them. -/
theorem clip_real {lo hi : ℝ} (hle : lo ≤ hi) (y : EReal) :
    ∃ z : ℝ, min (hi : EReal) (max (lo : EReal) y) = (z : EReal) := by
  refine ⟨(min (hi : EReal) (max (lo : EReal) y)).toReal, (EReal.coe_toReal ?_ ?_).symm⟩
  · exact ne_top_of_le_ne_top (EReal.coe_ne_top hi) (min_le_left _ _)
  · refine ne_bot_of_le_ne_bot (EReal.coe_ne_bot lo) (le_min ?_ (le_max_left _ _))
    exact_mod_cast hle

/-- A sum of products of reals, plus a real, is a real. -/
theorem sum_mul_add_real {K : ℕ} (a w : Fin K → EReal) (b : EReal) (ha : ∀ k, ∃ y : ℝ, a k = (y : EReal))
    (hw : ∀ k, ∃ y : ℝ, w k = (y : EReal)) (hb : ∃ y : ℝ, b = (y : EReal)) :
    ∃ y : ℝ, (∑ k, a k * w k) + b = (y : EReal) := by
  choose a' ha' using ha
  choose w' hw' using hw
  obtain ⟨b', rfl⟩ := hb
  refine ⟨(∑ k, a' k * w' k) + b', ?_⟩
  simp only [ha', hw', ← EReal.coe_mul, coe_sum, ← EReal.coe_add]

/-! ## The float words -/

/-- The word for the batch size denotes the real 16384. -/
theorem ofBits_batch : Ideal.ofBits .f32 0x46800000#32 = ((16384 : ℝ) : EReal) := by
  simp [Ideal.ofBits, Ideal.ieee, -EReal.coe_mul]; norm_num

/-- The word for the clip's upper bound denotes the real 1. -/
theorem ofBits_one : Ideal.ofBits .f32 0x3F800000#32 = ((1 : ℝ) : EReal) := by
  simp [Ideal.ofBits, Ideal.ieee, -EReal.coe_mul]; norm_num

/-- The word for the clip's lower bound denotes the real -1. -/
theorem ofBits_neg_one : Ideal.ofBits .f32 0xBF800000#32 = ((-1 : ℝ) : EReal) := by
  simp [Ideal.ofBits, Ideal.ieee, -EReal.coe_mul]; norm_num

end Cert.BatchVariance

end
-- ==== Proof.NetEq.lean ====
/-
  The two ways of writing the network agree when the input is real-valued.

  They differ only in how a column's variance is taken. For a column of reals the two variances agree (the
  batch-variance law). The first layer's columns are real: a sum of products of input entries (real by hypothesis)
  with signs (-1, 0 or 1), plus a sign. So the first normalized layer agrees. After the clip every entry lies in
  [-1, 1], hence is real whatever the scale and the shift are; so the second layer's columns are real as well, its
  two variances agree, and so do the second normalized layer and the result. Only the input needs to be finite.
-/
import proofs.«145499_j5368709120128_1_alg».proof.Proof.Spec
import proofs.«145499_j5368709120128_1_alg».proof.Proof.LibBatchVariance

noncomputable section

namespace Cert.Net

open Idealize.ShloMosaic Idealize.ShloMosaic.ValueIdx Cert.BatchVariance

/-- The batch size is the real 16384. -/
theorem batch_eq : batch = (((16384 : ℕ) : ℝ) : EReal) := by
  simp only [batch, ofBits_batch]
  norm_num

/-- For real-valued columns the two variances agree. -/
theorem var_eq {J : Type} (h : Fin 16384 → J → EReal) (hr : ∀ r j, ∃ y : ℝ, h r j = (y : EReal)) :
    varOfSquares h = varOfDeviations h := by
  funext j
  have e := variance_law_of_real (n := 16384) (by norm_num) (fun r => h r j) (fun r => hr r j)
  unfold varOfSquares varOfDeviations mean
  rw [batch_eq]
  exact e.symm

/-- A normalized and clipped entry is a real, whatever the variances, the scale and the shift are. -/
theorem act_real {J : Type} (h : Fin 16384 → J → EReal) (v g be : J → EReal) (r : Fin 16384) (j : J) :
    ∃ y : ℝ, act h v g be r j = (y : EReal) := by
  unfold act
  rw [show hi = ((1 : ℝ) : EReal) from ofBits_one, show lo = ((-1 : ℝ) : EReal) from ofBits_neg_one]
  exact clip_real (by norm_num) _

section Network

variable (var : ∀ {J : Type}, (Fin 16384 → J → EReal) → J → EReal)
variable (x : (⟨4, ![16384, 1, 64, 64]⟩ : Shape).Idx → EReal)
  (W1 : (⟨2, ![256, 4096]⟩ : Shape).Idx → EReal) (b1 g1 be1 : (⟨1, ![256]⟩ : Shape).Idx → EReal)
  (W2 : (⟨2, ![128, 256]⟩ : Shape).Idx → EReal) (b2 g2 be2 : (⟨1, ![128]⟩ : Shape).Idx → EReal)
  (W4 : (⟨2, ![12, 128]⟩ : Shape).Idx → EReal) (b4 : (⟨1, ![12]⟩ : Shape).Idx → EReal)

/-- The first layer before normalization is real-valued when the input is. -/
theorem pre1_real (hx : ∀ i, ∃ y : ℝ, x i = (y : EReal)) (r : Fin 16384) (j : Fin 256) :
    ∃ y : ℝ, pre1 x W1 b1 r j = (y : EReal) := by
  show ∃ y : ℝ, (∑ k : Fin 4096, rowsOf x r k * Ideal.sign (W1 (ix2 j k))) + Ideal.sign (b1 (ix1 j)) = (y : EReal)
  exact sum_mul_add_real (fun k => rowsOf x r k) (fun k => Ideal.sign (W1 (ix2 j k))) _ (fun _ => hx _)
    (fun _ => sign_real _) (sign_real _)

/-- The second layer before normalization is real-valued, whichever variance the first layer used. -/
theorem pre2_real (r : Fin 16384) (j : Fin 128) :
    ∃ y : ℝ, pre2 (@var) x W1 b1 g1 be1 W2 b2 r j = (y : EReal) := by
  show ∃ y : ℝ, (∑ k : Fin 256, act1 (@var) x W1 b1 g1 be1 r k * Ideal.sign (W2 (ix2 j k)))
    + Ideal.sign (b2 (ix1 j)) = (y : EReal)
  exact sum_mul_add_real (fun k => act1 (@var) x W1 b1 g1 be1 r k) (fun k => Ideal.sign (W2 (ix2 j k))) _
    (fun k => act_real _ _ _ _ r k) (fun _ => sign_real _) (sign_real _)

end Network

variable (x : (⟨4, ![16384, 1, 64, 64]⟩ : Shape).Idx → EReal)
  (W1 : (⟨2, ![256, 4096]⟩ : Shape).Idx → EReal) (b1 g1 be1 : (⟨1, ![256]⟩ : Shape).Idx → EReal)
  (W2 : (⟨2, ![128, 256]⟩ : Shape).Idx → EReal) (b2 g2 be2 : (⟨1, ![128]⟩ : Shape).Idx → EReal)
  (W4 : (⟨2, ![12, 128]⟩ : Shape).Idx → EReal) (b4 : (⟨1, ![12]⟩ : Shape).Idx → EReal)

/-- The first normalized layer does not depend on the way the variance is taken. -/
theorem act1_eq (hx : ∀ i, ∃ y : ℝ, x i = (y : EReal)) :
    act1 (@varOfSquares) x W1 b1 g1 be1 = act1 (@varOfDeviations) x W1 b1 g1 be1 := by
  unfold act1
  rw [var_eq (pre1 x W1 b1) (pre1_real x W1 b1 hx)]

/-- Nor does the second layer before normalization. -/
theorem pre2_eq (hx : ∀ i, ∃ y : ℝ, x i = (y : EReal)) :
    pre2 (@varOfSquares) x W1 b1 g1 be1 W2 b2 = pre2 (@varOfDeviations) x W1 b1 g1 be1 W2 b2 := by
  unfold pre2
  rw [act1_eq x W1 b1 g1 be1 hx]

/-- Nor the second normalized layer. -/
theorem act2_eq (hx : ∀ i, ∃ y : ℝ, x i = (y : EReal)) :
    act2 (@varOfSquares) x W1 b1 g1 be1 W2 b2 g2 be2 = act2 (@varOfDeviations) x W1 b1 g1 be1 W2 b2 g2 be2 := by
  unfold act2
  rw [pre2_eq x W1 b1 g1 be1 W2 b2 hx,
    var_eq (pre2 (@varOfDeviations) x W1 b1 g1 be1 W2 b2) (pre2_real (@varOfDeviations) x W1 b1 g1 be1 W2 b2)]

/-- On a real-valued input the network with the variance as mean of squares minus squared mean is the network with the
    variance as mean of squared deviations. -/
theorem netBySquares_eq_netByDeviations (hx : ∀ i, ∃ r : ℝ, x i = (r : EReal)) :
    netBySquares x W1 b1 g1 be1 W2 b2 g2 be2 W4 b4 = netByDeviations x W1 b1 g1 be1 W2 b2 g2 be2 W4 b4 := by
  funext i
  show out (@varOfSquares) x W1 b1 g1 be1 W2 b2 g2 be2 W4 b4 i = out (@varOfDeviations) x W1 b1 g1 be1 W2 b2 g2 be2 W4 b4 i
  unfold out
  rw [act2_eq x W1 b1 g1 be1 W2 b2 g2 be2 hx]

end Cert.Net

end
-- ==== Proof.PreFinite.lean ====
/-
  From the precondition to a real-valued input.

  The precondition says that a predicate of the twelve argument arrays is all ones: the conjunction, array by array, of
  "every entry's absolute value is below +∞". Read back at the first array: the conjunction gives its conjunct, the
  conjunct (a reduction by `and` over every axis) gives each entry's comparison, and an extended real whose absolute
  value is below +∞ is neither infinity, that is, a real.
-/
import proofs.«145499_j5368709120128_1_alg».proof.Defs
import Idealize.ShloMosaic.Lib.ReduceAll
import Idealize.ShloMosaic.Lib.ValueIdx
import Idealize.ShloMosaic.PureOps.Ideal.Laws

noncomputable section

namespace Cert.PreFinite

open Idealize.ShloMosaic Idealize.ShloMosaic.TcCoe Idealize.SL.Sem

/-- The scalar shape has one index. -/
instance : Subsingleton (Cert.Pre_finite_inputs.S_).Idx := ⟨fun _ _ => funext fun d => d.elim0⟩

/-- The word the predicate compares against denotes +∞. -/
theorem ofBits_inf : Ideal.ofBits .f32 0x7F800000#32 = ⊤ := by
  simp [Ideal.ofBits, Ideal.ieee]

/-- An extended real whose absolute value is below +∞ is a real. -/
theorem real_of_abs_lt_top (z : EReal)
    (h : Ideal.cmp .olt (max z (-z)) (Ideal.ofBits .f32 0x7F800000#32) = 1#1) : ∃ r : ℝ, z = (r : EReal) := by
  rw [ofBits_inf] at h
  induction z using EReal.rec with
  | bot => simp [Ideal.cmp] at h
  | top => simp [Ideal.cmp] at h
  | coe r => exact ⟨r, rfl⟩

open Cert.Pre_finite_inputs in
/-- If the predicate of the argument arrays is all ones, every entry of the first array is a real. -/
theorem arg0_real [Cert.Pre_finite_inputs.Facts] (a0 : FVec Ideal S16384x1x64x64 .f32) (a1 : FVec Ideal S256x4096 .f32)
    (a2 a3 a4 : FVec Ideal S256 .f32) (a5 : FVec Ideal S128x256 .f32) (a6 a7 a8 : FVec Ideal S128 .f32)
    (a9 : FVec Ideal S12x128 .f32) (a10 : FVec Ideal S12 .f32) (a11 : IVec S16384 32)
    (h : fn (F := Ideal) a0 a1 a2 a3 a4 a5 a6 a7 a8 a9 a10 a11 = fun _ => 1#1) (i : S16384x1x64x64.Idx) :
    ∃ r : ℝ, a0 i = (r : EReal) := by
  have h0 := congrFun h ValueIdx.ix0
  dsimp only [fn, fn_part1, fn_part2, fn_part3] at h0
  dsimp only [andi] at h0
  simp only [IntOp.andi_eq_one] at h0
  obtain ⟨⟨⟨⟨⟨⟨⟨⟨⟨⟨h3, _⟩, _⟩, _⟩, _⟩, _⟩, _⟩, _⟩, _⟩, _⟩, _⟩ := h0
  exact real_of_abs_lt_top _ (Host.reduce_andi_all _ _ _ _ _ h3 i)

/-- Under the precondition the input array is real-valued, on every device. -/
theorem x_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i
      = (r : EReal) :=
  fun i => arg0_real _ _ _ _ _ _ _ _ _ _ _ _ (h c) i

end Cert.PreFinite

end
-- ==== Proof.lean ====
/-
  The claim: the kernel's program and the reference compute the same function of the argument arrays, over the extended
  reals, whenever the float inputs are finite.

  Both are a three-layer network: two linear layers by the SIGNS of their weights and biases, each followed by batch
  normalization over the 16384 rows and a clip to [-1, 1], then a plain linear layer. The kernel's program splits the work
  into three calls — each a pipeline over row blocks; the first two also accumulate, block by block, the column sums and
  column sums of squares that the next call's normalization needs — and computes a column's variance as the mean of squares
  minus the squared mean. The reference computes it as the mean of squared deviations. The two agree for real-valued
  columns, and the columns are real-valued: the input is finite, a sign is -1, 0 or 1, and a clipped value lies in
  [-1, 1]. Nothing else differs: a change of float format is the identity here, and a sum taken block by block is the sum.

  The frames (each program runs to its end without a fault and leaves its arguments as they were) come from the same run
  theorem that yields the kernel's result; the word-level program is the same text read at machine words.
-/
import proofs.«145499_j5368709120128_1_alg».proof.Defs
import proofs.«145499_j5368709120128_1_alg».proof.Proof.Gen.Kernel
import proofs.«145499_j5368709120128_1_alg».proof.Proof.Gen.KernelIdeal
import proofs.«145499_j5368709120128_1_alg».proof.Proof.Gen.ReferenceIdeal
import proofs.«145499_j5368709120128_1_alg».proof.Proof.Gen.Pre_finite_inputs
import proofs.«145499_j5368709120128_1_alg».proof.Proof.Gen.ReferenceIdeal.Run
import proofs.«145499_j5368709120128_1_alg».proof.Proof.K.Run
import proofs.«145499_j5368709120128_1_alg».proof.Proof.KI.Run
import proofs.«145499_j5368709120128_1_alg».proof.Proof.KI.Net
import proofs.«145499_j5368709120128_1_alg».proof.Proof.RefIsNet
import proofs.«145499_j5368709120128_1_alg».proof.Proof.NetEq
import proofs.«145499_j5368709120128_1_alg».proof.Proof.PreFinite
import Idealize.ShloMosaic.Adequacy
import Idealize.ShloMosaic.Init

noncomputable section

namespace Cert.Proof

open Idealize.ShloMosaic Idealize.SL.Sem

/-- The word-level program runs to its end and writes no argument. -/
theorem frame_k : Cert.frame_Kernel := fun m ρ _ => Cert.Kernel.Whole.frame (F := Bits) m ρ

/-- So does the program read over the extended reals. -/
theorem frame_ki : Cert.frame_KernelIdeal := fun m ρ _ => Cert.KernelIdeal.Whole.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel's program was rewritten for the reading over the extended reals. -/
theorem preserves : Cert.preserves_Kernel_KernelIdeal := trivial

/-- Both programs end with the network of the arguments: the kernel's with the variance as mean of squares minus squared
    mean, the reference's as mean of squared deviations — one function, the input being finite. -/
theorem algebraic : Cert.algebraic_KernelIdeal_ReferenceIdeal := by
  intro m ρ m' ρ' hpre hagree
  refine ⟨fun c => Cert.Net.netBySquares
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Net.kernel_is_net m c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.RefNet.res_eq_net m' c]
    obtain ⟨e0, e1, e2, e3, e4, e5, e6, e7, e8, e9, e10, -⟩ := hagree c
    rw [e0, e1, e2, e3, e4, e5, e6, e7, e8, e9, e10]
    exact (Cert.Net.netBySquares_eq_netByDeviations _ _ _ _ _ _ _ _ _ _ _ (Cert.PreFinite.x_real m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
